-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x7 : Shape := ⟨2, ![4000000, 7]⟩
abbrev S4000000 : Shape := ⟨1, ![4000000]⟩
abbrev S_ : Shape := ⟨0, ![]⟩

class Facts : Prop where
  bcast_S_S4000000x7 : S_.BroadcastsInDim S4000000x7 (![] : Fin 0 → Fin S4000000x7.rank)
  reducesTo_S4000000x7_S_d0_1 : S4000000x7.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x7 .f32) (main_arg1 : FVec F S4000000x7 .f32) (main_arg2 : FVec F S4000000 .f32) : IVec S_ 1 :=
  let main_v0 : FVec F S4000000x7 .f32 := Host.absf main_arg0
  let main_cst : FVec F S_ .f32 := constant S_ .f32 0x7F800000#32
  let main_v1 : FVec F S4000000x7 .f32 := broadcastInDim S4000000x7 ![] bcast_S_S4000000x7 main_cst
  let main_v2 : IVec S4000000x7 1 := cmpf .olt main_v0 main_v1
  let main_c : IVec S_ 1 := constantI S_ 1 1#1
  let main_v3 : IVec S_ 1 := (fun x v => Host.reduce IntOp.andi x v reducesTo_S4000000x7_S_d0_1 h_S_) main_v2 main_c
  let main_v4 : FVec F S4000000x7 .f32 := Host.absf main_arg1
  let main_cst_0 : FVec F S_ .f32 := constant S_ .f32 0x7F800000#32
  let main_v5 : FVec F S4000000x7 .f32 := broadcastInDim S4000000x7 ![] bcast_S_S4000000x7 main_cst_0
  let main_v6 : IVec S4000000x7 1 := cmpf .olt main_v4 main_v5
  let main_c_1 : IVec S_ 1 := constantI S_ 1 1#1
  let main_v7 : IVec S_ 1 := (fun x v => Host.reduce IntOp.andi x v reducesTo_S4000000x7_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S4000000x7 : Shape := ⟨2, ![4000000, 7]⟩
abbrev S4000000 : Shape := ⟨1, ![4000000]⟩
abbrev S_ : Shape := ⟨0, ![]⟩
abbrev S4194304x7 : Shape := ⟨2, ![4194304, 7]⟩
abbrev S4194304 : Shape := ⟨1, ![4194304]⟩
abbrev S7x4194304 : Shape := ⟨2, ![7, 4194304]⟩
abbrev S7x32768x128 : Shape := ⟨3, ![7, 32768, 128]⟩
abbrev S32768x128 : Shape := ⟨2, ![32768, 128]⟩
abbrev S16x128 : Shape := ⟨2, ![16, 128]⟩
abbrev S7x2048x128 : Shape := ⟨3, ![7, 2048, 128]⟩
abbrev S2048x128 : Shape := ⟨2, ![2048, 128]⟩
abbrev S8x128 : Shape := ⟨2, ![8, 128]⟩
abbrev S1x128 : Shape := ⟨2, ![1, 128]⟩
abbrev S1x256x128 : Shape := ⟨3, ![1, 256, 128]⟩
abbrev S256x128 : Shape := ⟨2, ![256, 128]⟩
abbrev S128 : Shape := ⟨1, ![128]⟩

abbrev nBuf : Space → Nat
  | .hbm => 29
  | .vmem => 9
  | .smem => 0
  | _ => 0

abbrev bufTy : (tb : Table) → Fin (tcTables nBuf tb) → BufTy
  | .hbm, ⟨0, _⟩ => ⟨S4000000x7, .f32⟩
  | .hbm, ⟨1, _⟩ => ⟨S4000000x7, .f32⟩
  | .hbm, ⟨2, _⟩ => ⟨S4000000, .f32⟩
  | .hbm, ⟨3, _⟩ => ⟨S_, .f32⟩
  | .hbm, ⟨4, _⟩ => ⟨S_, .f32⟩
  | .hbm, ⟨5, _⟩ => ⟨S4194304x7, .f32⟩
  | .hbm, ⟨6, _⟩ => ⟨S_, .f32⟩
  | .hbm, ⟨7, _⟩ => ⟨S_, .f32⟩
  | .hbm, ⟨8, _⟩ => ⟨S4194304x7, .f32⟩
  | .hbm, ⟨9, _⟩ => ⟨S_, .f32⟩
  | .hbm, ⟨10, _⟩ => ⟨S_, .f32⟩
  | .hbm, ⟨11, _⟩ => ⟨S4194304, .f32⟩
  | .hbm, ⟨12, _⟩ => ⟨S7x4194304, .f32⟩
  | .hbm, ⟨13, _⟩ => ⟨S7x32768x128, .f32⟩
  | .hbm, ⟨14, _⟩ => ⟨S7x4194304, .f32⟩
  | .hbm, ⟨15, _⟩ => ⟨S7x32768x128, .f32⟩
  | .hbm, ⟨16, _⟩ => ⟨S32768x128, .f32⟩
  | .hbm, ⟨17, _⟩ => ⟨S16x128, .f32⟩
  | .hbm, ⟨18, _⟩ => ⟨S1x128, .f32⟩
  | .hbm, ⟨19, _⟩ => ⟨S_, .f32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S7x2048x128, .f32⟩
  | .local _ .vmem, ⟨1, _⟩ => ⟨S7x2048x128, .f32⟩
  | .local _ .vmem, ⟨2, _⟩ => ⟨S7x2048x128, .f32⟩
  | .local _ .vmem, ⟨3, _⟩ => ⟨S7x2048x128, .f32⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | _, _ => ⟨S4000000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_cst_0 : Ref sig .tc := ⟨.hbm, 6, rfl⟩
abbrev main_call1_v0 : Ref sig .tc := ⟨.hbm, 7, rfl⟩
abbrev main_v1 : Ref sig .tc := ⟨.hbm, 8, rfl⟩
abbrev main_cst_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_mult1 : BitVec 32 :=
  let c0_i32_1 : BitVec 32 := 0#32
  let c256_i32 : BitVec 32 := 256#32
  let v4 : BitVec 32 := Scalar.muli c0_i32_1 c256_i32
  v4
def k0_off1 (c0_i32_1 : BitVec 32) : Fin 3 → Nat :=
  let c0 : Index := 0#32
  let c256_i32 : BitVec 32 := 256#32
  let v4 : BitVec 32 := Scalar.muli c0_i32_1 c256_i32
  let v5 : BitVec 32 := v4
  let v6 : Index := Scalar.indexCast v5
  let c0_2 : Index := 0#32
  ![0, v6.toNat, 0]
def k0_off2 (c0_i32_1 : BitVec 32) : Fin 3 → Nat :=
  let c1 : Index := 1#32
  let c256_i32 : BitVec 32 := 256#32
  let v4 : BitVec 32 := Scalar.muli c0_i32_1 c256_i32
  let v5 : BitVec 32 := v4
  let v9 : Index := Scalar.indexCast v5
  let c0_3 : Index := 0#32
  ![1, v9.toNat, 0]
def k0_off3 (c0_i32_1 : BitVec 32) : Fin 3 → Nat :=
  let c2 : Index := 2#32
  let c256_i32 : BitVec 32 := 256#32
  let v4 : BitVec 32 := Scalar.muli c0_i32_1 c256_i32
  let v5 : BitVec 32 := v4
  let v12 : Index := Scalar.indexCast v5
  let c0_4 : Index := 0#32
  ![2, v12.toNat, 0]
def k0_off4 (c0_i32_1 : BitVec 32) : Fin 3 → Nat :=
  let c3 : Index := 3#32
  let c256_i32 : BitVec 32 := 256#32
  let v4 : BitVec 32 := Scalar.muli c0_i32_1 c256_i32
  let v5 : BitVec 32 := v4
  let v15 : Index := Scalar.indexCast v5
  let c0_5 : Index := 0#32
  ![3, v15.toNat, 0]
def k0_off5 (c0_i32_1 : BitVec 32) : Fin 3 → Nat :=
  let c4 : Index := 4#32
  let c256_i32 : BitVec 32 := 256#32
  let v4 : BitVec 32 := Scalar.muli c0_i32_1 c256_i32
  let v5 : BitVec 32 := v4
  let v18 : Index := Scalar.indexCast v5
  let c0_6 : Index := 0#32
  ![4, v18.toNat, 0]
def k0_off6 (c0_i32_1 : BitVec 32) : Fin 3 → Nat :=
  let c5 : Index := 5#32
  let c256_i32 : BitVec 32 := 256#32
  let v4 : BitVec 32 := Scalar.muli c0_i32_1 c256_i32
  let v5 : BitVec 32 := v4
  let v21 : Index := Scalar.indexCast v5
  let c0_7 : Index := 0#32
  ![5, v21.toNat, 0]
def k0_off7 (c0_i32_1 : BitVec 32) : Fin 3 → Nat :=
  let c6 : Index := 6#32
  let c256_i32 : BitVec 32 := 256#32
  let v4 : BitVec 32 := Scalar.muli c0_i32_1 c256_i32
  let v5 : BitVec 32 := v4
  let v24 : Index := Scalar.indexCast v5
  let c0_8 : Index := 0#32
  ![6, v24.toNat, 0]
def k0_off8 (c0_i32_1 : BitVec 32) : Fin 2 → Nat :=
  let c256_i32 : BitVec 32 := 256#32
  let v4 : BitVec 32 := Scalar.muli c0_i32_1 c256_i32
  let v5 : BitVec 32 := v4
  let v48 : Index := Scalar.indexCast v5
  let c0_23 : Index := 0#32
  ![v48.toNat, 0]
def k0_mult2 : BitVec 32 :=
  let c1_i32 : BitVec 32 := 1#32
  let c256_i32_60 : BitVec 32 := 256#32
  let v204 : BitVec 32 := Scalar.muli c1_i32 c256_i32_60
  v204
def k0_mult3 : BitVec 32 :=
  let c2_i32 : BitVec 32 := 2#32
  let c256_i32_126 : BitVec 32 := 256#32
  let v404 : BitVec 32 := Scalar.muli c2_i32 c256_i32_126
  v404
def k0_mult4 : BitVec 32 :=
  let c3_i32 : BitVec 32 := 3#32
  let c256_i32_192 : BitVec 32 := 256#32
  let v604 : BitVec 32 := Scalar.muli c3_i32 c256_i32_192
  v604
def k0_mult5 : BitVec 32 :=
  let c4_i32 : BitVec 32 := 4#32
  let c256_i32_258 : BitVec 32 := 256#32
  let v804 : BitVec 32 := Scalar.muli c4_i32 c256_i32_258
  v804
def k0_mult6 : BitVec 32 :=
  let c5_i32 : BitVec 32 := 5#32
  let c256_i32_324 : BitVec 32 := 256#32
  let v1004 : BitVec 32 := Scalar.muli c5_i32 c256_i32_324
  v1004
def k0_mult7 : BitVec 32 :=
  let c6_i32 : BitVec 32 := 6#32
  let c256_i32_390 : BitVec 32 := 256#32
  let v1204 : BitVec 32 := Scalar.muli c6_i32 c256_i32_390
  v1204
def k0_mult8 : BitVec 32 :=
  let c7_i32 : BitVec 32 := 7#32
  let c256_i32_456 : BitVec 32 := 256#32
  let v1404 : BitVec 32 := Scalar.muli c7_i32 c256_i32_456
  v1404
def k0_cond2 (i : grid0.Coords) : BitVec 1 :=
  let arg1 : BitVec 32 := BitVec.ofNat 32 (i 1).val
  let c7_i32_526 : BitVec 32 := 7#32
  let v1609 : BitVec 1 := Scalar.cmpi .eq arg1 c7_i32_526
  let v1610 : BitVec 32 := Scalar.extui v1609
  let c0_i32_527 : BitVec 32 := 0#32
  let v1611 : BitVec 1 := Scalar.cmpi .ne v1610 c0_i32_527
  v1611

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S7x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S4000000x7_S4194304x7_01943040_000 : S4000000x7.Pads (![0, 0] : Fin 2 → Nat) ![194304, 0] ![0, 0] S4194304x7
  h_S_ : 0 < S_.numel
  pads_S4000000_S4194304_01943040 : S4000000.Pads (![0] : Fin 1 → Nat) ![194304] ![0] S4194304
  transposes_S4194304x7_S7x4194304_1_0 : S4194304x7.Transposes [1, 0] S7x4194304
  shapeCasts_S7x4194304_S7x32768x128 : S7x4194304.ShapeCasts S7x32768x128
  shapeCasts_S4194304_S32768x128 : S4194304.ShapeCasts S32768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S1x256x128 : 0 < S1x256x128.numel
  shapeCasts_S1x256x128_S256x128 : S1x256x128.ShapeCasts S256x128
  h_S256x128 : 0 < S256x128.numel
  shapeCasts_S256x128_S256x128 : S256x128.ShapeCasts S256x128
  reduces_S256x128_S128 : S256x128.Reduces [0] S128
  shapeCasts_S128_S1x128 : S128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16x128_S1x128_0_0 : S16x128.Slices ![0, 0] S1x128
  reducesTo_S1x128_S_d0_1 : S1x128.ReducesTo [0, 1] S_
  slices_S16x128_S1x128_8_0 : S16x128.Slices ![8, 0] S1x128
  hrank0 : 0 < grid0.rank
  k0_mult1_dvd : 256 ∣ k0_mult1.toNat
  k0_off1_inb : ∀ (r : Fin 8), ∀ a, (k0_off1 (BitVec.ofNat 32 r.val)) a + S1x256x128.size a ≤ S7x2048x128.size a
  k0_off2_inb : ∀ (r : Fin 8), ∀ a, (k0_off2 (BitVec.ofNat 32 r.val)) a + S1x256x128.size a ≤ S7x2048x128.size a
  k0_off3_inb : ∀ (r : Fin 8), ∀ a, (k0_off3 (BitVec.ofNat 32 r.val)) a + S1x256x128.size a ≤ S7x2048x128.size a
  k0_off4_inb : ∀ (r : Fin 8), ∀ a, (k0_off4 (BitVec.ofNat 32 r.val)) a + S1x256x128.size a ≤ S7x2048x128.size a
  k0_off5_inb : ∀ (r : Fin 8), ∀ a, (k0_off5 (BitVec.ofNat 32 r.val)) a + S1x256x128.size a ≤ S7x2048x128.size a
  k0_off6_inb : ∀ (r : Fin 8), ∀ a, (k0_off6 (BitVec.ofNat 32 r.val)) a + S1x256x128.size a ≤ S7x2048x128.size a
  k0_off7_inb : ∀ (r : Fin 8), ∀ a, (k0_off7 (BitVec.ofNat 32 r.val)) a + S1x256x128.size a ≤ S7x2048x128.size a
  k0_off8_inb : ∀ (r : Fin 8), ∀ a, (k0_off8 (BitVec.ofNat 32 r.val)) a + S256x128.size a ≤ S2048x128.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x2048x128.size a ≤ S7x32768x128.size a
  hwx0_0 : ∀ i : grid0.Coords, EltTy.bits .f32 = 32 ∨ (Rect.block (s := S7x32768x128) S7x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7x2048x128.size a ≤ S7x32768x128.size a
  hwx0_1 : ∀ i : grid0.Coords, EltTy.bits .f32 = 32 ∨ (Rect.block (s := S7x32768x128) S7x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .f32 = 32 ∨ (Rect.block (s := S32768x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_v4) S7x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S7x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4000000x7 : Shape := ⟨2, ![4000000, 7]⟩
abbrev S4000000 : Shape := ⟨1, ![4000000]⟩
abbrev S3 : Shape := ⟨1, ![3]⟩
abbrev S4000000x3 : Shape := ⟨2, ![4000000, 3]⟩
abbrev S1x3 : Shape := ⟨2, ![1, 3]⟩
abbrev S4000000x2 : Shape := ⟨2, ![4000000, 2]⟩
abbrev S_ : Shape := ⟨0, ![]⟩
abbrev S4000000x1 : Shape := ⟨2, ![4000000, 1]⟩

abbrev nBuf : Space → Nat
  | .hbm => 206
  | .vmem => 0
  | .smem => 0
  | _ => 0

abbrev hbmTy0_0 (i : Nat) : BufTy := match i % 128 with
  | 0 => ⟨S4000000x7, .f32⟩
  | 1 => ⟨S4000000x7, .f32⟩
  | 2 => ⟨S4000000, .f32⟩
  | 3 => ⟨S3, .f32⟩
  | 4 => ⟨S3, .f32⟩
  | 5 => ⟨S4000000x3, .f32⟩
  | 6 => ⟨S1x3, .f32⟩
  | 7 => ⟨S4000000x3, .f32⟩
  | 8 => ⟨S4000000x3, .f32⟩
  | 9 => ⟨S4000000x3, .f32⟩
  | 10 => ⟨S4000000x3, .f32⟩
  | 11 => ⟨S4000000x2, .f32⟩
  | 12 => ⟨S_, .f32⟩
  | 13 => ⟨S_, .f32⟩
  | 14 => ⟨S_, .f32⟩
  | 15 => ⟨S4000000x2, .f32⟩
  | 16 => ⟨S4000000x2, .f32⟩
  | 17 => ⟨S_, .f32⟩
  | 18 => ⟨S4000000x2, .f32⟩
  | 19 => ⟨S4000000x2, .f32⟩
  | 20 => ⟨S4000000x1, .f32⟩
  | 21 => ⟨S4000000, .f32⟩
  | 22 => ⟨S_, .f32⟩
  | 23 => ⟨S_, .f32⟩
  | 24 => ⟨S_, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S4000000x1, .f32⟩
  | 31 => ⟨S4000000, .f32⟩
  | 32 => ⟨S4000000, .f32⟩
  | 33 => ⟨S4000000, .f32⟩
  | 34 => ⟨S_, .f32⟩
  | 35 => ⟨S4000000x2, .f32⟩
  | 36 => ⟨S4000000x2, .f32⟩
  | 37 => ⟨S_, .f32⟩
  | 38 => ⟨S4000000, .f32⟩
  | 39 => ⟨S4000000, .f32⟩
  | 40 => ⟨S4000000x3, .f32⟩
  | 41 => ⟨S1x3, .f32⟩
  | 42 => ⟨S4000000x3, .f32⟩
  | 43 => ⟨S4000000x3, .f32⟩
  | 44 => ⟨S4000000x3, .f32⟩
  | 45 => ⟨S4000000x3, .f32⟩
  | 46 => ⟨S4000000x2, .f32⟩
  | 47 => ⟨S_, .f32⟩
  | 48 => ⟨S_, .f32⟩
  | 49 => ⟨S_, .f32⟩
  | 50 => ⟨S4000000x2, .f32⟩
  | 51 => ⟨S4000000x2, .f32⟩
  | 52 => ⟨S_, .f32⟩
  | 53 => ⟨S4000000x2, .f32⟩
  | 54 => ⟨S4000000x2, .f32⟩
  | 55 => ⟨S4000000x1, .f32⟩
  | 56 => ⟨S4000000, .f32⟩
  | 57 => ⟨S_, .f32⟩
  | 58 => ⟨S_, .f32⟩
  | 59 => ⟨S_, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S4000000x1, .f32⟩
  | 66 => ⟨S4000000, .f32⟩
  | 67 => ⟨S4000000, .f32⟩
  | 68 => ⟨S4000000, .f32⟩
  | 69 => ⟨S_, .f32⟩
  | 70 => ⟨S4000000x2, .f32⟩
  | 71 => ⟨S4000000x2, .f32⟩
  | 72 => ⟨S_, .f32⟩
  | 73 => ⟨S4000000, .f32⟩
  | 74 => ⟨S4000000, .f32⟩
  | 75 => ⟨S4000000x3, .f32⟩
  | 76 => ⟨S4000000x3, .f32⟩
  | 77 => ⟨S_, .f32⟩
  | 78 => ⟨S4000000, .f32⟩
  | 79 => ⟨S4000000x2, .f32⟩
  | 80 => ⟨S_, .f32⟩
  | 81 => ⟨S4000000, .f32⟩
  | 82 => ⟨S4000000x2, .f32⟩
  | 83 => ⟨S_, .f32⟩
  | 84 => ⟨S4000000, .f32⟩
  | 85 => ⟨S4000000, .f32⟩
  | 86 => ⟨S4000000x1, .f32⟩
  | 87 => ⟨S4000000, .f32⟩
  | 88 => ⟨S4000000x1, .f32⟩
  | 89 => ⟨S4000000, .f32⟩
  | 90 => ⟨S4000000, .f32⟩
  | 91 => ⟨S4000000x1, .f32⟩
  | 92 => ⟨S4000000, .f32⟩
  | 93 => ⟨S4000000x1, .f32⟩
  | 94 => ⟨S4000000, .f32⟩
  | 95 => ⟨S4000000, .f32⟩
  | 96 => ⟨S4000000, .f32⟩
  | 97 => ⟨S4000000, .f32⟩
  | 98 => ⟨S4000000, .f32⟩
  | 99 => ⟨S4000000, .f32⟩
  | 100 => ⟨S4000000, .f32⟩
  | 101 => ⟨S4000000, .f32⟩
  | 102 => ⟨S4000000, .f32⟩
  | 103 => ⟨S4000000, .f32⟩
  | 104 => ⟨S4000000, .f32⟩
  | 105 => ⟨S4000000, .f32⟩
  | 106 => ⟨S4000000, .f32⟩
  | 107 => ⟨S4000000, .f32⟩
  | 108 => ⟨S4000000, .f32⟩
  | 109 => ⟨S4000000x1, .f32⟩
  | 110 => ⟨S4000000, .f32⟩
  | 111 => ⟨S4000000x1, .f32⟩
  | 112 => ⟨S4000000, .f32⟩
  | 113 => ⟨S4000000, .f32⟩
  | 114 => ⟨S4000000x1, .f32⟩
  | 115 => ⟨S4000000, .f32⟩
  | 116 => ⟨S4000000x1, .f32⟩
  | 117 => ⟨S4000000, .f32⟩
  | 118 => ⟨S4000000, .f32⟩
  | 119 => ⟨S4000000, .f32⟩
  | 120 => ⟨S4000000, .f32⟩
  | 121 => ⟨S4000000, .f32⟩
  | 122 => ⟨S4000000, .f32⟩
  | 123 => ⟨S4000000, .f32⟩
  | 124 => ⟨S4000000, .f32⟩
  | 125 => ⟨S4000000, .f32⟩
  | 126 => ⟨S4000000, .f32⟩
  | 127 => ⟨S4000000, .f32⟩
  | _ => ⟨S4000000x7, .f32⟩

abbrev hbmTy0_1 (i : Nat) : BufTy := match i % 128 with
  | 0 => ⟨S4000000, .f32⟩
  | 1 => ⟨S4000000, .f32⟩
  | 2 => ⟨S4000000, .f32⟩
  | 3 => ⟨S4000000, .f32⟩
  | 4 => ⟨S4000000, .f32⟩
  | 5 => ⟨S_, .f32⟩
  | 6 => ⟨S4000000, .f32⟩
  | 7 => ⟨S4000000, .f32⟩
  | 8 => ⟨S4000000, .f32⟩
  | 9 => ⟨S4000000, .f32⟩
  | 10 => ⟨S4000000, .f32⟩
  | 11 => ⟨S4000000, .f32⟩
  | 12 => ⟨S4000000x1, .f32⟩
  | 13 => ⟨S4000000, .f32⟩
  | 14 => ⟨S4000000x1, .f32⟩
  | 15 => ⟨S4000000, .f32⟩
  | 16 => ⟨S4000000, .f32⟩
  | 17 => ⟨S4000000x1, .f32⟩
  | 18 => ⟨S4000000, .f32⟩
  | 19 => ⟨S4000000, .f32⟩
  | 20 => ⟨S4000000x1, .f32⟩
  | 21 => ⟨S4000000, .f32⟩
  | 22 => ⟨S4000000, .f32⟩
  | 23 => ⟨S_, .f32⟩
  | 24 => ⟨S4000000, .f32⟩
  | 25 => ⟨S4000000, .f32⟩
  | 26 => ⟨S4000000, .f32⟩
  | 27 => ⟨S_, .f32⟩
  | 28 => ⟨S_, .f32⟩
  | 29 => ⟨S4000000, .f32⟩
  | 30 => ⟨S4000000, .f32⟩
  | 31 => ⟨S4000000, .f32⟩
  | 32 => ⟨S_, .f32⟩
  | 33 => ⟨S4000000, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S_, .f32⟩
  | 40 => ⟨S4000000, .f32⟩
  | 41 => ⟨S4000000, .f32⟩
  | 42 => ⟨S4000000, .f32⟩
  | 43 => ⟨S_, .f32⟩
  | 44 => ⟨S_, .f32⟩
  | 45 => ⟨S4000000, .f32⟩
  | 46 => ⟨S4000000, .f32⟩
  | 47 => ⟨S4000000, .f32⟩
  | 48 => ⟨S4000000, .f32⟩
  | 49 => ⟨S4000000, .f32⟩
  | 50 => ⟨S4000000, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S4000000, .f32⟩
  | 57 => ⟨S_, .f32⟩
  | 58 => ⟨S4000000, .f32⟩
  | 59 => ⟨S4000000, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S_, .f32⟩
  | 66 => ⟨S4000000, .f32⟩
  | 67 => ⟨S4000000, .f32⟩
  | 68 => ⟨S_, .f32⟩
  | 69 => ⟨S4000000, .f32⟩
  | 70 => ⟨S4000000, .f32⟩
  | 71 => ⟨S4000000, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | _ => ⟨S4000000x7, .f32⟩

abbrev hbmTy (i : Nat) : BufTy := match i / 128 with
  | 0 => hbmTy0_0 i
  | 1 => hbmTy0_1 i
  | _ => ⟨S4000000x7, .f32⟩

abbrev bufTy : (tb : Table) → Fin (tcTables nBuf tb) → BufTy
  | .hbm, ⟨i, _⟩ => hbmTy i
  | _, _ => ⟨S4000000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_cst_8 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_9 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_11 : Ref sig .tc := ⟨.hbm, 69, rfl⟩
abbrev main_v34 : Ref sig .tc := ⟨.hbm, 70, rfl⟩
abbrev main_v35 : Ref sig .tc := ⟨.hbm, 71, rfl⟩
abbrev main_cst_12 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_13 : Ref sig .tc := ⟨.hbm, 77, rfl⟩
abbrev main_v40 : Ref sig .tc := ⟨.hbm, 78, rfl⟩
abbrev main_v41 : Ref sig .tc := ⟨.hbm, 79, rfl⟩
abbrev main_cst_14 : Ref sig .tc := ⟨.hbm, 80, rfl⟩
abbrev main_v42 : Ref sig .tc := ⟨.hbm, 81, rfl⟩
abbrev main_v43 : Ref sig .tc := ⟨.hbm, 82, rfl⟩
abbrev main_cst_15 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_17 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_18 : Ref sig .tc := ⟨.hbm, 155, rfl⟩
abbrev main_call4_v0 : Ref sig .tc := ⟨.hbm, 156, rfl⟩
abbrev main_call4_v1 : Ref sig .tc := ⟨.hbm, 157, rfl⟩
abbrev main_v113 : Ref sig .tc := ⟨.hbm, 158, rfl⟩
abbrev main_v114 : Ref sig .tc := ⟨.hbm, 159, rfl⟩
abbrev main_cst_19 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_20 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_21 : Ref sig .tc := ⟨.hbm, 171, rfl⟩
abbrev main_call5_v0 : Ref sig .tc := ⟨.hbm, 172, rfl⟩
abbrev main_call5_v1 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_22 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_23 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_24 : Ref sig .tc := ⟨.hbm, 190, rfl⟩
abbrev main_v138 : Ref sig .tc := ⟨.hbm, 191, rfl⟩
abbrev main_v139 : Ref sig .tc := ⟨.hbm, 192, rfl⟩
abbrev main_cst_25 : Ref sig .tc := ⟨.hbm, 193, rfl⟩
abbrev main_v140 : Ref sig .tc := ⟨.hbm, 194, rfl⟩
abbrev main_v141 : Ref sig .tc := ⟨.hbm, 195, rfl⟩
abbrev main_cst_26 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_27 : Ref sig .tc := ⟨.hbm, 200, rfl⟩
abbrev main_v145 : Ref sig .tc := ⟨.hbm, 201, rfl⟩
abbrev main_cst_28 : Ref sig .tc := ⟨.hbm, 202, rfl⟩
abbrev main_v146 : Ref sig .tc := ⟨.hbm, 203, rfl⟩
abbrev main_cst_29 : Ref sig .tc := ⟨.hbm, 204, rfl⟩
abbrev main_v147 : Ref sig .tc := ⟨.hbm, 205, rfl⟩

abbrev nD : Nat := 1
abbrev τ : Topo := Topo.v7x

variable {F : FTy → Type} [FloatOps F]

class Facts₀ : Prop where
  slices_S4000000x7_S4000000x3_0_0 : S4000000x7.Slices ![0, 0] S4000000x3
  bcast_S3_S1x3_1 : S3.BroadcastsInDim S1x3 (![1] : Fin 1 → Fin S1x3.rank)
  slices_S4000000x7_S4000000x3_0_3 : S4000000x7.Slices ![0, 3] S4000000x3
  bcast_S1x3_S4000000x3_0_1 : S1x3.BroadcastsInDim S4000000x3 (![0, 1] : Fin 2 → Fin S4000000x3.rank)
  slices_S4000000x7_S4000000x2_0_3 : S4000000x7.Slices ![0, 3] S4000000x2
  bcast_S_S4000000x2 : S_.BroadcastsInDim S4000000x2 (![] : Fin 0 → Fin S4000000x2.rank)
  slices_S4000000x7_S4000000x1_0_5 : S4000000x7.Slices ![0, 5] S4000000x1
  shapeCasts_S4000000x1_S4000000 : S4000000x1.ShapeCasts S4000000
  bcast_S_S4000000 : S_.BroadcastsInDim S4000000 (![] : Fin 0 → Fin S4000000.rank)
  slices_S4000000x7_S4000000x1_0_6 : S4000000x7.Slices ![0, 6] S4000000x1
  reducesTo_S4000000x3_S4000000_d1 : S4000000x3.ReducesTo [1] S4000000
  h_S_ : 0 < S_.numel
  reducesTo_S4000000x2_S4000000_d1 : S4000000x2.ReducesTo [1] S4000000
  slices_S4000000x2_S4000000x1_0_0 : S4000000x2.Slices ![0, 0] S4000000x1
  slices_S4000000x2_S4000000x1_0_1 : S4000000x2.Slices ![0, 1] S4000000x1
  reducesTo_S4000000_S_d0 : S4000000.ReducesTo [0] S_

variable [Facts₀]

class Facts : Prop extends Facts₀ where

variable [Facts]
-- ==== Proof.Spec.lean ====
/-
  The per-row loss both programs compute, written once on the extended reals, and the mean of its weighted rows.

  A row is seven numbers (x, y, z, w, h, l, r): a box's centre, its three sizes and its yaw. From a predicted row `p`
  and a target row `t` the loss is a Wasserstein-style distance between the two boxes read as Gaussians:
  the squared distance of the (offset) centres, plus the trace term of the two 2×2 covariances
  `Σ = R diag(sw²) Rᵀ` (entries `a, b, d`), minus twice the root of `tr(Σp Σt) + 2 √(det Σp det Σt)`, plus the squared
  difference of the half lengths; the root of that, divided by `2 · exp(log-volume / 6)`, through `log1p` and
  `1 - 1 / (1 + ·)`. Every float literal is the extended real its word denotes. The operations are the extended
  reals' own (`+ - * max min`) and the exact `Ideal.cos sin sqrt log exp log1p div`.
-/
import Idealize.ShloMosaic.PureOps.Ideal
import Idealize.ShloMosaic.Lib.ValueIdx

noncomputable section

namespace Cert.BoxLoss

open Idealize.ShloMosaic Idealize.ShloMosaic.ValueIdx

/-- A float literal, by its word. -/
abbrev lit (b : BitVec 32) : EReal := Ideal.ofBits .f32 b

/-- A centre coordinate: the position plus the offset times the matching size. -/
def centre (x d : EReal) (off : BitVec 32) : EReal := x + lit off * d

/-- A size clipped to [1e-7, 1e7], then halved. -/
def halfSize (x : EReal) : EReal := lit 0x3F000000#32 * min (lit 0x4B189680#32) (max (lit 0x33D6BF95#32) x)

/-- The covariance entry `a = c² s1 + s² s2`. -/
def covA (c s s1 s2 : EReal) : EReal := c * c * s1 + s * s * s2
/-- The covariance entry `b = c s (s1 - s2)`. -/
def covB (c s s1 s2 : EReal) : EReal := c * s * (s1 - s2)
/-- The covariance entry `d = s² s1 + c² s2`. -/
def covD (c s s1 s2 : EReal) : EReal := s * s * s1 + c * c * s2

/-- The loss of one predicted row against one target row. -/
def rowLoss (p t : Fin 7 → EReal) : EReal :=
  let xp0 := centre (p 0) (p 3) 0x00000000#32
  let xp1 := centre (p 1) (p 4) 0x00000000#32
  let xp2 := centre (p 2) (p 5) 0x3F000000#32
  let xt0 := centre (t 0) (t 3) 0x00000000#32
  let xt1 := centre (t 1) (t 4) 0x00000000#32
  let xt2 := centre (t 2) (t 5) 0x3F000000#32
  let wp0 := halfSize (p 3)
  let wp1 := halfSize (p 4)
  let lp := halfSize (p 5)
  let wt0 := halfSize (t 3)
  let wt1 := halfSize (t 4)
  let lt := halfSize (t 5)
  let cp := Ideal.cos (p 6)
  let sp := Ideal.sin (p 6)
  let ct := Ideal.cos (t 6)
  let st := Ideal.sin (t 6)
  let xyz := (xp0 - xt0) * (xp0 - xt0) + (xp1 - xt1) * (xp1 - xt1) + (xp2 - xt2) * (xp2 - xt2)
  let sizes := (wp0 * wp0 + wp1 * wp1) + (wt0 * wt0 + wt1 * wt1)
  let a1 := covA cp sp (wp0 * wp0) (wp1 * wp1)
  let b1 := covB cp sp (wp0 * wp0) (wp1 * wp1)
  let d1 := covD cp sp (wp0 * wp0) (wp1 * wp1)
  let a2 := covA ct st (wt0 * wt0) (wt1 * wt1)
  let b2 := covB ct st (wt0 * wt0) (wt1 * wt1)
  let d2 := covD ct st (wt0 * wt0) (wt1 * wt1)
  let tr := a1 * a2 + lit 0x40000000#32 * b1 * b2 + d1 * d2
  let det := wp0 * wp1 * wt0 * wt1
  let shape := sizes - lit 0x40000000#32 * Ideal.sqrt (max (lit 0x00000000#32) (tr + lit 0x40000000#32 * det))
  let whlr := shape + (lp - lt) * (lp - lt)
  let dist := Ideal.sqrt (max (lit 0x00000000#32) (xyz + lit 0x3F800000#32 * whlr))
  let vol := Ideal.log det + Ideal.log lp + Ideal.log lt
  let scale := lit 0x40000000#32 * Ideal.exp (Ideal.div vol (lit 0x40C00000#32))
  lit 0x3F800000#32 - Ideal.div (lit 0x3F800000#32) (lit 0x3F800000#32 + Ideal.log1p (Ideal.div dist scale))

/-- A row's loss times its weight. -/
def weighted (p t : Fin 7 → EReal) (w : EReal) : EReal := rowLoss p t * w

/-- A row whose weight is zero contributes zero, whatever its loss (on the extended reals `x * 0 = 0` for every `x`). -/
theorem weighted_zero (p t : Fin 7 → EReal) : weighted p t 0 = 0 := mul_zero _

/-- The N × 7 arrays of rows and the N weights, N = 4 000 000. -/
abbrev SRows : Shape := ⟨2, ![4000000, 7]⟩
abbrev SWeights : Shape := ⟨1, ![4000000]⟩
abbrev SScalar : Shape := ⟨0, ![]⟩

/-- Row `n` of an N × 7 array. -/
def rowOf (P : SRows.Idx → EReal) (n : Fin 4000000) : Fin 7 → EReal := fun k => P (ix2 n k)

/-- The sum over all N rows of loss times weight. -/
def total (P T : SRows.Idx → EReal) (W : SWeights.Idx → EReal) : EReal :=
  ∑ n : Fin 4000000, weighted (rowOf P n) (rowOf T n) (W (ix1 n))

/-- The mean: the total divided by N = 4e6, then times the loss weight 1. -/
def mean (x : EReal) : EReal := lit 0x3F800000#32 * Ideal.div x (lit 0x4A742400#32)

/-- The result both programs end with: a scalar array holding the mean weighted loss. -/
def result (P T : SRows.Idx → EReal) (W : SWeights.Idx → EReal) : SScalar.Idx → EReal :=
  fun _ => mean (total P T W)

end Cert.BoxLoss

end
-- ==== Proof.KSpec.lean ====
/-
  The kernel's arrangement of the same rows. The N = 4 000 000 rows are padded to 32768 · 128 = 4 194 304 (rows of
  ones, weights of zero) and laid out lane-dense: row number `R · 128 + l` sits at tile row `R`, lane `l`, with the seven
  coordinates on a leading axis. Tile rows are cut in 16 blocks of 2048; the grid point (core, chunk) owns block
  `core · 8 + chunk`, walks it in 8 sub-tiles of 256 tile rows, and adds each lane's column of weighted losses.
-/
import proofs.«161557_j78537771975381_2_alg».proof.Proof.Spec

noncomputable section

namespace Cert.BoxLoss

open Idealize.ShloMosaic Idealize.ShloMosaic.ValueIdx

/-- The lane-dense arrays: coordinates × tile rows × lanes, and tile rows × lanes. -/
abbrev STiles7 : Shape := ⟨3, ![7, 32768, 128]⟩
abbrev STiles : Shape := ⟨2, ![32768, 128]⟩
/-- One grid point's blocks. -/
abbrev SBlock7 : Shape := ⟨3, ![7, 2048, 128]⟩
abbrev SBlock : Shape := ⟨2, ![2048, 128]⟩

/-- Coordinate `a` of padded row `n`: the array's entry below N, the padding value one from N on. -/
def padRows (P : SRows.Idx → EReal) (a : Fin 7) (n : ℕ) : EReal :=
  if h : n < 4000000 then P (ix2 ⟨n, h⟩ a) else lit 0x3F800000#32

/-- The padded weight of row `n`: the weight below N, zero from N on. -/
def padWeights (W : SWeights.Idx → EReal) (n : ℕ) : EReal :=
  if h : n < 4000000 then W (ix1 ⟨n, h⟩) else lit 0x00000000#32

/-- The weighted loss at tile row `R`, lane `l` of lane-dense arrays. -/
def tileAt (X0 X1 : STiles7.Idx → EReal) (X2 : STiles.Idx → EReal) (R : Fin 32768) (l : Fin 128) : EReal :=
  weighted (fun a => X0 (ix3 a R l)) (fun a => X1 (ix3 a R l)) (X2 (ix2 R l))

/-- The weighted loss at row `r`, lane `l` of one grid point's blocks. -/
def blockAt (x0 x1 : SBlock7.Idx → EReal) (x2 : SBlock.Idx → EReal) (r : Fin 2048) (l : Fin 128) : EReal :=
  weighted (fun a => x0 (ix3 a r l)) (fun a => x1 (ix3 a r l)) (x2 (ix2 r l))

/-- Row `j · 256 + s` of a block: sub-tile `j`, row `s` inside it. -/
def subRow (j : Fin 8) (s : Fin 256) : Fin 2048 := ⟨j.val * 256 + s.val, by omega⟩

/-- What one grid point adds to lane `l` of the accumulator: its block's column of weighted losses, sub-tile by sub-tile. -/
def blockSum (x0 x1 : SBlock7.Idx → EReal) (x2 : SBlock.Idx → EReal) (l : Fin 128) : EReal :=
  ∑ j : Fin 8, ∑ s : Fin 256, blockAt x0 x1 x2 (subRow j s) l

/-- Tile row of (core, chunk, block row): block `core · 8 + chunk` starts at tile row `(core · 8 + chunk) · 2048`. -/
def tileRow (core : Fin 2) (k : Fin 8) (r : Fin 2048) : Fin 32768 :=
  ⟨(core.val * 8 + k.val) * 2048 + r.val, by omega⟩

/-- Lane `l` of core `core`'s total: its 8 chunks' block sums, over the whole lane-dense arrays. -/
def coreSum (X0 X1 : STiles7.Idx → EReal) (X2 : STiles.Idx → EReal) (core : Fin 2) (l : Fin 128) : EReal :=
  ∑ k : Fin 8, ∑ j : Fin 8, ∑ s : Fin 256, tileAt X0 X1 X2 (tileRow core k (subRow j s)) l

/-- The lane-dense arrays the kernel is launched on, as functions of the argument arrays. -/
def denseRows (P : SRows.Idx → EReal) : STiles7.Idx → EReal :=
  fun i => padRows P ⟨(i 0).val, (i 0).isLt⟩ ((i 1).val * 128 + (i 2).val)
def denseWeights (W : SWeights.Idx → EReal) : STiles.Idx → EReal :=
  fun i => padWeights W ((i 0).val * 128 + (i 1).val)

end Cert.BoxLoss

end
-- ==== Proof.Regroup.lean ====
/-
  Regrouping the kernel's sums. Over the lane-dense padded arrays the weighted loss at tile row `R`, lane `l` is the
  weighted loss of padded row `R · 128 + l`: the row's own below N = 4 000 000, and zero from N on, because the padded
  weight is zero and `x * 0 = 0` for every extended real. A core's lane total runs over its 8 chunks, their 8 sub-tiles
  and 256 tile rows; summed over the 128 lanes and the two cores this is every padded row exactly once, in another
  order. Addition on the extended reals is commutative and associative, so the two cores' lane totals add up to
  the sum over the N rows.
-/
import proofs.«161557_j78537771975381_2_alg».proof.Proof.KSpec
import Idealize.ShloMosaic.PureOps.Ideal.Laws

noncomputable section

namespace Cert.BoxLoss

open Idealize.ShloMosaic Idealize.ShloMosaic.ValueIdx Finset

/-- A sum over an m × n rectangle of naturals, read row-major, is the sum over the first m · n naturals. -/
theorem sum_range_mul {M : Type} [AddCommMonoid M] (f : ℕ → M) (m n : ℕ) :
    ∑ i ∈ range m, ∑ j ∈ range n, f (i * n + j) = ∑ q ∈ range (m * n), f q := by
  induction m with
  | zero => simp
  | succ m ih => rw [sum_range_succ, ih, Nat.succ_mul, sum_range_add]

/-- The same over finite index types. -/
theorem sum_fin_mul {M : Type} [AddCommMonoid M] (f : ℕ → M) (m n : ℕ) :
    ∑ i : Fin m, ∑ j : Fin n, f (i.val * n + j.val) = ∑ q ∈ range (m * n), f q := by
  rw [← sum_range_mul, ← Fin.sum_univ_eq_sum_range (fun i => ∑ j ∈ range n, f (i * n + j))]
  exact Finset.sum_congr rfl fun i _ => Fin.sum_univ_eq_sum_range (fun j => f (i.val * n + j)) n

/-- The weighted loss of padded row `n`. -/
def padTerm (P T : SRows.Idx → EReal) (W : SWeights.Idx → EReal) (n : ℕ) : EReal :=
  weighted (fun a => padRows P a n) (fun a => padRows T a n) (padWeights W n)

/-- Below N a padded row is the row. -/
theorem padTerm_lt (P T : SRows.Idx → EReal) (W : SWeights.Idx → EReal) {n : ℕ} (h : n < 4000000) :
    padTerm P T W n = weighted (rowOf P ⟨n, h⟩) (rowOf T ⟨n, h⟩) (W (ix1 ⟨n, h⟩)) := by
  unfold padTerm padRows padWeights rowOf
  simp only [dif_pos h]

/-- From N on a padded row weighs zero. -/
theorem padTerm_ge (P T : SRows.Idx → EReal) (W : SWeights.Idx → EReal) {n : ℕ} (h : 4000000 ≤ n) :
    padTerm P T W n = 0 := by
  unfold padTerm padWeights
  rw [dif_neg (by omega), show lit 0x00000000#32 = 0 from Ideal.ofBits_zero_f32]
  exact weighted_zero _ _

/-- Over the lane-dense padded arrays, tile row `R`, lane `l` holds padded row `R · 128 + l`. -/
theorem tileAt_dense (P T : SRows.Idx → EReal) (W : SWeights.Idx → EReal) (R : Fin 32768) (l : Fin 128) :
    tileAt (denseRows P) (denseRows T) (denseWeights W) R l = padTerm P T W (R.val * 128 + l.val) := rfl

/-- A core's lane total is the lane's entries of the core's 16384 tile rows. -/
theorem coreSum_dense (P T : SRows.Idx → EReal) (W : SWeights.Idx → EReal) (core : Fin 2) (l : Fin 128) :
    coreSum (denseRows P) (denseRows T) (denseWeights W) core l
      = ∑ q ∈ range 16384, padTerm P T W ((core.val * 16384 + q) * 128 + l.val) := by
  unfold coreSum
  have h1 : ∀ k : Fin 8, (∑ j : Fin 8, ∑ s : Fin 256,
        tileAt (denseRows P) (denseRows T) (denseWeights W) (tileRow core k (subRow j s)) l)
      = ∑ r ∈ range 2048, padTerm P T W ((core.val * 16384 + (k.val * 2048 + r)) * 128 + l.val) := by
    intro k
    have := sum_fin_mul (fun r => padTerm P T W ((core.val * 16384 + (k.val * 2048 + r)) * 128 + l.val)) 8 256
    rw [show (8 * 256 : ℕ) = 2048 from rfl] at this
    rw [← this]
    refine Finset.sum_congr rfl fun j _ => Finset.sum_congr rfl fun s _ => ?_
    rw [tileAt_dense]
    refine congrArg (padTerm P T W) ?_
    show ((core.val * 8 + k.val) * 2048 + (j.val * 256 + s.val)) * 128 + l.val = _
    omega
  rw [Finset.sum_congr rfl fun k _ => h1 k,
    Fin.sum_univ_eq_sum_range (fun k => ∑ r ∈ range 2048, padTerm P T W ((core.val * 16384 + (k * 2048 + r)) * 128 + l.val)) 8,
    sum_range_mul (fun q => padTerm P T W ((core.val * 16384 + q) * 128 + l.val)) 8 2048]

/-- All lanes of a core: the core's 2 097 152 padded rows. -/
theorem lanes_coreSum (P T : SRows.Idx → EReal) (W : SWeights.Idx → EReal) (core : Fin 2) :
    ∑ l : Fin 128, coreSum (denseRows P) (denseRows T) (denseWeights W) core l
      = ∑ n ∈ range 2097152, padTerm P T W (core.val * 2097152 + n) := by
  rw [Finset.sum_congr rfl fun l _ => coreSum_dense P T W core l, Finset.sum_comm]
  have := sum_range_mul (fun n => padTerm P T W (core.val * 2097152 + n)) 16384 128
  rw [show (16384 * 128 : ℕ) = 2097152 from rfl] at this
  rw [← this]
  refine Finset.sum_congr rfl fun q _ => ?_
  rw [Fin.sum_univ_eq_sum_range (fun l => padTerm P T W ((core.val * 16384 + q) * 128 + l)) 128]
  exact Finset.sum_congr rfl fun l _ => congrArg (padTerm P T W) (by omega)

/-- The two cores' lane totals add up to the sum over the N rows. -/
theorem lanes_total (P T : SRows.Idx → EReal) (W : SWeights.Idx → EReal) :
    (∑ l : Fin 128, coreSum (denseRows P) (denseRows T) (denseWeights W) 0 l)
      + (∑ l : Fin 128, coreSum (denseRows P) (denseRows T) (denseWeights W) 1 l) = total P T W := by
  rw [lanes_coreSum, lanes_coreSum]
  have h0 : (∑ n ∈ range 2097152, padTerm P T W ((0 : Fin 2).val * 2097152 + n))
      = ∑ n ∈ range 2097152, padTerm P T W n :=
    Finset.sum_congr rfl fun n _ => congrArg (padTerm P T W) (by show 0 * 2097152 + n = n; omega)
  have h1 : (∑ n ∈ range 2097152, padTerm P T W ((1 : Fin 2).val * 2097152 + n))
      = ∑ n ∈ range 2097152, padTerm P T W (2097152 + n) :=
    Finset.sum_congr rfl fun n _ => congrArg (padTerm P T W) (by show 1 * 2097152 + n = _; omega)
  rw [h0, h1, ← sum_range_add (padTerm P T W) 2097152 2097152,
    show (2097152 + 2097152 : ℕ) = 4000000 + 194304 from rfl, sum_range_add (padTerm P T W) 4000000 194304]
  have hpad : (∑ n ∈ range 194304, padTerm P T W (4000000 + n)) = 0 :=
    Finset.sum_eq_zero fun n _ => padTerm_ge P T W (by omega)
  rw [hpad, add_zero, ← Fin.sum_univ_eq_sum_range (padTerm P T W) 4000000]
  unfold total
  exact Finset.sum_congr rfl fun n _ => padTerm_lt P T W n.isLt

end Cert.BoxLoss

end
-- ==== Proof.KOut.lean ====
/-
  The kernel's output array has 16 rows of 128 lanes: rows 8 · core … 8 · core + 7 all hold core `core`'s lane totals.
  The host reads row 0 (core 0) and row 8 (core 1).
-/
import proofs.«161557_j78537771975381_2_alg».proof.Proof.KSpec

noncomputable section

namespace Cert.BoxLoss

open Idealize.ShloMosaic Idealize.ShloMosaic.ValueIdx

/-- The output array: 16 rows of 128 lanes. -/
abbrev SOut : Shape := ⟨2, ![16, 128]⟩

/-- The core whose block holds output row `i 0`: rows 0–7 belong to core 0, rows 8–15 to core 1. -/
def outCore (i : SOut.Idx) : Fin 2 := ⟨(i 0).val / 8, by have h : (i 0).val < 16 := (i 0).isLt; omega⟩

/-- The lane of an output entry. -/
def outLane (i : SOut.Idx) : Fin 128 := ⟨(i 1).val, (i 1).isLt⟩

theorem outCore_row0 (l : Fin 128) : outCore (ix2 (0 : Fin 16) l) = 0 :=
  Fin.ext (by show (0 : Fin 16).val / 8 = 0; rfl)

theorem outCore_row8 (l : Fin 128) : outCore (ix2 (8 : Fin 16) l) = 1 :=
  Fin.ext (by show (8 : Fin 16).val / 8 = 1; rfl)

theorem outLane_ix2 (r : Fin 16) (l : Fin 128) : outLane (ix2 r l) = l := rfl

/-- What the kernel's region leaves in its output array, over the lane-dense arrays it was launched on:
    every row of a core's block holds that core's lane totals. -/
def outArray (X0 X1 : STiles7.Idx → EReal) (X2 : STiles.Idx → EReal) : SOut.Idx → EReal :=
  fun i => coreSum X0 X1 X2 (outCore i) (outLane i)

theorem outArray_row0 (X0 X1 : STiles7.Idx → EReal) (X2 : STiles.Idx → EReal) (l : Fin 128) :
    outArray X0 X1 X2 (ix2 (0 : Fin 16) l) = coreSum X0 X1 X2 0 l := by
  show coreSum X0 X1 X2 (outCore (ix2 (0 : Fin 16) l)) (outLane (ix2 (0 : Fin 16) l)) = _
  rw [outCore_row0, outLane_ix2]

theorem outArray_row8 (X0 X1 : STiles7.Idx → EReal) (X2 : STiles.Idx → EReal) (l : Fin 128) :
    outArray X0 X1 X2 (ix2 (8 : Fin 16) l) = coreSum X0 X1 X2 1 l := by
  show coreSum X0 X1 X2 (outCore (ix2 (8 : Fin 16) l)) (outLane (ix2 (8 : Fin 16) l)) = _
  rw [outCore_row8, outLane_ix2]

end Cert.BoxLoss

end
-- ==== Proof.KHostIn.lean ====
/-
  What the region finds in the three arrays it stages. Before the region the host pads the N = 4 000 000 rows to
  32768 · 128 = 4 194 304 (predicted and target rows with the literal one, weights with the literal zero), moves the
  seven coordinates of a row to a leading axis, and cuts the padded row axis in lanes of 128. Read at
  (coordinate a, tile row R, lane l) the result is entry (R · 128 + l, a) of the argument below row N and the padding
  literal from row N on: a reshape keeps the row-major position, a transpose swaps the two coordinates, and a pad with
  no low and no interior padding reads the operand inside its extent and the padding value beyond it.
-/
import proofs.«161557_j78537771975381_2_alg».proof.Proof.Gen.KernelIdeal.Frame
import proofs.«161557_j78537771975381_2_alg».proof.Proof.KSpec
import Idealize.ShloMosaic.Lib.ValueIdx
import Idealize.ShloMosaic.Lib.Pipeline.Value
import Idealize.ShloMosaic.Lib.ValueLayout
import Idealize.ShloMosaic.Lib.KernelVsHost
import Idealize.ShloMosaic.Lib.StableHlo.Run

noncomputable section

namespace Cert.KernelIdeal.HostSide

open Idealize.ShloMosaic Idealize.ShloMosaic.ValueIdx
open Idealize.ShloMosaic.TcCoe
open Cert.KernelIdeal Cert.KernelIdeal.Gen

/-- The rows re-laid as the region stages them: padded below with rows of ones, coordinates moved to a leading axis,
    and the padded row axis cut in lanes of 128. -/
def relayRows (x : FVec Ideal S4000000x7 .f32) : FVec Ideal S7x32768x128 .f32 :=
  shapeCast S7x32768x128
    (transpose S7x4194304 [1, 0]
      (pad S4194304x7 ![0, 0] ![194304, 0] ![0, 0] x
        (id (constant (F := Ideal) S_ .f32 0x3F800000#32)) pads_S4000000x7_S4194304x7_01943040_000 h_S_)
      transposes_S4194304x7_S7x4194304_1_0) shapeCasts_S7x4194304_S7x32768x128

/-- The weights re-laid likewise: padded with zeros, cut in lanes of 128. -/
def relayWeights (x : FVec Ideal S4000000 .f32) : FVec Ideal S32768x128 .f32 :=
  shapeCast S32768x128
    (pad S4194304 ![0] ![194304] ![0] x
      (id (constant (F := Ideal) S_ .f32 0x00000000#32)) pads_S4000000_S4194304_01943040 h_S_)
    shapeCasts_S4194304_S32768x128

/-- Read at (coordinate, tile row, lane): entry `(R · 128 + l, a)` of the rows below row 4 000 000, the literal one from there on. -/
theorem relayRows_apply (x : FVec Ideal S4000000x7 .f32) (a : Fin 7) (R : Fin 32768) (l : Fin 128) :
    relayRows x (ix3 a R l) = Cert.BoxLoss.padRows x a (R.val * 128 + l.val) := by
  unfold relayRows
  have hn : R.val * 128 + l.val < 4194304 := by omega
  -- the reshape keeps the row-major position: (a, R, l) of [7, 32768, 128] is (a, R · 128 + l) of [7, 4194304]
  refine (shapeCast_apply _ _ (ix3 a R l) (ix2 a ⟨R.val * 128 + l.val, hn⟩) ?_).trans ?_
  · rw [Shape.rowMajor_val_two, Shape.rowMajor_val_three]
    show a.val * 4194304 + (R.val * 128 + l.val) = (a.val * 32768 + R.val) * 128 + l.val
    omega
  -- the transpose swaps the two coordinates
  refine (transpose_ix2_apply _ _ a ⟨R.val * 128 + l.val, hn⟩).trans ?_
  unfold Cert.BoxLoss.padRows
  by_cases h : R.val * 128 + l.val < 4000000
  · -- inside the operand: no low padding, no interior padding
    rw [dif_pos h]
    exact pad_apply_of_inside _ _ _ _ _ _ _ (ix2 ⟨R.val * 128 + l.val, hn⟩ a) (ix2 ⟨R.val * 128 + l.val, h⟩ a)
      (fun b => match b with
        | ⟨0, _⟩ => by show R.val * 128 + l.val = 0 + (R.val * 128 + l.val) * (0 + 1); omega
        | ⟨1, _⟩ => by show a.val = 0 + a.val * (0 + 1); omega)
  · -- in the high padding of the row axis: the padding value
    rw [dif_neg h]
    refine (pad_apply_of_not_inside _ _ _ _ _ _ _ (ix2 ⟨R.val * 128 + l.val, hn⟩ a) (0 : Fin 2) ?_).trans rfl
    intro hc
    have h4 : (R.val * 128 + l.val - 0) / (0 + 1) < 4000000 := hc.2.2
    omega

/-- Read at (tile row, lane): weight `R · 128 + l` below 4 000 000, the literal zero from there on. -/
theorem relayWeights_apply (x : FVec Ideal S4000000 .f32) (R : Fin 32768) (l : Fin 128) :
    relayWeights x (ix2 R l) = Cert.BoxLoss.padWeights x (R.val * 128 + l.val) := by
  unfold relayWeights
  have hn : R.val * 128 + l.val < 4194304 := by omega
  refine (shapeCast_apply _ _ (ix2 R l) (ix1 ⟨R.val * 128 + l.val, hn⟩) ?_).trans ?_
  · rw [Shape.rowMajor_val_one, Shape.rowMajor_val_two]
    rfl
  unfold Cert.BoxLoss.padWeights
  by_cases h : R.val * 128 + l.val < 4000000
  · rw [dif_pos h]
    exact pad_apply_of_inside _ _ _ _ _ _ _ (ix1 ⟨R.val * 128 + l.val, hn⟩) (ix1 ⟨R.val * 128 + l.val, h⟩)
      (fun b => match b with
        | ⟨0, _⟩ => by show R.val * 128 + l.val = 0 + (R.val * 128 + l.val) * (0 + 1); omega)
  · rw [dif_neg h]
    refine (pad_apply_of_not_inside _ _ _ _ _ _ _ (ix1 ⟨R.val * 128 + l.val, hn⟩) (0 : Fin 1) ?_).trans rfl
    intro hc
    have h4 : (R.val * 128 + l.val - 0) / (0 + 1) < 4000000 := hc.2.2
    omega

variable (m : (ℓ : Loc nD τ sig) → Buf (Elt Ideal) ℓ) (c : Dev nD)

/-- What the host lines before the region leave in the three staged arrays, as compositions of the layout operations. -/
theorem V_pred_term :
    (Gen.V m c main_v4 : S7x32768x128.Idx → EReal)
      = relayRows (m ((c : Thread nD τ).loc main_arg0) : FVec Ideal S4000000x7 .f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_target_term :
    (Gen.V m c main_v6 : S7x32768x128.Idx → EReal)
      = relayRows (m ((c : Thread nD τ).loc main_arg1) : FVec Ideal S4000000x7 .f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_weight_term :
    (Gen.V m c main_v7 : S32768x128.Idx → EReal)
      = relayWeights (m ((c : Thread nD τ).loc main_arg2) : FVec Ideal S4000000 .f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The re-laid rows are the lane-dense rows of the specification. -/
theorem relayRows_eq (x : FVec Ideal S4000000x7 .f32) : relayRows x = Cert.BoxLoss.denseRows x := by
  funext i
  obtain ⟨a, R, l, rfl⟩ : ∃ (a : Fin 7) (R : Fin 32768) (l : Fin 128), i = ix3 a R l := ⟨i 0, i 1, i 2, eq_ix3 i⟩
  exact relayRows_apply x a R l

theorem relayWeights_eq (x : FVec Ideal S4000000 .f32) : relayWeights x = Cert.BoxLoss.denseWeights x := by
  funext i
  obtain ⟨R, l, rfl⟩ : ∃ (R : Fin 32768) (l : Fin 128), i = ix2 R l := ⟨i 0, i 1, eq_ix2 i⟩
  exact relayWeights_apply x R l

/-- The region finds the predicted rows lane-dense. -/
theorem V_pred : (Gen.V m c main_v4 : S7x32768x128.Idx → EReal) = Cert.BoxLoss.denseRows (m ((c : Thread nD τ).loc main_arg0)) :=
  (V_pred_term m c).trans (relayRows_eq _)

/-- The region finds the target rows lane-dense. -/
theorem V_target : (Gen.V m c main_v6 : S7x32768x128.Idx → EReal) = Cert.BoxLoss.denseRows (m ((c : Thread nD τ).loc main_arg1)) :=
  (V_target_term m c).trans (relayRows_eq _)

/-- The region finds the weights lane-dense. -/
theorem V_weight : (Gen.V m c main_v7 : S32768x128.Idx → EReal) = Cert.BoxLoss.denseWeights (m ((c : Thread nD τ).loc main_arg2)) :=
  (V_weight_term m c).trans (relayWeights_eq _)

end Cert.KernelIdeal.HostSide

end
-- ==== Proof.KHostOut.lean ====
/-
  The host lines after the region. The region leaves a [16, 128] array whose rows 0 and 8 hold the two cores' lane
  totals. The host cuts out row 0 and row 8, sums each over both axes of the [1, 128] slice starting from the zero word,
  adds the two sums, divides by the word of N = 4e6 and multiplies by the word of one. On the extended reals a sum into
  rank 0 is the initial value plus the sum over every index of the slice, the zero word is 0, and the slice of row r
  reads the array at (r, l): so the result is the specification's mean of the two rows' total.
-/
import proofs.«161557_j78537771975381_2_alg».proof.Proof.Gen.KernelIdeal.Frame
import proofs.«161557_j78537771975381_2_alg».proof.Proof.KSpec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.StableHlo.Run

noncomputable section

namespace Cert.KernelIdeal.HostSide

open Idealize.ShloMosaic Idealize.ShloMosaic.ValueIdx
open Idealize.ShloMosaic.TcCoe
open Cert.KernelIdeal Cert.KernelIdeal.Gen

/-- The host's sum over both axes of one row cut out of a [16, 128] array, started from the zero word, is the sum of
    that row over its 128 lanes: the reduce into rank 0 is the initial value plus the sum over every index of the
    [1, 128] slice, the zero word is the extended real zero, and the slice reads the array at its offsets. -/
theorem rowSum (X : FVec Ideal S16x128 .f32) (r : Fin 16) (off : Fin 2 → Nat) (h : S16x128.Slices off S1x128)
    (h0 : off 0 = r.val) (h1 : off 1 = 0) (h' : S1x128.ReducesTo [0, 1] S_) (hu : 0 < S_.numel) (j : S_.Idx) :
    Host.reduceAdd (F := Ideal) (extractStridedSlice S1x128 off X h) (constant (F := Ideal) S_ .f32 0x00000000#32) h' hu j
      = ∑ l : Fin 128, X (ix2 r l) := by
  refine (hostReduceAdd_apply _ _ h' hu j).trans ?_
  refine (Ideal.hostReduceAdd_total h' (fun b => b.elim0) _ _ j).trans ?_
  rw [constant_apply, Ideal.ofBits_zero_f32, zero_add, sum_idx2, Fin.sum_univ_one]
  refine Finset.sum_congr rfl fun l _ => ?_
  exact extractStridedSlice_apply off X h (ix2 (0 : Fin 1) l) (ix2 r l) (fun a => match a with
    | ⟨0, _⟩ => by show r.val = off 0 + 0; omega
    | ⟨1, _⟩ => by show l.val = off 1 + l.val; omega)

variable (m : (ℓ : Loc nD τ sig) → Buf (Elt Ideal) ℓ) (c : Dev nD)

/-- After the region the host adds up rows 0 and 8 of the [16, 128] output over their lanes, adds the two sums, divides by
    N = 4e6 and multiplies by the literal one: the mean of the specification at the two rows' total. -/
theorem tail_eq (X : S16x128.Idx → EReal) (hX : (Gen.dats m 0 c).arrAt 3 cfg0.N = X) :
    Pipeline.afterTail₀ cfgs (Gen.dats m) 0 (Gen.V0 m) [Gen.hostOps1] c main_v15
      = fun _ => Cert.BoxLoss.mean ((∑ l : Fin 128, X (ix2 (0 : Fin 16) l)) + (∑ l : Fin 128, X (ix2 (8 : Fin 16) l))) := by
  unfold Pipeline.afterTail₀
  show StableHlo.after hostOps1 _ (Proc.devRef .tc main_v15) = _
  after_results
  have hW : Pipeline.withArrays (cfgs 0).spec c (V0 m c) (fun w => (dats m 0 c).arrAt w (cfgs 0).N) (Proc.devRef .tc main_v8) = X :=
    (Pipeline.withArrays_arr spec0 launch0.win.arr_inj c _ _ 3).trans hX
  rw [hW]
  funext j
  have e0 := rowSum X 0 ![0, 0] slices_S16x128_S1x128_0_0 rfl rfl reducesTo_S1x128_S_d0_1 h_S_ j
  have e8 := rowSum X 8 ![8, 0] slices_S16x128_S1x128_8_0 rfl rfl reducesTo_S1x128_S_d0_1 h_S_ j
  exact congrArg₂ (fun a b => Cert.BoxLoss.lit 0x3F800000#32 * Ideal.div (a + b) (Cert.BoxLoss.lit 0x4A742400#32)) e0 e8

/-- The kernel program's run, read at its result and its arguments: every weakly fair execution terminates with the
    result buffer at the mean of the two output rows' total — `X c` being whatever the region leaves in its [16, 128]
    output array on core `c` — and the three argument arrays unchanged. (The result and the arguments are buffers no
    window stages, so the run leaves them as the host lines after the region do.) -/
theorem run_kernel (ρ : Dev nD → PrngReg) (X : Dev nD → S16x128.Idx → EReal)
    (hX : ∀ c : Dev nD, (Gen.dats m 0 c).arrAt 3 cfg0.N = X c) :
    θ_run defs (onTc (τ := τ) (main (F := Ideal))) ⟨m, fun _ => 0, ρ⟩ (fun r => ∀ c : Dev nD,
      r.2.mem ((c.tc : Thread nD τ).loc main_v15)
          = (fun _ => Cert.BoxLoss.mean ((∑ l : Fin 128, X c (ix2 (0 : Fin 16) l)) + (∑ l : Fin 128, X c (ix2 (8 : Fin 16) l))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (tail_eq m c (X c) (hX c)),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c)⟩)
    (Gen.run_main m ρ)

end Cert.KernelIdeal.HostSide

end
-- ==== Proof.KGrid.lean ====
/-
  The accumulation over the grid. The sixteen grid points fall in two runs of eight (one run per core). At a run's
  first point the carried accumulator restarts at that point's block sum; at each later point the point's block sum is
  added to it; at the run's last point the new total is also stored, in every row, to the core's block of the output
  array, and only that point writes its block back. So after point n the accumulator's lane l holds the sum of the
  block sums of the points of n's run up to n, by induction on the point; the last point of a run therefore writes the
  run's eight block sums, which — each block read where it sits in the staged lane-dense arrays — is the core's lane
  total over those arrays; and the two flushed blocks (rows 0–7 and 8–15) cover the 16 × 128 output array.

  What each of the three control cases leaves in the accumulator and in the output block, as a function of the blocks
  it loaded and of the accumulator it found, is taken here as four hypotheses (ScratchA, ScratchB, ScratchC, OutC);
  everything in this module is conditional on them and independent of the body's arithmetic.
-/
import proofs.«161557_j78537771975381_2_alg».proof.Proof.KOut
import proofs.«161557_j78537771975381_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Grid

open Cert.KernelIdeal Cert.KernelIdeal.Gen

variable (m : (ℓ : Loc nD τ sig) → Buf (Elt Ideal) ℓ)

/-- Case A's scratch, lane by lane: the point's block sum. -/
def ScratchA : Prop := ∀ (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : cond0_0 i) (hc1 : ¬cond0_1 i)
    (x0 x1 : Vec Ideal S7x2048x128 .f32) (x2 : Vec Ideal S2048x128 .f32) (l : Fin 128),
    Gen.sout0_A_0 (F := Ideal) c i arg2 harg2 arg3 harg3 arg4 harg4 arg5 harg5 arg6 harg6 hc0 hc1 x0 x1 x2 (ix2 (0 : Fin 1) l) = Cert.BoxLoss.blockSum x0 x1 x2 l

/-- Case B's scratch, lane by lane: what it held plus the point's block sum. -/
def ScratchB : Prop := ∀ (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : ¬cond0_1 i)
    (x0 x1 : Vec Ideal S7x2048x128 .f32) (x2 : Vec Ideal S2048x128 .f32) (xs0 : Vec Ideal S1x128 .f32) (l : Fin 128),
    Gen.sout0_B_0 (F := Ideal) c i arg2 harg2 arg3 harg3 arg4 harg4 arg5 harg5 arg6 harg6 hc0 hc1 x0 x1 x2 xs0 (ix2 (0 : Fin 1) l) = xs0 (ix2 (0 : Fin 1) l) + Cert.BoxLoss.blockSum x0 x1 x2 l

/-- Case C's scratch, lane by lane: what it held plus the point's block sum. -/
def ScratchC : Prop := ∀ (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : cond0_1 i)
    (x0 x1 : Vec Ideal S7x2048x128 .f32) (x2 : Vec Ideal S2048x128 .f32) (xs0 : Vec Ideal S1x128 .f32) (l : Fin 128),
    Gen.sout0_C_0 (F := Ideal) c i arg2 harg2 arg3 harg3 arg4 harg4 arg5 harg5 arg6 harg6 hc0 hc1 x0 x1 x2 xs0 (ix2 (0 : Fin 1) l) = xs0 (ix2 (0 : Fin 1) l) + Cert.BoxLoss.blockSum x0 x1 x2 l

/-- Case C's output block: every row holds the lane's new total. -/
def OutC : Prop := ∀ (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : cond0_1 i)
    (x0 x1 : Vec Ideal S7x2048x128 .f32) (x2 : Vec Ideal S2048x128 .f32) (xs0 : Vec Ideal S1x128 .f32) (l : Fin 128) (r : Fin 8),
    Gen.out0_C_3 (F := Ideal) c i arg2 harg2 arg3 harg3 arg4 harg4 arg5 harg5 arg6 harg6 hc0 hc1 x0 x1 x2 xs0 (ix2 r l) = xs0 (ix2 (0 : Fin 1) l) + Cert.BoxLoss.blockSum x0 x1 x2 l

/-- Point n's addend in lane l: its blocks' column sums (zero past the grid, where it is never read). -/
def addend (c : Dev nD) (l : Fin 128) (n : ℕ) : EReal :=
  if h : n < cfg0.N then Cert.BoxLoss.blockSum (iblk m c 0 ⟨n, h⟩) (iblk m c 1 ⟨n, h⟩) (iblk m c 2 ⟨n, h⟩) l else 0

theorem addend_of_lt (c : Dev nD) (l : Fin 128) (n : ℕ) (h : n < cfg0.N) :
    addend m c l n = Cert.BoxLoss.blockSum (iblk m c 0 ⟨n, h⟩) (iblk m c 1 ⟨n, h⟩) (iblk m c 2 ⟨n, h⟩) l := dif_pos h

/-- THE SCRATCH after point n, lane l: the sum of the addends of the points of n's run of eight, from the run's
    first point (where the accumulator restarts) up to n. By induction on the point. -/
theorem scratch_eq (hA : ScratchA) (hB : ScratchB) (hC : ScratchC) (c : Dev nD) (l : Fin 128) :
    ∀ (n : ℕ) (hn : n < cfg0.N), (outsAt0 m c n hn).2 (ix2 (0 : Fin 1) l)
      = ∑ k ∈ Finset.range (n % 8 + 1), addend m c l (8 * (n / 8) + k) := by
  intro n
  induction n with
  | zero =>
    intro hn
    rw [outsAt0_A m c ⟨0, hn⟩ rfl (by dsimp only; omega)]
    dsimp only
    refine (hA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _ (iblk m c 0 ⟨0, hn⟩) (iblk m c 1 ⟨0, hn⟩) (iblk m c 2 ⟨0, hn⟩) l).trans ?_
    rw [show 0 % 8 + 1 = 1 from rfl, Finset.sum_range_one, addend_of_lt m c l _ hn]
  | succ n ih =>
    intro hn
    have hN : cfg0.N = 16 := N_0
    have ihn := ih (Nat.lt_of_succ_lt hn)
    by_cases h0 : (n + 1) % 8 = 0
    · have h1 : ¬ (n + 1) % 8 = 7 := by omega
      rw [outsAt0_A m c ⟨n + 1, hn⟩ h0 h1]
      dsimp only
      refine (hA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) l).trans ?_
      have e : 8 * ((n + 1) / 8) + 0 = n + 1 := by omega
      rw [h0, show 0 + 1 = 1 from rfl, Finset.sum_range_one, e, addend_of_lt m c l _ hn]
    · have e1 : (n + 1) % 8 = n % 8 + 1 := by omega
      have e2 : (n + 1) / 8 = n / 8 := by omega
      have e3 : 8 * (n / 8) + (n % 8 + 1) = n + 1 := by omega
      by_cases h1 : (n + 1) % 8 = 7
      · rw [outsAt0_C m c ⟨n + 1, hn⟩ h0 h1]
        dsimp only
        refine (hC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) (outsAt0 m c n (Nat.lt_of_succ_lt hn)).2 l).trans ?_
        rw [ihn, e1, e2, Finset.sum_range_succ _ (n % 8 + 1), e3, addend_of_lt m c l _ hn]
      · rw [outsAt0_B m c ⟨n + 1, hn⟩ h0 h1]
        dsimp only
        refine (hB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) (outsAt0 m c n (Nat.lt_of_succ_lt hn)).2 l).trans ?_
        rw [ihn, e1, e2, Finset.sum_range_succ _ (n % 8 + 1), e3, addend_of_lt m c l _ hn]

/-! ## The printed index maps, decided once over the grid -/

/-- The two stacked-row windows sit at block (0, t, 0), the weights at (t, 0), the output at (t / 8, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 2) = t.val / 8 ∧ win0_3.index t (1 : Fin 2) = 0 :=
  (by decide +kernel : ∀ t : Fin grid0.N, _)

/-! ## A window's block, read where it sits in its array (any contents) -/

/-- Block t of a stacked-row array: coordinate a, block row r, lane l is the array's entry at tile row t · 2048 + r. -/
theorem blk0_read (X : S7x32768x128.Idx → EReal) (t : Fin cfg0.N) (a : Fin 7) (r : Fin 2048) (l : Fin 128) (R : Fin 32768)
    (hR : R.val = t.val * 2048 + r.val) :
    ((cfg0.win 0).blk t).view.read (Elt Ideal) X (ix3 a r l) = X (ix3 a R l) := by
  obtain ⟨e0, e1, e2, -⟩ := idx_facts t
  rw [View.read_apply]
  show X (((cfg0.win 0).blk t).view.emb (ix3 a r l)) = X (ix3 a R l)
  refine congrArg X ?_
  funext b; apply Fin.ext
  match b with
  | ⟨0, _⟩ => show win0_0.index t (0 : Fin 3) * 7 + 1 * a.val = a.val; rw [e0]; omega
  | ⟨1, _⟩ => show win0_0.index t (1 : Fin 3) * 2048 + 1 * r.val = R.val; rw [e1, hR]; omega
  | ⟨2, _⟩ => show win0_0.index t (2 : Fin 3) * 128 + 1 * l.val = l.val; rw [e2]; omega

theorem blk1_read (X : S7x32768x128.Idx → EReal) (t : Fin cfg0.N) (a : Fin 7) (r : Fin 2048) (l : Fin 128) (R : Fin 32768)
    (hR : R.val = t.val * 2048 + r.val) :
    ((cfg0.win 1).blk t).view.read (Elt Ideal) X (ix3 a r l) = X (ix3 a R l) := by
  obtain ⟨-, -, -, e0, e1, e2, -⟩ := idx_facts t
  rw [View.read_apply]
  show X (((cfg0.win 1).blk t).view.emb (ix3 a r l)) = X (ix3 a R l)
  refine congrArg X ?_
  funext b; apply Fin.ext
  match b with
  | ⟨0, _⟩ => show win0_1.index t (0 : Fin 3) * 7 + 1 * a.val = a.val; rw [e0]; omega
  | ⟨1, _⟩ => show win0_1.index t (1 : Fin 3) * 2048 + 1 * r.val = R.val; rw [e1, hR]; omega
  | ⟨2, _⟩ => show win0_1.index t (2 : Fin 3) * 128 + 1 * l.val = l.val; rw [e2]; omega

/-- Block t of the weights: block row r, lane l is the array's entry at tile row t · 2048 + r. -/
theorem blk2_read (X : S32768x128.Idx → EReal) (t : Fin cfg0.N) (r : Fin 2048) (l : Fin 128) (R : Fin 32768)
    (hR : R.val = t.val * 2048 + r.val) :
    ((cfg0.win 2).blk t).view.read (Elt Ideal) X (ix2 r l) = X (ix2 R l) := by
  obtain ⟨-, -, -, -, -, -, e0, e1, -⟩ := idx_facts t
  rw [View.read_apply]
  show X (((cfg0.win 2).blk t).view.emb (ix2 r l)) = X (ix2 R l)
  refine congrArg X ?_
  funext b; apply Fin.ext
  match b with
  | ⟨0, _⟩ => show win0_2.index t (0 : Fin 2) * 2048 + 1 * r.val = R.val; rw [e0, hR]; omega
  | ⟨1, _⟩ => show win0_2.index t (1 : Fin 2) * 128 + 1 * l.val = l.val; rw [e1]; omega

/-! ## A point's block sum, over the arrays the blocks are read from -/

/-- The block sum of point t = 8 · core + k, its blocks read from any lane-dense arrays, is the sum of the arrays'
    weighted losses over that point's 8 × 256 tile rows. -/
theorem blockSum_blk (X0 X1 : S7x32768x128.Idx → EReal) (X2 : S32768x128.Idx → EReal) (core : Fin 2) (k : Fin 8)
    (t : Fin cfg0.N) (ht : t.val = 8 * core.val + k.val) (l : Fin 128) :
    Cert.BoxLoss.blockSum (((cfg0.win 0).blk t).view.read (Elt Ideal) X0) (((cfg0.win 1).blk t).view.read (Elt Ideal) X1)
        (((cfg0.win 2).blk t).view.read (Elt Ideal) X2) l
      = ∑ j : Fin 8, ∑ s : Fin 256, Cert.BoxLoss.tileAt X0 X1 X2 (Cert.BoxLoss.tileRow core k (Cert.BoxLoss.subRow j s)) l := by
  unfold Cert.BoxLoss.blockSum
  refine Finset.sum_congr rfl fun j _ => Finset.sum_congr rfl fun s _ => ?_
  have hR : (Cert.BoxLoss.tileRow core k (Cert.BoxLoss.subRow j s)).val = t.val * 2048 + (Cert.BoxLoss.subRow j s).val := by
    show (core.val * 8 + k.val) * 2048 + (Cert.BoxLoss.subRow j s).val = _
    rw [ht]; omega
  unfold Cert.BoxLoss.blockAt Cert.BoxLoss.tileAt
  exact congr (congr (congrArg Cert.BoxLoss.weighted (funext fun a => blk0_read X0 t a _ l _ hR))
    (funext fun a => blk1_read X1 t a _ l _ hR)) (blk2_read X2 t _ l _ hR)

/-- Point 8 · core + k's addend is the staged arrays' weighted losses summed over its tile rows. -/
theorem addend_eq (c : Dev nD) (l : Fin 128) (core : Fin 2) (k : Fin 8) :
    addend m c l (8 * core.val + k.val)
      = ∑ j : Fin 8, ∑ s : Fin 256, Cert.BoxLoss.tileAt (V m c main_v4) (V m c main_v6) (V m c main_v7)
          (Cert.BoxLoss.tileRow core k (Cert.BoxLoss.subRow j s)) l := by
  have hN : cfg0.N = 16 := N_0
  have hlt : 8 * core.val + k.val < cfg0.N := by have := core.isLt; have := k.isLt; omega
  rw [addend_of_lt m c l _ hlt]
  unfold iblk
  exact blockSum_blk (V m c (Pipeline.arrRef spec0 0)) (V m c (Pipeline.arrRef spec0 1)) (V m c (Pipeline.arrRef spec0 2))
    core k ⟨_, hlt⟩ rfl l

/-- A core's lane total is the sum of its eight points' addends. -/
theorem coreSum_eq (c : Dev nD) (core : Fin 2) (l : Fin 128) :
    Cert.BoxLoss.coreSum (V m c main_v4) (V m c main_v6) (V m c main_v7) core l
      = ∑ k ∈ Finset.range 8, addend m c l (8 * core.val + k) := by
  unfold Cert.BoxLoss.coreSum
  rw [← Fin.sum_univ_eq_sum_range (fun k => addend m c l (8 * core.val + k)) 8]
  exact Finset.sum_congr rfl fun k _ => (addend_eq m c l core k).symm

/-! ## The output window: what a flushing point writes back, and the cover -/

/-- Block t of the output array, for any lane-dense arrays: row r, lane l holds core t / 8's lane total. -/
theorem outArray_blk (X0 X1 : S7x32768x128.Idx → EReal) (X2 : S32768x128.Idx → EReal) (t : Fin cfg0.N) (core : Fin 2)
    (hcore : core.val = t.val / 8) (r : Fin 8) (l : Fin 128) :
    ((cfg0.win 3).blk t).view.read (Elt Ideal) (Cert.BoxLoss.outArray X0 X1 X2) (ix2 r l) = Cert.BoxLoss.coreSum X0 X1 X2 core l := by
  obtain ⟨-, -, -, -, -, -, -, -, e0, e1⟩ := idx_facts t
  rw [View.read_apply]
  show Cert.BoxLoss.coreSum X0 X1 X2 (Cert.BoxLoss.outCore (((cfg0.win 3).blk t).view.emb (ix2 r l)))
    (Cert.BoxLoss.outLane (((cfg0.win 3).blk t).view.emb (ix2 r l))) = _
  have hc : Cert.BoxLoss.outCore (((cfg0.win 3).blk t).view.emb (ix2 r l)) = core := Fin.ext (by
    show (win0_3.index t (0 : Fin 2) * 8 + 1 * r.val) / 8 = core.val
    rw [e0, hcore]; have := r.isLt; omega)
  have hl : Cert.BoxLoss.outLane (((cfg0.win 3).blk t).view.emb (ix2 r l)) = l := Fin.ext (by
    show win0_3.index t (1 : Fin 2) * 128 + 1 * l.val = l.val
    rw [e1]; omega)
  rw [hc, hl]

/-- The write-back cuts nothing off an output block. -/
theorem cut3_apply (t : Fin cfg0.N) (X : Vec Ideal S8x128 .f32) (r : Fin 8) (l : Fin 128) :
    (cfg0.win 3).cut (grid0.coords t) X (ix2 r l) = X (ix2 r l) := rfl

/-- WHAT A FLUSHING POINT WRITES BACK (a run's last point, t % 8 = 7): its block of the output array — every row the
    core's lane totals: the scratch after the point before plus the point's own block sum, the run's eight addends. -/
theorem flushed_eq (hA : ScratchA) (hB : ScratchB) (hC : ScratchC) (hOut : OutC) (c : Dev nD) (t : Fin cfg0.N)
    (hf : (cfg0.win 3).flush t = true) :
    (dats m 0 c).flushed 3 t = ((cfg0.win 3).blk t).view.read (Elt Ideal)
      (Cert.BoxLoss.outArray (V m c main_v4) (V m c main_v6) (V m c main_v7)) := by
  have hN : cfg0.N = 16 := N_0
  have htN : t.val < 16 := lt_of_lt_of_eq t.isLt hN
  have h7 : t.val % 8 = 7 := (flush0_3 t).mp hf
  have h0 : ¬ t.val % 8 = 0 := by omega
  funext y
  obtain ⟨r, l, rfl⟩ : ∃ (r : Fin 8) (l : Fin 128), y = ix2 r l := ⟨y 0, y 1, eq_ix2 y⟩
  rw [outArray_blk (V m c main_v4) (V m c main_v6) (V m c main_v7) t ⟨t.val / 8, by omega⟩ rfl r l, coreSum_eq m c _ l]
  show (cfg0.win 3).cut (grid0.coords t) ((dats m 0 c).after 3 t) (ix2 r l) = _
  rw [after0_3, outsAt0_C m c t h0 h7]
  refine (cut3_apply t _ r l).trans ?_
  dsimp only
  refine (hOut c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _ l r).trans ?_
  have ht : addend m c l t.val = Cert.BoxLoss.blockSum (iblk m c 0 t) (iblk m c 1 t) (iblk m c 2 t) l :=
    addend_of_lt m c l t.val t.isLt
  have e1 : (t.val - 1) % 8 + 1 = 7 := by omega
  have e2 : (t.val - 1) / 8 = t.val / 8 := by omega
  have e3 : t.val = 8 * (t.val / 8) + 7 := by omega
  rw [scratch_eq m hA hB hC c l (t.val - 1) _, e1, e2, ← ht, congrArg (addend m c l) e3,
    ← Finset.sum_range_succ (fun k => addend m c l (8 * (t.val / 8) + k)) 7]

/-- An index of the output array is in point t's block iff each coordinate is in the block's range on its axis. -/
theorem mem_blk3 (t : Fin cfg0.N) (i : S16x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v8).slice (win0_3.rect t)).set ↔ _
  rw [View.set_slice_whole, Rect.mem_set_unit]
  exact Iff.rfl

/-- THE COVER: row i 0 of the output array is in the block of the last point of core (i 0) / 8's run. -/
theorem cover (i : S16x128.Idx) :
    ∃ t : Fin cfg0.N, (cfg0.win 3).flush t = true ∧ i ∈ ((cfg0.win 3).blk t).view.set := by
  have hN : cfg0.N = 16 := N_0
  have hi0 : (i 0).val < 16 := (i 0).isLt
  have hi1 : (i 1).val < 128 := (i 1).isLt
  obtain ⟨t, ht⟩ : ∃ t : Fin cfg0.N, t.val = 8 * ((i 0).val / 8) + 7 := ⟨⟨_, by omega⟩, rfl⟩
  obtain ⟨-, -, -, -, -, -, -, -, e0, e1⟩ := idx_facts t
  refine ⟨t, (flush0_3 t).mpr (by omega), ?_⟩
  rw [mem_blk3]
  intro a
  match a with
  | ⟨0, _⟩ =>
    show win0_3.index t (0 : Fin 2) * 8 ≤ (i 0).val ∧ (i 0).val < win0_3.index t (0 : Fin 2) * 8 + 8
    rw [e0, ht]; omega
  | ⟨1, _⟩ =>
    show win0_3.index t (1 : Fin 2) * 128 ≤ (i 1).val ∧ (i 1).val < win0_3.index t (1 : Fin 2) * 128 + 128
    rw [e1]; omega

/-- THE OUTPUT ARRAY after the region: every row of a core's block holds that core's lane totals over the staged arrays. -/
theorem final_of (hA : ScratchA) (hB : ScratchB) (hC : ScratchC) (hOut : OutC) (c : Dev nD) :
    ((dats m 0 c).arrAt 3 cfg0.N : S16x128.Idx → EReal)
      = Cert.BoxLoss.outArray (V m c main_v4) (V m c main_v6) (V m c main_v7) :=
  (dats m 0 c).arrAt_eq_of_cover 3 (Cert.BoxLoss.outArray (V m c main_v4) (V m c main_v6) (V m c main_v7))
    (fun t hf => flushed_eq m hA hB hC hOut c t hf) cover

end Cert.KernelIdeal.Grid

end
-- ==== Proof.KBodyTile.lean ====
/-
  One sub-tile of the kernel's body, read at an index.

  The body walks a block of 2048 tile rows in 8 sub-tiles of 256. For each sub-tile it loads the seven predicted
  coordinates, the seven target coordinates and the weights as 256 × 128 vectors, computes the weighted loss of every
  row with vector operations, and adds each lane's column of 256 values into a 1 × 128 accumulator. This module writes
  that vector computation once (`tileLoss`), shows that at row `s`, lane `l` it is the weighted row loss of the
  fourteen coordinates and the weight found there (`tileLoss_apply`), reads a loaded sub-tile at an index (`ld7_apply`,
  `ld2_apply`), reads the column sum as a sum over the 256 rows (`colSum_apply`), and concludes that the eight
  sub-tiles' column sums, added in order onto zero, are the block's sum of weighted losses (`bodySum_apply`).
-/
import proofs.«161557_j78537771975381_2_alg».proof.KernelIdeal
import proofs.«161557_j78537771975381_2_alg».proof.Proof.KSpec
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx
open Cert.KernelIdeal

/-! ## The vector operations read at an index -/

section Pointwise
variable {s : Shape} {φ : FTy}

theorem cos_apply (a : FVec Ideal s φ) (i : s.Idx) : cos a i = Ideal.cos (a i) := rfl
theorem sin_apply (a : FVec Ideal s φ) (i : s.Idx) : sin a i = Ideal.sin (a i) := rfl
theorem sqrt_apply (a : FVec Ideal s φ) (i : s.Idx) : sqrt a i = Ideal.sqrt (a i) := rfl
theorem log_apply (a : FVec Ideal s φ) (i : s.Idx) : log a i = Ideal.log (a i) := rfl
theorem exp_apply (a : FVec Ideal s φ) (i : s.Idx) : exp a i = Ideal.exp (a i) := rfl
theorem log1p_apply (a : FVec Ideal s φ) (i : s.Idx) : log1p a i = Ideal.log1p (a i) := rfl
theorem ofBits_eq (b : BitVec 32) : (Scalar.ofBits .f32 b : Ideal .f32) = Ideal.ofBits .f32 b := rfl

end Pointwise

/-! ## One sub-tile's weighted losses -/

/-- The weighted loss of one sub-tile of 256 × 128 rows, as the vector operations compute it from the seven
    predicted coordinates, the seven target coordinates and the weights. -/
def tileLoss (v8 v11 v14 v17 v20 v23 v26 v29 v32 v35 v38 v41 v44 v47 v50 : FVec Ideal S256x128 .f32) :
    FVec Ideal S256x128 .f32 :=
  have cst_24 : Ideal .f32 := Scalar.ofBits .f32 0x00000000#32
  have v51 : FVec Ideal S256x128 .f32 := broadcast S256x128 cst_24
  have v52 : FVec Ideal S256x128 .f32 := mulf v51 v17
  have v53 : FVec Ideal S256x128 .f32 := addf v8 v52
  have cst_25 : Ideal .f32 := Scalar.ofBits .f32 0x00000000#32
  have v54 : FVec Ideal S256x128 .f32 := broadcast S256x128 cst_25
  have v55 : FVec Ideal S256x128 .f32 := mulf v54 v20
  have v56 : FVec Ideal S256x128 .f32 := addf v11 v55
  have cst_26 : Ideal .f32 := Scalar.ofBits .f32 0x3F000000#32
  have v57 : FVec Ideal S256x128 .f32 := broadcast S256x128 cst_26
  have v58 : FVec Ideal S256x128 .f32 := mulf v57 v23
  have v59 : FVec Ideal S256x128 .f32 := addf v14 v58
  have cst_27 : Ideal .f32 := Scalar.ofBits .f32 0x33D6BF95#32
  have cst_28 : Ideal .f32 := Scalar.ofBits .f32 0x4B189680#32
  have v60 : FVec Ideal S256x128 .f32 := broadcast S256x128 cst_27
  have v61 : FVec Ideal S256x128 .f32 := maximumf v60 v17
  have v62 : FVec Ideal S256x128 .f32 := broadcast S256x128 cst_28
  have v63 : FVec Ideal S256x128 .f32 := minimumf v62 v61
  have cst_29 : Ideal .f32 := Scalar.ofBits .f32 0x33D6BF95#32
  have cst_30 : Ideal .f32 := Scalar.ofBits .f32 0x4B189680#32
  have v64 : FVec Ideal S256x128 .f32 := broadcast S256x128 cst_29
  have v65 : FVec Ideal S256x128 .f32 := maximumf v64 v20
  have v66 : FVec Ideal S256x128 .f32 := broadcast S256x128 cst_30
  have v67 : FVec Ideal S256x128 .f32 := minimumf v66 v65
  have cst_31 : Ideal .f32 := Scalar.ofBits .f32 0x33D6BF95#32
  have cst_32 : Ideal .f32 := Scalar.ofBits .f32 0x4B189680#32
  have v68 : FVec Ideal S256x128 .f32 := broadcast S256x128 cst_31
  have v69 : FVec Ideal S256x128 .f32 := maximumf v68 v23
  have v70 : FVec Ideal S256x128 .f32 := broadcast S256x128 cst_32
  have v71 : FVec Ideal S256x128 .f32 := minimumf v70 v69
  have v72 : FVec Ideal S256x128 .f32 := cos v26
  have v73 : FVec Ideal S256x128 .f32 := sin v26
  have cst_33 : Ideal .f32 := Scalar.ofBits .f32 0x3F000000#32
  have v74 : FVec Ideal S256x128 .f32 := broadcast S256x128 cst_33
  have v75 : FVec Ideal S256x128 .f32 := mulf v74 v63
  have cst_34 : Ideal .f32 := Scalar.ofBits .f32 0x3F000000#32
  have v76 : FVec Ideal S256x128 .f32 := broadcast S256x128 cst_34
  have v77 : FVec Ideal S256x128 .f32 := mulf v76 v67
  have cst_35 : Ideal .f32 := Scalar.ofBits .f32 0x3F000000#32
  have v78 : FVec Ideal S256x128 .f32 := broadcast S256x128 cst_35
  have v79 : FVec Ideal S256x128 .f32 := mulf v78 v71
  have cst_36 : Ideal .f32 := Scalar.ofBits .f32 0x00000000#32
  have v80 : FVec Ideal S256x128 .f32 := broadcast S256x128 cst_36
  have v81 : FVec Ideal S256x128 .f32 := mulf v80 v38
  have v82 : FVec Ideal S256x128 .f32 := addf v29 v81
  have cst_37 : Ideal .f32 := Scalar.ofBits .f32 0x00000000#32
  have v83 : FVec Ideal S256x128 .f32 := broadcast S256x128 cst_37
  have v84 : FVec Ideal S256x128 .f32 := mulf v83 v41
  have v85 : FVec Ideal S256x128 .f32 := addf v32 v84
  have cst_38 : Ideal .f32 := Scalar.ofBits .f32 0x3F000000#32
  have v86 : FVec Ideal S256x128 .f32 := broadcast S256x128 cst_38
  have v87 : FVec Ideal S256x128 .f32 := mulf v86 v44
  have v88 : FVec Ideal S256x128 .f32 := addf v35 v87
  have cst_39 : Ideal .f32 := Scalar.ofBits .f32 0x33D6BF95#32
  have cst_40 : Ideal .f32 := Scalar.ofBits .f32 0x4B189680#32
  have v89 : FVec Ideal S256x128 .f32 := broadcast S256x128 cst_39
  have v90 : FVec Ideal S256x128 .f32 := maximumf v89 v38
  have v91 : FVec Ideal S256x128 .f32 := broadcast S256x128 cst_40
  have v92 : FVec Ideal S256x128 .f32 := minimumf v91 v90
  have cst_41 : Ideal .f32 := Scalar.ofBits .f32 0x33D6BF95#32
  have cst_42 : Ideal .f32 := Scalar.ofBits .f32 0x4B189680#32
  have v93 : FVec Ideal S256x128 .f32 := broadcast S256x128 cst_41
  have v94 : FVec Ideal S256x128 .f32 := maximumf v93 v41
  have v95 : FVec Ideal S256x128 .f32 := broadcast S256x128 cst_42
  have v96 : FVec Ideal S256x128 .f32 := minimumf v95 v94
  have cst_43 : Ideal .f32 := Scalar.ofBits .f32 0x33D6BF95#32
  have cst_44 : Ideal .f32 := Scalar.ofBits .f32 0x4B189680#32
  have v97 : FVec Ideal S256x128 .f32 := broadcast S256x128 cst_43
  have v98 : FVec Ideal S256x128 .f32 := maximumf v97 v44
  have v99 : FVec Ideal S256x128 .f32 := broadcast S256x128 cst_44
  have v100 : FVec Ideal S256x128 .f32 := minimumf v99 v98
  have v101 : FVec Ideal S256x128 .f32 := cos v47
  have v102 : FVec Ideal S256x128 .f32 := sin v47
  have cst_45 : Ideal .f32 := Scalar.ofBits .f32 0x3F000000#32
  have v103 : FVec Ideal S256x128 .f32 := broadcast S256x128 cst_45
  have v104 : FVec Ideal S256x128 .f32 := mulf v103 v92
  have cst_46 : Ideal .f32 := Scalar.ofBits .f32 0x3F000000#32
  have v105 : FVec Ideal S256x128 .f32 := broadcast S256x128 cst_46
  have v106 : FVec Ideal S256x128 .f32 := mulf v105 v96
  have cst_47 : Ideal .f32 := Scalar.ofBits .f32 0x3F000000#32
  have v107 : FVec Ideal S256x128 .f32 := broadcast S256x128 cst_47
  have v108 : FVec Ideal S256x128 .f32 := mulf v107 v100
  have v109 : FVec Ideal S256x128 .f32 := subf v53 v82
  have v110 : FVec Ideal S256x128 .f32 := mulf v109 v109
  have v111 : FVec Ideal S256x128 .f32 := subf v56 v85
  have v112 : FVec Ideal S256x128 .f32 := mulf v111 v111
  have v113 : FVec Ideal S256x128 .f32 := addf v110 v112
  have v114 : FVec Ideal S256x128 .f32 := subf v59 v88
  have v115 : FVec Ideal S256x128 .f32 := mulf v114 v114
  have v116 : FVec Ideal S256x128 .f32 := addf v113 v115
  have v117 : FVec Ideal S256x128 .f32 := mulf v75 v75
  have v118 : FVec Ideal S256x128 .f32 := mulf v77 v77
  have v119 : FVec Ideal S256x128 .f32 := addf v117 v118
  have v120 : FVec Ideal S256x128 .f32 := mulf v104 v104
  have v121 : FVec Ideal S256x128 .f32 := mulf v106 v106
  have v122 : FVec Ideal S256x128 .f32 := addf v120 v121
  have v123 : FVec Ideal S256x128 .f32 := addf v119 v122
  have v124 : FVec Ideal S256x128 .f32 := mulf v75 v75
  have v125 : FVec Ideal S256x128 .f32 := mulf v77 v77
  have v126 : FVec Ideal S256x128 .f32 := mulf v72 v72
  have v127 : FVec Ideal S256x128 .f32 := mulf v126 v124
  have v128 : FVec Ideal S256x128 .f32 := mulf v73 v73
  have v129 : FVec Ideal S256x128 .f32 := mulf v128 v125
  have v130 : FVec Ideal S256x128 .f32 := addf v127 v129
  have v131 : FVec Ideal S256x128 .f32 := mulf v72 v73
  have v132 : FVec Ideal S256x128 .f32 := subf v124 v125
  have v133 : FVec Ideal S256x128 .f32 := mulf v131 v132
  have v134 : FVec Ideal S256x128 .f32 := mulf v73 v73
  have v135 : FVec Ideal S256x128 .f32 := mulf v134 v124
  have v136 : FVec Ideal S256x128 .f32 := mulf v72 v72
  have v137 : FVec Ideal S256x128 .f32 := mulf v136 v125
  have v138 : FVec Ideal S256x128 .f32 := addf v135 v137
  have v139 : FVec Ideal S256x128 .f32 := mulf v104 v104
  have v140 : FVec Ideal S256x128 .f32 := mulf v106 v106
  have v141 : FVec Ideal S256x128 .f32 := mulf v101 v101
  have v142 : FVec Ideal S256x128 .f32 := mulf v141 v139
  have v143 : FVec Ideal S256x128 .f32 := mulf v102 v102
  have v144 : FVec Ideal S256x128 .f32 := mulf v143 v140
  have v145 : FVec Ideal S256x128 .f32 := addf v142 v144
  have v146 : FVec Ideal S256x128 .f32 := mulf v101 v102
  have v147 : FVec Ideal S256x128 .f32 := subf v139 v140
  have v148 : FVec Ideal S256x128 .f32 := mulf v146 v147
  have v149 : FVec Ideal S256x128 .f32 := mulf v102 v102
  have v150 : FVec Ideal S256x128 .f32 := mulf v149 v139
  have v151 : FVec Ideal S256x128 .f32 := mulf v101 v101
  have v152 : FVec Ideal S256x128 .f32 := mulf v151 v140
  have v153 : FVec Ideal S256x128 .f32 := addf v150 v152
  have v154 : FVec Ideal S256x128 .f32 := mulf v130 v145
  have cst_48 : Ideal .f32 := Scalar.ofBits .f32 0x40000000#32
  have v155 : FVec Ideal S256x128 .f32 := broadcast S256x128 cst_48
  have v156 : FVec Ideal S256x128 .f32 := mulf v155 v133
  have v157 : FVec Ideal S256x128 .f32 := mulf v156 v148
  have v158 : FVec Ideal S256x128 .f32 := addf v154 v157
  have v159 : FVec Ideal S256x128 .f32 := mulf v138 v153
  have v160 : FVec Ideal S256x128 .f32 := addf v158 v159
  have v161 : FVec Ideal S256x128 .f32 := mulf v75 v77
  have v162 : FVec Ideal S256x128 .f32 := mulf v161 v104
  have v163 : FVec Ideal S256x128 .f32 := mulf v162 v106
  have cst_49 : Ideal .f32 := Scalar.ofBits .f32 0x40000000#32
  have v164 : FVec Ideal S256x128 .f32 := broadcast S256x128 cst_49
  have v165 : FVec Ideal S256x128 .f32 := mulf v164 v163
  have v166 : FVec Ideal S256x128 .f32 := addf v160 v165
  have cst_50 : Ideal .f32 := Scalar.ofBits .f32 0x00000000#32
  have v167 : FVec Ideal S256x128 .f32 := broadcast S256x128 cst_50
  have v168 : FVec Ideal S256x128 .f32 := maximumf v167 v166
  have v169 : FVec Ideal S256x128 .f32 := sqrt v168
  have cst_51 : Ideal .f32 := Scalar.ofBits .f32 0x40000000#32
  have v170 : FVec Ideal S256x128 .f32 := broadcast S256x128 cst_51
  have v171 : FVec Ideal S256x128 .f32 := mulf v170 v169
  have v172 : FVec Ideal S256x128 .f32 := subf v123 v171
  have v173 : FVec Ideal S256x128 .f32 := subf v79 v108
  have v174 : FVec Ideal S256x128 .f32 := mulf v173 v173
  have v175 : FVec Ideal S256x128 .f32 := addf v172 v174
  have cst_52 : Ideal .f32 := Scalar.ofBits .f32 0x3F800000#32
  have v176 : FVec Ideal S256x128 .f32 := broadcast S256x128 cst_52
  have v177 : FVec Ideal S256x128 .f32 := mulf v176 v175
  have v178 : FVec Ideal S256x128 .f32 := addf v116 v177
  have cst_53 : Ideal .f32 := Scalar.ofBits .f32 0x00000000#32
  have v179 : FVec Ideal S256x128 .f32 := broadcast S256x128 cst_53
  have v180 : FVec Ideal S256x128 .f32 := maximumf v179 v178
  have v181 : FVec Ideal S256x128 .f32 := sqrt v180
  have v182 : FVec Ideal S256x128 .f32 := log v163
  have v183 : FVec Ideal S256x128 .f32 := log v79
  have v184 : FVec Ideal S256x128 .f32 := addf v182 v183
  have v185 : FVec Ideal S256x128 .f32 := log v108
  have v186 : FVec Ideal S256x128 .f32 := addf v184 v185
  have cst_54 : Ideal .f32 := Scalar.ofBits .f32 0x40C00000#32
  have v187 : FVec Ideal S256x128 .f32 := broadcast S256x128 cst_54
  have v188 : FVec Ideal S256x128 .f32 := divf v186 v187
  have v189 : FVec Ideal S256x128 .f32 := exp v188
  have cst_55 : Ideal .f32 := Scalar.ofBits .f32 0x40000000#32
  have v190 : FVec Ideal S256x128 .f32 := broadcast S256x128 cst_55
  have v191 : FVec Ideal S256x128 .f32 := mulf v190 v189
  have v192 : FVec Ideal S256x128 .f32 := divf v181 v191
  have v193 : FVec Ideal S256x128 .f32 := log1p v192
  have cst_56 : Ideal .f32 := Scalar.ofBits .f32 0x3F800000#32
  have v194 : FVec Ideal S256x128 .f32 := broadcast S256x128 cst_56
  have v195 : FVec Ideal S256x128 .f32 := addf v194 v193
  have cst_57 : Ideal .f32 := Scalar.ofBits .f32 0x3F800000#32
  have v196 : FVec Ideal S256x128 .f32 := broadcast S256x128 cst_57
  have v197 : FVec Ideal S256x128 .f32 := divf v196 v195
  have cst_58 : Ideal .f32 := Scalar.ofBits .f32 0x3F800000#32
  have v198 : FVec Ideal S256x128 .f32 := broadcast S256x128 cst_58
  have v199 : FVec Ideal S256x128 .f32 := subf v198 v197
  have v200 : FVec Ideal S256x128 .f32 := mulf v199 v50
  v200

/-- At an index the sub-tile's vector computation is the weighted loss of the row found there. -/
theorem tileLoss_apply (p t : Fin 7 → FVec Ideal S256x128 .f32) (w : FVec Ideal S256x128 .f32) (i : S256x128.Idx) :
    tileLoss (p 0) (p 1) (p 2) (p 3) (p 4) (p 5) (p 6) (t 0) (t 1) (t 2) (t 3) (t 4) (t 5) (t 6) w i
      = Cert.BoxLoss.weighted (fun a => p a i) (fun a => t a i) (w i) := by
  simp only [tileLoss, Cert.BoxLoss.weighted, Cert.BoxLoss.rowLoss, Cert.BoxLoss.centre, Cert.BoxLoss.halfSize,
    Cert.BoxLoss.covA, Cert.BoxLoss.covB, Cert.BoxLoss.covD, Cert.BoxLoss.lit,
    mulf_apply, addf_apply, subf_apply, divf_apply, maximumf_apply, minimumf_apply, broadcast_apply,
    cos_apply, sin_apply, sqrt_apply, log_apply, exp_apply, log1p_apply, ofBits_eq]

/-! ## A loaded sub-tile read at an index -/

theorem casts3 : S1x256x128.ShapeCasts S256x128 := by decide
theorem casts2 : S256x128.ShapeCasts S256x128 := by decide
theorem reduces2 : S256x128.Reduces [0] S128 := by decide
theorem casts1 : S128.ShapeCasts S1x128 := by decide

/-- The 1 × 256 × 128 box at (a, r, 0) lies inside a 7 × 2048 × 128 block. -/
theorem inb7 (a r : ℕ) (ha : a < 7) (hr : r + 256 ≤ 2048) :
    ∀ d, (![a, r, 0] : Fin 3 → ℕ) d + S1x256x128.size d ≤ S7x2048x128.size d := fun d =>
  match d with
  | ⟨0, _⟩ => show a + 1 ≤ 7 by omega
  | ⟨1, _⟩ => show r + 256 ≤ 2048 from hr
  | ⟨2, _⟩ => show 0 + 128 ≤ 128 by omega

/-- The 256 × 128 box at (r, 0) lies inside a 2048 × 128 block. -/
theorem inb2 (r : ℕ) (hr : r + 256 ≤ 2048) :
    ∀ d, (![r, 0] : Fin 2 → ℕ) d + S256x128.size d ≤ S2048x128.size d := fun d =>
  match d with
  | ⟨0, _⟩ => show r + 256 ≤ 2048 from hr
  | ⟨1, _⟩ => show 0 + 128 ≤ 128 by omega

/-- Coordinate `a` of the sub-tile starting at block row `r`: the 1 × 256 × 128 box loaded, viewed 256 × 128. -/
def ld7 (x : Vec Ideal S7x2048x128 .f32) (a r : ℕ) (ha : a < 7) (hr : r + 256 ≤ 2048) : FVec Ideal S256x128 .f32 :=
  shapeCast (s := S1x256x128) S256x128 (View.ld (Val := Elt Ideal) (e' := .f32) x (Rect.unit ![a, r, 0] S1x256x128.size (inb7 a r ha hr))) casts3

/-- The weights of the sub-tile starting at block row `r`. -/
def ld2 (x : Vec Ideal S2048x128 .f32) (r : ℕ) (hr : r + 256 ≤ 2048) : FVec Ideal S256x128 .f32 :=
  shapeCast (s := S256x128) S256x128 (View.ld (Val := Elt Ideal) (e' := .f32) x (Rect.unit ![r, 0] S256x128.size (inb2 r hr))) casts2

/-- Row `s`, lane `l` of the loaded coordinate is the block's entry at (a, r + s, l). -/
theorem ld7_apply (x : Vec Ideal S7x2048x128 .f32) (a r : ℕ) (ha : a < 7) (hr : r + 256 ≤ 2048) (s : Fin 256) (l : Fin 128) :
    ld7 x a r ha hr (ix2 s l) = x (ix3 (⟨a, ha⟩ : Fin 7) (⟨r + s.val, by omega⟩ : Fin 2048) l) := by
  unfold ld7
  refine (shapeCast_apply (s := S1x256x128) (t := S256x128) _ casts3 (ix2 s l) (ix3 (0 : Fin 1) s l) ?_).trans ?_
  · rw [Shape.rowMajor_val_three, Shape.rowMajor_val_two]
    show (0 * 256 + s.val) * 128 + l.val = s.val * 128 + l.val
    omega
  · show x _ = x _
    refine congrArg x (funext fun d => Fin.ext ?_)
    match d with
    | ⟨0, _⟩ => show a + 1 * 0 = a; omega
    | ⟨1, _⟩ => show r + 1 * s.val = r + s.val; omega
    | ⟨2, _⟩ => show 0 + 1 * l.val = l.val; omega

/-- Row `s`, lane `l` of the loaded weights is the block's entry at (r + s, l). -/
theorem ld2_apply (x : Vec Ideal S2048x128 .f32) (r : ℕ) (hr : r + 256 ≤ 2048) (s : Fin 256) (l : Fin 128) :
    ld2 x r hr (ix2 s l) = x (ix2 (⟨r + s.val, by omega⟩ : Fin 2048) l) := by
  unfold ld2
  rw [shapeCast_self]
  show x _ = x _
  refine congrArg x (funext fun d => Fin.ext ?_)
  match d with
  | ⟨0, _⟩ => show r + 1 * s.val = r + s.val; omega
  | ⟨1, _⟩ => show 0 + 1 * l.val = l.val; omega

/-! ## The column sum -/

/-- Each lane's sum over the 256 rows of a sub-tile, as a 1 × 128 vector. -/
def colSum (v : FVec Ideal S256x128 .f32) : FVec Ideal S1x128 .f32 :=
  shapeCast (s := S128) S1x128 (multiReduction .add [0] S128 v 0x00000000#32 reduces2 (.inl rfl) rfl) casts1

/-- Lane `l` of the column sum is the sum over the rows. -/
theorem colSum_apply (v : FVec Ideal S256x128 .f32) (l : Fin 128) :
    colSum v (ix2 (0 : Fin 1) l) = ∑ s : Fin 256, v (ix2 s l) := by
  unfold colSum
  refine (shapeCast_apply (s := S128) (t := S1x128) _ casts1 (ix2 (0 : Fin 1) l) (ix1 l) ?_).trans ?_
  · rw [Shape.rowMajor_val_one, Shape.rowMajor_val_two]
    show l.val = 0 * 128 + l.val
    omega
  · refine (Ideal.multiReduction_add_single v 0x00000000#32 reduces2 (.inl rfl) rfl (ix1 l)).trans ?_
    show ∑ k : Fin 256, v (reduces2.lift (ix1 l) k) = ∑ s : Fin 256, v (ix2 s l)
    refine Finset.sum_congr rfl fun k _ => congrArg v (funext fun d => Fin.ext ?_)
    match d with
    | ⟨0, _⟩ => rfl
    | ⟨1, _⟩ => rfl

/-! ## A sub-tile of a block, and the block's sum -/

/-- The weighted losses of the sub-tile starting at block row `r`. -/
def tileOf (x0 x1 : Vec Ideal S7x2048x128 .f32) (x2 : Vec Ideal S2048x128 .f32) (r : ℕ) (hr : r + 256 ≤ 2048) :
    FVec Ideal S256x128 .f32 :=
  tileLoss (ld7 x0 0 r (by omega) hr) (ld7 x0 1 r (by omega) hr) (ld7 x0 2 r (by omega) hr) (ld7 x0 3 r (by omega) hr)
    (ld7 x0 4 r (by omega) hr) (ld7 x0 5 r (by omega) hr) (ld7 x0 6 r (by omega) hr)
    (ld7 x1 0 r (by omega) hr) (ld7 x1 1 r (by omega) hr) (ld7 x1 2 r (by omega) hr) (ld7 x1 3 r (by omega) hr)
    (ld7 x1 4 r (by omega) hr) (ld7 x1 5 r (by omega) hr) (ld7 x1 6 r (by omega) hr) (ld2 x2 r hr)

/-- Row `s`, lane `l` of that sub-tile is the block's weighted loss at row `r + s`. -/
theorem tileOf_apply (x0 x1 : Vec Ideal S7x2048x128 .f32) (x2 : Vec Ideal S2048x128 .f32) (r : ℕ) (hr : r + 256 ≤ 2048)
    (s : Fin 256) (l : Fin 128) :
    tileOf x0 x1 x2 r hr (ix2 s l) = Cert.BoxLoss.blockAt x0 x1 x2 (⟨r + s.val, by omega⟩ : Fin 2048) l := by
  unfold tileOf Cert.BoxLoss.blockAt
  refine (tileLoss_apply (fun a => ld7 x0 a.val r a.isLt hr) (fun a => ld7 x1 a.val r a.isLt hr) (ld2 x2 r hr) (ix2 s l)).trans ?_
  simp only [ld7_apply, ld2_apply]

/-- The all-zero 1 × 128 row the accumulation starts from. -/
def zeroRow : FVec Ideal S1x128 .f32 := broadcast S1x128 (Scalar.ofBits .f32 0x00000000#32)

/-- What the body adds to the accumulator: the eight sub-tiles' column sums, added in order onto zero. -/
def bodySum (x0 x1 : Vec Ideal S7x2048x128 .f32) (x2 : Vec Ideal S2048x128 .f32) : FVec Ideal S1x128 .f32 :=
  addf (addf (addf (addf (addf (addf (addf (addf (zeroRow) (colSum (tileOf x0 x1 x2 0 (by omega)))) (colSum (tileOf x0 x1 x2 256 (by omega)))) (colSum (tileOf x0 x1 x2 512 (by omega)))) (colSum (tileOf x0 x1 x2 768 (by omega)))) (colSum (tileOf x0 x1 x2 1024 (by omega)))) (colSum (tileOf x0 x1 x2 1280 (by omega)))) (colSum (tileOf x0 x1 x2 1536 (by omega)))) (colSum (tileOf x0 x1 x2 1792 (by omega)))

/-- Lane `l` of it is the block's sum of weighted losses over its 8 · 256 rows. -/
theorem bodySum_apply (x0 x1 : Vec Ideal S7x2048x128 .f32) (x2 : Vec Ideal S2048x128 .f32) (l : Fin 128) :
    bodySum x0 x1 x2 (ix2 (0 : Fin 1) l) = Cert.BoxLoss.blockSum x0 x1 x2 l := by
  unfold bodySum zeroRow Cert.BoxLoss.blockSum
  simp only [addf_apply, broadcast_apply, colSum_apply, tileOf_apply, ofBits_eq, Ideal.ofBits_zero_f32,
    (zero_add : ∀ a : EReal, 0 + a = a)]
  rw [Fin.sum_univ_eight]
  rfl

end Cert.KernelIdeal.Body

end
-- ==== Proof.KBodyA.lean ====
/-
  The body's value at the first chunk of a core's walk.

  At chunk 0 the body first stores a row of zeros into the 1 × 128 accumulator, then reads it back, adds the block's
  eight column sums to it, and stores the result whole: lane `l` of the accumulator ends at the block's sum of
  weighted losses (zero plus it).
-/
import proofs.«161557_j78537771975381_2_alg».proof.Proof.Gen.KernelIdeal.Frame
import proofs.«161557_j78537771975381_2_alg».proof.Proof.KBodyTile
import Idealize.ShloMosaic.Lib.Tactic

noncomputable section

namespace Cert.KernelIdeal.Body

open Idealize.ShloMosaic Idealize.ShloMosaic.TcCoe Idealize.ShloMosaic.Tactic Idealize.SL.Sem Idealize.ShloMosaic.ValueIdx
open Cert.KernelIdeal Cert.KernelIdeal.Gen

theorem hzA : (![0, 0] : Fin 2 → Nat) = fun _ => 0 := funext fun a => by fin_cases a <;> rfl

theorem castsA : S1x128.ShapeCasts S1x128 := by decide

/-- What the first chunk leaves in the accumulator, as one vector: the stored zeros plus the body's sum. -/
theorem scratch_A_vec (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : cond0_0 i) (hc1 : ¬cond0_1 i)
    (x0 x1 : Vec Ideal S7x2048x128 .f32) (x2 : Vec Ideal S2048x128 .f32) :
    Gen.sout0_A_0 c i arg2 harg2 arg3 harg3 arg4 harg4 arg5 harg5 arg6 harg6 hc0 hc1 x0 x1 x2
      = shapeCast (s := S1x128) S1x128 (addf (k0_pay2 (F := Ideal)) (bodySum x0 x1 x2)) castsA := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  rw [View.canon_cons_unit_zero hzA]
  sl_unfold_run_names
  rw [View.readCov_unit_zero _ hzA]
  simp only [View.readAt_eq_ld, harg2.read_unread, harg3.read_unread, harg4.read_unread]
  rfl

/-- Lane `l` of the accumulator after the first chunk: the block's sum of weighted losses. -/
theorem scratch_A (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : cond0_0 i) (hc1 : ¬cond0_1 i)
    (x0 x1 : Vec Ideal S7x2048x128 .f32) (x2 : Vec Ideal S2048x128 .f32) (l : Fin 128) :
    Gen.sout0_A_0 c i arg2 harg2 arg3 harg3 arg4 harg4 arg5 harg5 arg6 harg6 hc0 hc1 x0 x1 x2 (ix2 (0 : Fin 1) l) = Cert.BoxLoss.blockSum x0 x1 x2 l := by
  rw [scratch_A_vec, shapeCast_self, addf_apply, bodySum_apply]
  unfold k0_pay2
  rw [shapeCast_self]
  show Ideal.ofBits .f32 0x00000000#32 + _ = _
  rw [Ideal.ofBits_zero_f32, zero_add]

end Cert.KernelIdeal.Body

end
-- ==== Proof.KBodyB.lean ====
/-
  The body's value at the middle chunks of a core's walk.

  At chunks 1 to 6 the body reads the 1 × 128 accumulator the chunk before left, adds the block's eight column sums
  to it, and stores it back whole: lane `l` of the accumulator grows by the block's sum of weighted losses.
-/
import proofs.«161557_j78537771975381_2_alg».proof.Proof.Gen.KernelIdeal.Frame
import proofs.«161557_j78537771975381_2_alg».proof.Proof.KBodyTile
import Idealize.ShloMosaic.Lib.Tactic

noncomputable section

namespace Cert.KernelIdeal.Body

open Idealize.ShloMosaic Idealize.ShloMosaic.TcCoe Idealize.ShloMosaic.Tactic Idealize.SL.Sem Idealize.ShloMosaic.ValueIdx
open Cert.KernelIdeal Cert.KernelIdeal.Gen

theorem hzB : (![0, 0] : Fin 2 → Nat) = fun _ => 0 := funext fun a => by fin_cases a <;> rfl

theorem castsB : S1x128.ShapeCasts S1x128 := by decide

/-- What the middle chunks leave in the accumulator, as one vector: the old accumulator plus the body's sum. -/
theorem scratch_B_vec (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : ¬cond0_1 i)
    (x0 x1 : Vec Ideal S7x2048x128 .f32) (x2 : Vec Ideal S2048x128 .f32) (xs0 : Vec Ideal S1x128 .f32) :
    Gen.sout0_B_0 c i arg2 harg2 arg3 harg3 arg4 harg4 arg5 harg5 arg6 harg6 hc0 hc1 x0 x1 x2 xs0
      = shapeCast (s := S1x128) S1x128 (addf xs0 (bodySum x0 x1 x2)) castsB := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hzB]
  sl_unfold_run_names
  simp only [View.readAt_eq_ld, harg2.read_unread, harg3.read_unread, harg4.read_unread, harg6.read_unread,
    View.ld_unit_zero (S := S1x128) hzB]
  rfl

/-- Lane `l` of the accumulator after a middle chunk: what it held plus the block's sum of weighted losses. -/
theorem scratch_B (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : ¬cond0_1 i)
    (x0 x1 : Vec Ideal S7x2048x128 .f32) (x2 : Vec Ideal S2048x128 .f32) (xs0 : Vec Ideal S1x128 .f32) (l : Fin 128) :
    Gen.sout0_B_0 c i arg2 harg2 arg3 harg3 arg4 harg4 arg5 harg5 arg6 harg6 hc0 hc1 x0 x1 x2 xs0 (ix2 (0 : Fin 1) l)
      = xs0 (ix2 (0 : Fin 1) l) + Cert.BoxLoss.blockSum x0 x1 x2 l := by
  rw [scratch_B_vec, shapeCast_self, addf_apply, bodySum_apply]

end Cert.KernelIdeal.Body

end
-- ==== Proof.KBodyC.lean ====
/-
  The body's value at the last chunk of a core's walk.

  At chunk 7 the body reads the 1 × 128 accumulator the chunk before left, adds the block's eight column sums to it
  and stores it back whole, as at the middle chunks; it then reads the accumulator back and copies it into each of the
  eight rows of the 8 × 128 output block. So lane `l` of the accumulator, and of every row of the output block, is
  what the accumulator held plus the block's sum of weighted losses.
-/
import proofs.«161557_j78537771975381_2_alg».proof.Proof.Gen.KernelIdeal.Frame
import proofs.«161557_j78537771975381_2_alg».proof.Proof.KBodyTile
import Idealize.ShloMosaic.Lib.Tactic
import Idealize.ShloMosaic.Lib.ValueLayout

noncomputable section

namespace Cert.KernelIdeal.Body

open Idealize.ShloMosaic Idealize.ShloMosaic.TcCoe Idealize.ShloMosaic.Tactic Idealize.SL.Sem Idealize.ShloMosaic.ValueIdx
open Cert.KernelIdeal Cert.KernelIdeal.Gen

theorem hzC : (![0, 0] : Fin 2 → Nat) = fun _ => 0 := funext fun a => by fin_cases a <;> rfl

theorem castsC : S1x128.ShapeCasts S1x128 := by decide

/-- What the last chunk leaves in the accumulator, as one vector: the old accumulator plus the body's sum. -/
theorem scratch_C_vec (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : cond0_1 i)
    (x0 x1 : Vec Ideal S7x2048x128 .f32) (x2 : Vec Ideal S2048x128 .f32) (xs0 : Vec Ideal S1x128 .f32) :
    Gen.sout0_C_0 c i arg2 harg2 arg3 harg3 arg4 harg4 arg5 harg5 arg6 harg6 hc0 hc1 x0 x1 x2 xs0
      = shapeCast (s := S1x128) S1x128 (addf xs0 (bodySum x0 x1 x2)) castsC := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_run_names
  rw [View.canon_unit_zero hzC]
  simp only [View.readAt_eq_ld, harg2.read_unread, harg3.read_unread, harg4.read_unread, harg6.read_unread,
    View.ld_unit_zero (S := S1x128) hzC]
  rfl

/-- Lane `l` of the accumulator after the last chunk: what it held plus the block's sum of weighted losses. -/
theorem scratch_C (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : cond0_1 i)
    (x0 x1 : Vec Ideal S7x2048x128 .f32) (x2 : Vec Ideal S2048x128 .f32) (xs0 : Vec Ideal S1x128 .f32) (l : Fin 128) :
    Gen.sout0_C_0 c i arg2 harg2 arg3 harg3 arg4 harg4 arg5 harg5 arg6 harg6 hc0 hc1 x0 x1 x2 xs0 (ix2 (0 : Fin 1) l)
      = xs0 (ix2 (0 : Fin 1) l) + Cert.BoxLoss.blockSum x0 x1 x2 l := by
  rw [scratch_C_vec, shapeCast_self, addf_apply, bodySum_apply]

/-- What the last chunk stores into the output block, as one vector: the new accumulator (the old one plus the
    body's sum), read back and copied into each of the eight rows. -/
theorem out_C_vec (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : cond0_1 i)
    (x0 x1 : Vec Ideal S7x2048x128 .f32) (x2 : Vec Ideal S2048x128 .f32) (xs0 : Vec Ideal S1x128 .f32) :
    Gen.out0_C_3 c i arg2 harg2 arg3 harg3 arg4 harg4 arg5 harg5 arg6 harg6 hc0 hc1 x0 x1 x2 xs0
      = k0_pay1 (shapeCast (s := S1x128) S1x128 (addf xs0 (bodySum x0 x1 x2)) castsC) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  rw [View.canon_unit_zero hzC]
  sl_unfold_run_names
  rw [View.readCov_unit_zero _ hzC]
  simp only [View.readAt_eq_ld, harg2.read_unread, harg3.read_unread, harg4.read_unread, harg6.read_unread,
    View.ld_unit_zero (S := S1x128) hzC]
  rfl

/-- Row `r`, lane `l` of the output block after the last chunk: lane `l` of the new accumulator. -/
theorem out_C (c : Dev nD) (i : grid0.Coords) (arg2 : Memref sig .tc .vmem S7x2048x128 .f32) (harg2 : arg2.IsWhole) (arg3 : Memref sig .tc .vmem S7x2048x128 .f32) (harg3 : arg3.IsWhole) (arg4 : Memref sig .tc .vmem S2048x128 .f32) (harg4 : arg4.IsWhole) (arg5 : Memref sig .tc .vmem S8x128 .f32) (harg5 : arg5.IsWhole) (arg6 : Memref sig .tc .vmem S1x128 .f32) (harg6 : arg6.IsWhole) (hc0 : ¬cond0_0 i) (hc1 : cond0_1 i)
    (x0 x1 : Vec Ideal S7x2048x128 .f32) (x2 : Vec Ideal S2048x128 .f32) (xs0 : Vec Ideal S1x128 .f32) (r : Fin 8) (l : Fin 128) :
    Gen.out0_C_3 c i arg2 harg2 arg3 harg3 arg4 harg4 arg5 harg5 arg6 harg6 hc0 hc1 x0 x1 x2 xs0 (ix2 r l)
      = xs0 (ix2 (0 : Fin 1) l) + Cert.BoxLoss.blockSum x0 x1 x2 l := by
  rw [out_C_vec]
  unfold k0_pay1
  refine (broadcastTo_1b_ab_apply _ _ r l).trans ?_
  rw [shapeCast_self, shapeCast_self, addf_apply, bodySum_apply]

end Cert.KernelIdeal.Body

end
-- ==== Proof.KGridFinal.lean ====
/-
  The accumulation over the grid with the body's three control cases put in: the accumulator after every point, and
  the output array after the region — every row of a core's block holds that core's lane totals over the staged
  lane-dense arrays.
-/
import proofs.«161557_j78537771975381_2_alg».proof.Proof.KGrid
import proofs.«161557_j78537771975381_2_alg».proof.Proof.KBodyA
import proofs.«161557_j78537771975381_2_alg».proof.Proof.KBodyB
import proofs.«161557_j78537771975381_2_alg».proof.Proof.KBodyC

noncomputable section

open Idealize.ShloMosaic Idealize.ShloMosaic.TcCoe Idealize.SL.Sem Idealize.ShloMosaic.ValueIdx

namespace Cert.KernelIdeal.Grid

open Cert.KernelIdeal Cert.KernelIdeal.Gen

variable (m : (ℓ : Loc nD τ sig) → Buf (Elt Ideal) ℓ)

/-- The accumulator after point n, lane l: the block sums of the points of n's run of eight, from the run's first
    point up to n. -/
theorem scratch (c : Dev nD) (l : Fin 128) (n : ℕ) (hn : n < cfg0.N) :
    (outsAt0 m c n hn).2 (ix2 (0 : Fin 1) l) = ∑ k ∈ Finset.range (n % 8 + 1), addend m c l (8 * (n / 8) + k) :=
  scratch_eq m Cert.KernelIdeal.Body.scratch_A Cert.KernelIdeal.Body.scratch_B Cert.KernelIdeal.Body.scratch_C c l n hn

/-- THE OUTPUT ARRAY after the region: row 8 · core + r, lane l holds core's lane total over the staged arrays. -/
theorem final (c : Dev nD) :
    ((dats m 0 c).arrAt 3 cfg0.N : S16x128.Idx → EReal)
      = Cert.BoxLoss.outArray (V m c main_v4) (V m c main_v6) (V m c main_v7) :=
  final_of m Cert.KernelIdeal.Body.scratch_A Cert.KernelIdeal.Body.scratch_B Cert.KernelIdeal.Body.scratch_C
    (fun c i arg2 harg2 arg3 harg3 arg4 harg4 arg5 harg5 arg6 harg6 hc0 hc1 x0 x1 x2 xs0 l r =>
      Cert.KernelIdeal.Body.out_C c i arg2 harg2 arg3 harg3 arg4 harg4 arg5 harg5 arg6 harg6 hc0 hc1 x0 x1 x2 xs0 r l) c

end Cert.KernelIdeal.Grid

end
-- ==== Proof.KernelValue.lean ====
/-
  The kernel program's result as a function of its arguments, on the extended reals.

  The region leaves in every row of core `c`'s block of the [16, 128] output the lane totals of that core over the
  lane-dense padded arrays; the host adds the 128 lanes of row 0 (core 0) and of row 8 (core 1), adds the two, and
  takes the mean. The lane-dense arrays are the padded argument arrays re-laid, a padded row weighs zero, and the two
  cores' lanes together are every padded row once: so the result is the mean of the N weighted row losses.
-/
import proofs.«161557_j78537771975381_2_alg».proof.Proof.Regroup
import proofs.«161557_j78537771975381_2_alg».proof.Proof.KOut
import proofs.«161557_j78537771975381_2_alg».proof.Proof.KHostIn
import proofs.«161557_j78537771975381_2_alg».proof.Proof.KHostOut
import proofs.«161557_j78537771975381_2_alg».proof.Proof.KGridFinal

noncomputable section

namespace Cert.KernelIdeal.Whole

open Idealize.ShloMosaic Idealize.ShloMosaic.TcCoe Idealize.SL.Sem Idealize.ShloMosaic.ValueIdx
open Cert.KernelIdeal Cert.KernelIdeal.Gen

/-- The output array the region leaves, over the argument arrays: each row of a core's block holds that core's lane
    totals over the padded rows. -/
theorem out_eq (m : (ℓ : Loc nD τ sig) → Buf (Elt Ideal) ℓ) (c : Dev nD) :
    ((Gen.dats m 0 c).arrAt 3 cfg0.N : S16x128.Idx → EReal)
      = Cert.BoxLoss.outArray (Cert.BoxLoss.denseRows (m ((c : Thread nD τ).loc main_arg0)))
          (Cert.BoxLoss.denseRows (m ((c : Thread nD τ).loc main_arg1)))
          (Cert.BoxLoss.denseWeights (m ((c : Thread nD τ).loc main_arg2))) := by
  rw [Cert.KernelIdeal.Grid.final m c, Cert.KernelIdeal.HostSide.V_pred m c, Cert.KernelIdeal.HostSide.V_target m c,
    Cert.KernelIdeal.HostSide.V_weight m c]

/-- The mean of the lanes of rows 0 and 8 of that array is the mean weighted loss: row 0 holds core 0's lane totals,
    row 8 core 1's, and the two cores' lanes are every padded row once. -/
theorem mean_rows (P T : Cert.BoxLoss.SRows.Idx → EReal) (W : Cert.BoxLoss.SWeights.Idx → EReal) :
    (fun _ => Cert.BoxLoss.mean
        ((∑ l : Fin 128, Cert.BoxLoss.outArray (Cert.BoxLoss.denseRows P) (Cert.BoxLoss.denseRows T)
            (Cert.BoxLoss.denseWeights W) (ix2 (0 : Fin 16) l))
        + (∑ l : Fin 128, Cert.BoxLoss.outArray (Cert.BoxLoss.denseRows P) (Cert.BoxLoss.denseRows T)
            (Cert.BoxLoss.denseWeights W) (ix2 (8 : Fin 16) l))) : Cert.BoxLoss.SScalar.Idx → EReal)
      = Cert.BoxLoss.result P T W := by
  funext _
  unfold Cert.BoxLoss.result
  refine congrArg Cert.BoxLoss.mean ?_
  rw [Finset.sum_congr rfl fun l _ => Cert.BoxLoss.outArray_row0 _ _ _ l,
    Finset.sum_congr rfl fun l _ => Cert.BoxLoss.outArray_row8 _ _ _ l]
  exact Cert.BoxLoss.lanes_total P T W

/-- Every weakly fair execution of the kernel program terminates with the mean weighted loss of its arguments in its
    result and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
        = Cert.BoxLoss.result (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (mean_rows _ _ _), (h c).2⟩)
    (Cert.KernelIdeal.HostSide.run_kernel m ρ _ (out_eq m))

end Cert.KernelIdeal.Whole

end
-- ==== Proof.RefOps.lean ====
/- The reference program's @main as lists of its host operations in program order, one list per printed
   window, each call of an outlined clamp replaced by the clamp's own operations on the buffers of that call;
   and @main is the sequence of these operations. -/
import proofs.«161557_j78537771975381_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 80 of 203: the window `main_part0`, each call in it replaced by the callee's operations on that call's buffers. -/
abbrev ops_part0 : List (HloOp τ sig (Elt F)) :=
  [ nullary main_cst (fun i => FloatOps.ofBits .f32 (lit0 (S3.rowMajor i))),
    nullary main_cst_0 (fun i => FloatOps.ofBits .f32 (lit1 (S3.rowMajor i))),
    unary main_arg0 main_v0 ((extractStridedSlice S4000000x3 ![0, 0] · slices_S4000000x7_S4000000x3_0_0) : (⟨S4000000x7, .f32⟩ : BufTy).Contents (Elt F) → (⟨S4000000x3, .f32⟩ : BufTy).Contents (Elt F)),
    unary main_cst main_v1 (broadcastInDim S1x3 ![1] bcast_S3_S1x3_1 : (⟨S3, .f32⟩ : BufTy).Contents (Elt F) → (⟨S1x3, .f32⟩ : BufTy).Contents (Elt F)),
    unary main_arg0 main_v2 ((extractStridedSlice S4000000x3 ![0, 3] · slices_S4000000x7_S4000000x3_0_3) : (⟨S4000000x7, .f32⟩ : BufTy).Contents (Elt F) → (⟨S4000000x3, .f32⟩ : BufTy).Contents (Elt F)),
    unary main_v1 main_v3 (broadcastInDim S4000000x3 ![0, 1] bcast_S1x3_S4000000x3_0_1 : (⟨S1x3, .f32⟩ : BufTy).Contents (Elt F) → (⟨S4000000x3, .f32⟩ : BufTy).Contents (Elt F)),
    binary main_v3 main_v2 main_v4 (mulf : (⟨S4000000x3, .f32⟩ : BufTy).Contents (Elt F) → (⟨S4000000x3, .f32⟩ : BufTy).Contents (Elt F) → (⟨S4000000x3, .f32⟩ : BufTy).Contents (Elt F)),
    binary main_v0 main_v4 main_v5 (addf : (⟨S4000000x3, .f32⟩ : BufTy).Contents (Elt F) → (⟨S4000000x3, .f32⟩ : BufTy).Contents (Elt F) → (⟨S4000000x3, .f32⟩ : BufTy).Contents (Elt F)),
    unary main_arg0 main_v6 ((extractStridedSlice S4000000x2 ![0, 3] · slices_S4000000x7_S4000000x2_0_3) : (⟨S4000000x7, .f32⟩ : BufTy).Contents (Elt F) → (⟨S4000000x2, .f32⟩ : BufTy).Contents (Elt F)),
    nullary main_cst_1 (constant S_ .f32 0x33D6BF95#32),
    nullary main_cst_2 (constant S_ .f32 0x4B189680#32),
    unary main_cst_1 main_call0_v0 (id : (⟨S_, .f32⟩ : BufTy).Contents (Elt F) → (⟨S_, .f32⟩ : BufTy).Contents (Elt F)),
    unary main_call0_v0 main_call0_v1 (broadcastInDim S4000000x2 ![] bcast_S_S4000000x2 : (⟨S_, .f32⟩ : BufTy).Contents (Elt F) → (⟨S4000000x2, .f32⟩ : BufTy).Contents (Elt F)),
    binary main_call0_v1 main_v6 main_call0_v2 (maximumf : (⟨S4000000x2, .f32⟩ : BufTy).Contents (Elt F) → (⟨S4000000x2, .f32⟩ : BufTy).Contents (Elt F) → (⟨S4000000x2, .f32⟩ : BufTy).Contents (Elt F)),
    unary main_cst_2 main_call0_v3 (id : (⟨S_, .f32⟩ : BufTy).Contents (Elt F) → (⟨S_, .f32⟩ : BufTy).Contents (Elt F)),
    unary main_call0_v3 main_call0_v4 (broadcastInDim S4000000x2 ![] bcast_S_S4000000x2 : (⟨S_, .f32⟩ : BufTy).Contents (Elt F) → (⟨S4000000x2, .f32⟩ : BufTy).Contents (Elt F)),
    binary main_call0_v4 main_call0_v2 main_v7 (minimumf : (⟨S4000000x2, .f32⟩ : BufTy).Contents (Elt F) → (⟨S4000000x2, .f32⟩ : BufTy).Contents (Elt F) → (⟨S4000000x2, .f32⟩ : BufTy).Contents (Elt F)),
    unary main_arg0 main_v8 ((extractStridedSlice S4000000x1 ![0, 5] · slices_S4000000x7_S4000000x1_0_5) : (⟨S4000000x7, .f32⟩ : BufTy).Contents (Elt F) → (⟨S4000000x1, .f32⟩ : BufTy).Contents (Elt F)),
    reshape main_v8 main_v9 rfl shapeCasts_S4000000x1_S4000000,
    nullary main_cst_3 (constant S_ .f32 0x33D6BF95#32),
    nullary main_cst_4 (constant S_ .f32 0x4B189680#32),
    unary main_cst_3 main_call1_v0 (id : (⟨S_, .f32⟩ : BufTy).Contents (Elt F) → (⟨S_, .f32⟩ : BufTy).Contents (Elt F)),
    unary main_call1_v0 main_call1_v1 (broadcastInDim S4000000 ![] bcast_S_S4000000 : (⟨S_, .f32⟩ : BufTy).Contents (Elt F) → (⟨S4000000, .f32⟩ : BufTy).Contents (Elt F)),
    binary main_call1_v1 main_v9 main_call1_v2 (maximumf : (⟨S4000000, .f32⟩ : BufTy).Contents (Elt F) → (⟨S4000000, .f32⟩ : BufTy).Contents (Elt F) → (⟨S4000000, .f32⟩ : BufTy).Contents (Elt F)),
    unary main_cst_4 main_call1_v3 (id : (⟨S_, .f32⟩ : BufTy).Contents (Elt F) → (⟨S_, .f32⟩ : BufTy).Contents (Elt F)),
    unary main_call1_v3 main_call1_v4 (broadcastInDim S4000000 ![] bcast_S_S4000000 : (⟨S_, .f32⟩ : BufTy).Contents (Elt F) → (⟨S4000000, .f32⟩ : BufTy).Contents (Elt F)),
    binary main_call1_v4 main_call1_v2 main_v10 (minimumf : (⟨S4000000, .f32⟩ : BufTy).Contents (Elt F) → (⟨S4000000, .f32⟩ : BufTy).Contents (Elt F) → (⟨S4000000, .f32⟩ : BufTy).Contents (Elt F)),
    unary main_arg0 main_v11 ((extractStridedSlice S4000000x1 ![0, 6] · slices_S4000000x7_S4000000x1_0_6) : (⟨S4000000x7, .f32⟩ : BufTy).Contents (Elt F) → (⟨S4000000x1, .f32⟩ : BufTy).Contents (Elt F)),
    reshape main_v11 main_v12 rfl shapeCasts_S4000000x1_S4000000,
    unary main_v12 main_v13 (Host.cos : (⟨S4000000, .f32⟩ : BufTy).Contents (Elt F) → (⟨S4000000, .f32⟩ : BufTy).Contents (Elt F)),
    unary main_v12 main_v14 (Host.sin : (⟨S4000000, .f32⟩ : BufTy).Contents (Elt F) → (⟨S4000000, .f32⟩ : BufTy).Contents (Elt F)),
    nullary main_cst_5 (constant S_ .f32 0x3F000000#32),
    unary main_cst_5 main_v15 (broadcastInDim S4000000x2 ![] bcast_S_S4000000x2 : (⟨S_, .f32⟩ : BufTy).Contents (Elt F) → (⟨S4000000x2, .f32⟩ : BufTy).Contents (Elt F)),
    binary main_v15 main_v7 main_v16 (mulf : (⟨S4000000x2, .f32⟩ : BufTy).Contents (Elt F) → (⟨S4000000x2, .f32⟩ : BufTy).Contents (Elt F) → (⟨S4000000x2, .f32⟩ : BufTy).Contents (Elt F)),
    nullary main_cst_6 (constant S_ .f32 0x3F000000#32),
    unary main_cst_6 main_v17 (broadcastInDim S4000000 ![] bcast_S_S4000000 : (⟨S_, .f32⟩ : BufTy).Contents (Elt F) → (⟨S4000000, .f32⟩ : BufTy).Contents (Elt F)),
    binary main_v17 main_v10 main_v18 (mulf : (⟨S4000000, .f32⟩ : BufTy).Contents (Elt F) → (⟨S4000000, .f32⟩ : BufTy).Contents (Elt F) → (⟨S4000000, .f32⟩ : BufTy).Contents (Elt F)),
    unary main_arg1 main_v19 ((extractStridedSlice S4000000x3 ![0, 0] · slices_S4000000x7_S4000000x3_0_0) : (⟨S4000000x7, .f32⟩ : BufTy).Contents (Elt F) → (⟨S4000000x3, .f32⟩ : BufTy).Contents (Elt F)),
    unary main_cst_0 main_v20 (broadcastInDim S1x3 ![1] bcast_S3_S1x3_1 : (⟨S3, .f32⟩ : BufTy).Contents (Elt F) → (⟨S1x3, .f32⟩ : BufTy).Contents (Elt F)),
    unary main_arg1 main_v21 ((extractStridedSlice S4000000x3 ![0, 3] · slices_S4000000x7_S4000000x3_0_3) : (⟨S4000000x7, .f32⟩ : BufTy).Contents (Elt F) → (⟨S4000000x3, .f32⟩ : BufTy).Contents (Elt F)),
    unary main_v20 main_v22 (broadcastInDim S4000000x3 ![0, 1] bcast_S1x3_S4000000x3_0_1 : (⟨S1x3, .f32⟩ : BufTy).Contents (Elt F) → (⟨S4000000x3, .f32⟩ : BufTy).Contents (Elt F)),
    binary main_v22 main_v21 main_v23 (mulf : (⟨S4000000x3, .f32⟩ : BufTy).Contents (Elt F) → (⟨S4000000x3, .f32⟩ : BufTy).Contents (Elt F) → (⟨S4000000x3, .f32⟩ : BufTy).Contents (Elt F)),
    binary main_v19 main_v23 main_v24 (addf : (⟨S4000000x3, .f32⟩ : BufTy).Contents (Elt F) → (⟨S4000000x3, .f32⟩ : BufTy).Contents (Elt F) → (⟨S4000000x3, .f32⟩ : BufTy).Contents (Elt F)),
    unary main_arg1 main_v25 ((extractStridedSlice S4000000x2 ![0, 3] · slices_S4000000x7_S4000000x2_0_3) : (⟨S4000000x7, .f32⟩ : BufTy).Contents (Elt F) → (⟨S4000000x2, .f32⟩ : BufTy).Contents (Elt F)),
    nullary main_cst_7 (constant S_ .f32 0x33D6BF95#32),
    nullary main_cst_8 (constant S_ .f32 0x4B189680#32),
    unary main_cst_7 main_call2_v0 (id : (⟨S_, .f32⟩ : BufTy).Contents (Elt F) → (⟨S_, .f32⟩ : BufTy).Contents (Elt F)),
    unary main_call2_v0 main_call2_v1 (broadcastInDim S4000000x2 ![] bcast_S_S4000000x2 : (⟨S_, .f32⟩ : BufTy).Contents (Elt F) → (⟨S4000000x2, .f32⟩ : BufTy).Contents (Elt F)),
    binary main_call2_v1 main_v25 main_call2_v2 (maximumf : (⟨S4000000x2, .f32⟩ : BufTy).Contents (Elt F) → (⟨S4000000x2, .f32⟩ : BufTy).Contents (Elt F) → (⟨S4000000x2, .f32⟩ : BufTy).Contents (Elt F)),
    unary main_cst_8 main_call2_v3 (id : (⟨S_, .f32⟩ : BufTy).Contents (Elt F) → (⟨S_, .f32⟩ : BufTy).Contents (Elt F)),
    unary main_call2_v3 main_call2_v4 (broadcastInDim S4000000x2 ![] bcast_S_S4000000x2 : (⟨S_, .f32⟩ : BufTy).Contents (Elt F) → (⟨S4000000x2, .f32⟩ : BufTy).Contents (Elt F)),
    binary main_call2_v4 main_call2_v2 main_v26 (minimumf : (⟨S4000000x2, .f32⟩ : BufTy).Contents (Elt F) → (⟨S4000000x2, .f32⟩ : BufTy).Contents (Elt F) → (⟨S4000000x2, .f32⟩ : BufTy).Contents (Elt F)),
    unary main_arg1 main_v27 ((extractStridedSlice S4000000x1 ![0, 5] · slices_S4000000x7_S4000000x1_0_5) : (⟨S4000000x7, .f32⟩ : BufTy).Contents (Elt F) → (⟨S4000000x1, .f32⟩ : BufTy).Contents (Elt F)),
    reshape main_v27 main_v28 rfl shapeCasts_S4000000x1_S4000000,
    nullary main_cst_9 (constant S_ .f32 0x33D6BF95#32),
    nullary main_cst_10 (constant S_ .f32 0x4B189680#32),
    unary main_cst_9 main_call3_v0 (id : (⟨S_, .f32⟩ : BufTy).Contents (Elt F) → (⟨S_, .f32⟩ : BufTy).Contents (Elt F)),
    unary main_call3_v0 main_call3_v1 (broadcastInDim S4000000 ![] bcast_S_S4000000 : (⟨S_, .f32⟩ : BufTy).Contents (Elt F) → (⟨S4000000, .f32⟩ : BufTy).Contents (Elt F)),
    binary main_call3_v1 main_v28 main_call3_v2 (maximumf : (⟨S4000000, .f32⟩ : BufTy).Contents (Elt F) → (⟨S4000000, .f32⟩ : BufTy).Contents (Elt F) → (⟨S4000000, .f32⟩ : BufTy).Contents (Elt F)),
    unary main_cst_10 main_call3_v3 (id : (⟨S_, .f32⟩ : BufTy).Contents (Elt F) → (⟨S_, .f32⟩ : BufTy).Contents (Elt F)),
    unary main_call3_v3 main_call3_v4 (broadcastInDim S4000000 ![] bcast_S_S4000000 : (⟨S_, .f32⟩ : BufTy).Contents (Elt F) → (⟨S4000000, .f32⟩ : BufTy).Contents (Elt F)),
    binary main_call3_v4 main_call3_v2 main_v29 (minimumf : (⟨S4000000, .f32⟩ : BufTy).Contents (Elt F) → (⟨S4000000, .f32⟩ : BufTy).Contents (Elt F) → (⟨S4000000, .f32⟩ : BufTy).Contents (Elt F)),
    unary main_arg1 main_v30 ((extractStridedSlice S4000000x1 ![0, 6] · slices_S4000000x7_S4000000x1_0_6) : (⟨S4000000x7, .f32⟩ : BufTy).Contents (Elt F) → (⟨S4000000x1, .f32⟩ : BufTy).Contents (Elt F)),
    reshape main_v30 main_v31 rfl shapeCasts_S4000000x1_S4000000,
    unary main_v31 main_v32 (Host.cos : (⟨S4000000, .f32⟩ : BufTy).Contents (Elt F) → (⟨S4000000, .f32⟩ : BufTy).Contents (Elt F)),
    unary main_v31 main_v33 (Host.sin : (⟨S4000000, .f32⟩ : BufTy).Contents (Elt F) → (⟨S4000000, .f32⟩ : BufTy).Contents (Elt F)),
    nullary main_cst_11 (constant S_ .f32 0x3F000000#32),
    unary main_cst_11 main_v34 (broadcastInDim S4000000x2 ![] bcast_S_S4000000x2 : (⟨S_, .f32⟩ : BufTy).Contents (Elt F) → (⟨S4000000x2, .f32⟩ : BufTy).Contents (Elt F)),
    binary main_v34 main_v26 main_v35 (mulf : (⟨S4000000x2, .f32⟩ : BufTy).Contents (Elt F) → (⟨S4000000x2, .f32⟩ : BufTy).Contents (Elt F) → (⟨S4000000x2, .f32⟩ : BufTy).Contents (Elt F)),
    nullary main_cst_12 (constant S_ .f32 0x3F000000#32),
    unary main_cst_12 main_v36 (broadcastInDim S4000000 ![] bcast_S_S4000000 : (⟨S_, .f32⟩ : BufTy).Contents (Elt F) → (⟨S4000000, .f32⟩ : BufTy).Contents (Elt F)),
    binary main_v36 main_v29 main_v37 (mulf : (⟨S4000000, .f32⟩ : BufTy).Contents (Elt F) → (⟨S4000000, .f32⟩ : BufTy).Contents (Elt F) → (⟨S4000000, .f32⟩ : BufTy).Contents (Elt F)),
    binary main_v5 main_v24 main_v38 (subf : (⟨S4000000x3, .f32⟩ : BufTy).Contents (Elt F) → (⟨S4000000x3, .f32⟩ : BufTy).Contents (Elt F) → (⟨S4000000x3, .f32⟩ : BufTy).Contents (Elt F)),
    binary main_v38 main_v38 main_v39 (mulf : (⟨S4000000x3, .f32⟩ : BufTy).Contents (Elt F) → (⟨S4000000x3, .f32⟩ : BufTy).Contents (Elt F) → (⟨S4000000x3, .f32⟩ : BufTy).Contents (Elt F)),
    nullary main_cst_13 (constant S_ .f32 0x00000000#32),
    binary main_v39 main_cst_13 main_v40 ((fun x v => Host.reduceAdd x v reducesTo_S4000000x3_S4000000_d1 h_S_) : (⟨S4000000x3, .f32⟩ : BufTy).Contents (Elt F) → (⟨S_, .f32⟩ : BufTy).Contents (Elt F) → (⟨S4000000, .f32⟩ : BufTy).Contents (Elt F)),
    binary main_v16 main_v16 main_v41 (mulf : (⟨S4000000x2, .f32⟩ : BufTy).Contents (Elt F) → (⟨S4000000x2, .f32⟩ : BufTy).Contents (Elt F) → (⟨S4000000x2, .f32⟩ : BufTy).Contents (Elt F)),
    nullary main_cst_14 (constant S_ .f32 0x00000000#32),
    binary main_v41 main_cst_14 main_v42 ((fun x v => Host.reduceAdd x v reducesTo_S4000000x2_S4000000_d1 h_S_) : (⟨S4000000x2, .f32⟩ : BufTy).Contents (Elt F) → (⟨S_, .f32⟩ : BufTy).Contents (Elt F) → (⟨S4000000, .f32⟩ : BufTy).Contents (Elt F)),
    binary main_v35 main_v35 main_v43 (mulf : (⟨S4000000x2, .f32⟩ : BufTy).Contents (Elt F) → (⟨S4000000x2, .f32⟩ : BufTy).Contents (Elt F) → (⟨S4000000x2, .f32⟩ : BufTy).Contents (Elt F)) ]

/-- Operations 81 … 140 of 203: the window `main_part1`, each call in it replaced by the callee's operations on that call's buffers. -/
abbrev ops_part1 : List (HloOp τ sig (Elt F)) :=
  [ nullary main_cst_15 (constant S_ .f32 0x00000000#32),
    binary main_v43 main_cst_15 main_v44 ((fun x v => Host.reduceAdd x v reducesTo_S4000000x2_S4000000_d1 h_S_) : (⟨S4000000x2, .f32⟩ : BufTy).Contents (Elt F) → (⟨S_, .f32⟩ : BufTy).Contents (Elt F) → (⟨S4000000, .f32⟩ : BufTy).Contents (Elt F)),
    binary main_v42 main_v44 main_v45 (addf : (⟨S4000000, .f32⟩ : BufTy).Contents (Elt F) → (⟨S4000000, .f32⟩ : BufTy).Contents (Elt F) → (⟨S4000000, .f32⟩ : BufTy).Contents (Elt F)),
    unary main_v16 main_v46 ((extractStridedSlice S4000000x1 ![0, 0] · slices_S4000000x2_S4000000x1_0_0) : (⟨S4000000x2, .f32⟩ : BufTy).Contents (Elt F) → (⟨S4000000x1, .f32⟩ : BufTy).Contents (Elt F)),
    reshape main_v46 main_v47 rfl shapeCasts_S4000000x1_S4000000,
    unary main_v16 main_v48 ((extractStridedSlice S4000000x1 ![0, 0] · slices_S4000000x2_S4000000x1_0_0) : (⟨S4000000x2, .f32⟩ : BufTy).Contents (Elt F) → (⟨S4000000x1, .f32⟩ : BufTy).Contents (Elt F)),
    reshape main_v48 main_v49 rfl shapeCasts_S4000000x1_S4000000,
    binary main_v47 main_v49 main_v50 (mulf : (⟨S4000000, .f32⟩ : BufTy).Contents (Elt F) → (⟨S4000000, .f32⟩ : BufTy).Contents (Elt F) → (⟨S4000000, .f32⟩ : BufTy).Contents (Elt F)),
    unary main_v16 main_v51 ((extractStridedSlice S4000000x1 ![0, 1] · slices_S4000000x2_S4000000x1_0_1) : (⟨S4000000x2, .f32⟩ : BufTy).Contents (Elt F) → (⟨S4000000x1, .f32⟩ : BufTy).Contents (Elt F)),
    reshape main_v51 main_v52 rfl shapeCasts_S4000000x1_S4000000,
    unary main_v16 main_v53 ((extractStridedSlice S4000000x1 ![0, 1] · slices_S4000000x2_S4000000x1_0_1) : (⟨S4000000x2, .f32⟩ : BufTy).Contents (Elt F) → (⟨S4000000x1, .f32⟩ : BufTy).Contents (Elt F)),
    reshape main_v53 main_v54 rfl shapeCasts_S4000000x1_S4000000,
    binary main_v52 main_v54 main_v55 (mulf : (⟨S4000000, .f32⟩ : BufTy).Contents (Elt F) → (⟨S4000000, .f32⟩ : BufTy).Contents (Elt F) → (⟨S4000000, .f32⟩ : BufTy).Contents (Elt F)),
    binary main_v13 main_v13 main_v56 (mulf : (⟨S4000000, .f32⟩ : BufTy).Contents (Elt F) → (⟨S4000000, .f32⟩ : BufTy).Contents (Elt F) → (⟨S4000000, .f32⟩ : BufTy).Contents (Elt F)),
    binary main_v56 main_v50 main_v57 (mulf : (⟨S4000000, .f32⟩ : BufTy).Contents (Elt F) → (⟨S4000000, .f32⟩ : BufTy).Contents (Elt F) → (⟨S4000000, .f32⟩ : BufTy).Contents (Elt F)),
    binary main_v14 main_v14 main_v58 (mulf : (⟨S4000000, .f32⟩ : BufTy).Contents (Elt F) → (⟨S4000000, .f32⟩ : BufTy).Contents (Elt F) → (⟨S4000000, .f32⟩ : BufTy).Contents (Elt F)),
    binary main_v58 main_v55 main_v59 (mulf : (⟨S4000000, .f32⟩ : BufTy).Contents (Elt F) → (⟨S4000000, .f32⟩ : BufTy).Contents (Elt F) → (⟨S4000000, .f32⟩ : BufTy).Contents (Elt F)),
    binary main_v57 main_v59 main_v60 (addf : (⟨S4000000, .f32⟩ : BufTy).Contents (Elt F) → (⟨S4000000, .f32⟩ : BufTy).Contents (Elt F) → (⟨S4000000, .f32⟩ : BufTy).Contents (Elt F)),
    binary main_v13 main_v14 main_v61 (mulf : (⟨S4000000, .f32⟩ : BufTy).Contents (Elt F) → (⟨S4000000, .f32⟩ : BufTy).Contents (Elt F) → (⟨S4000000, .f32⟩ : BufTy).Contents (Elt F)),
    binary main_v50 main_v55 main_v62 (subf : (⟨S4000000, .f32⟩ : BufTy).Contents (Elt F) → (⟨S4000000, .f32⟩ : BufTy).Contents (Elt F) → (⟨S4000000, .f32⟩ : BufTy).Contents (Elt F)),
    binary main_v61 main_v62 main_v63 (mulf : (⟨S4000000, .f32⟩ : BufTy).Contents (Elt F) → (⟨S4000000, .f32⟩ : BufTy).Contents (Elt F) → (⟨S4000000, .f32⟩ : BufTy).Contents (Elt F)),
    binary main_v14 main_v14 main_v64 (mulf : (⟨S4000000, .f32⟩ : BufTy).Contents (Elt F) → (⟨S4000000, .f32⟩ : BufTy).Contents (Elt F) → (⟨S4000000, .f32⟩ : BufTy).Contents (Elt F)),
    binary main_v64 main_v50 main_v65 (mulf : (⟨S4000000, .f32⟩ : BufTy).Contents (Elt F) → (⟨S4000000, .f32⟩ : BufTy).Contents (Elt F) → (⟨S4000000, .f32⟩ : BufTy).Contents (Elt F)),
    binary main_v13 main_v13 main_v66 (mulf : (⟨S4000000, .f32⟩ : BufTy).Contents (Elt F) → (⟨S4000000, .f32⟩ : BufTy).Contents (Elt F) → (⟨S4000000, .f32⟩ : BufTy).Contents (Elt F)),
    binary main_v66 main_v55 main_v67 (mulf : (⟨S4000000, .f32⟩ : BufTy).Contents (Elt F) → (⟨S4000000, .f32⟩ : BufTy).Contents (Elt F) → (⟨S4000000, .f32⟩ : BufTy).Contents (Elt F)),
    binary main_v65 main_v67 main_v68 (addf : (⟨S4000000, .f32⟩ : BufTy).Contents (Elt F) → (⟨S4000000, .f32⟩ : BufTy).Contents (Elt F) → (⟨S4000000, .f32⟩ : BufTy).Contents (Elt F)),
    unary main_v35 main_v69 ((extractStridedSlice S4000000x1 ![0, 0] · slices_S4000000x2_S4000000x1_0_0) : (⟨S4000000x2, .f32⟩ : BufTy).Contents (Elt F) → (⟨S4000000x1, .f32⟩ : BufTy).Contents (Elt F)),
    reshape main_v69 main_v70 rfl shapeCasts_S4000000x1_S4000000,
    unary main_v35 main_v71 ((extractStridedSlice S4000000x1 ![0, 0] · slices_S4000000x2_S4000000x1_0_0) : (⟨S4000000x2, .f32⟩ : BufTy).Contents (Elt F) → (⟨S4000000x1, .f32⟩ : BufTy).Contents (Elt F)),
    reshape main_v71 main_v72 rfl shapeCasts_S4000000x1_S4000000,
    binary main_v70 main_v72 main_v73 (mulf : (⟨S4000000, .f32⟩ : BufTy).Contents (Elt F) → (⟨S4000000, .f32⟩ : BufTy).Contents (Elt F) → (⟨S4000000, .f32⟩ : BufTy).Contents (Elt F)),
    unary main_v35 main_v74 ((extractStridedSlice S4000000x1 ![0, 1] · slices_S4000000x2_S4000000x1_0_1) : (⟨S4000000x2, .f32⟩ : BufTy).Contents (Elt F) → (⟨S4000000x1, .f32⟩ : BufTy).Contents (Elt F)),
    reshape main_v74 main_v75 rfl shapeCasts_S4000000x1_S4000000,
    unary main_v35 main_v76 ((extractStridedSlice S4000000x1 ![0, 1] · slices_S4000000x2_S4000000x1_0_1) : (⟨S4000000x2, .f32⟩ : BufTy).Contents (Elt F) → (⟨S4000000x1, .f32⟩ : BufTy).Contents (Elt F)),
    reshape main_v76 main_v77 rfl shapeCasts_S4000000x1_S4000000,
    binary main_v75 main_v77 main_v78 (mulf : (⟨S4000000, .f32⟩ : BufTy).Contents (Elt F) → (⟨S4000000, .f32⟩ : BufTy).Contents (Elt F) → (⟨S4000000, .f32⟩ : BufTy).Contents (Elt F)),
    binary main_v32 main_v32 main_v79 (mulf : (⟨S4000000, .f32⟩ : BufTy).Contents (Elt F) → (⟨S4000000, .f32⟩ : BufTy).Contents (Elt F) → (⟨S4000000, .f32⟩ : BufTy).Contents (Elt F)),
    binary main_v79 main_v73 main_v80 (mulf : (⟨S4000000, .f32⟩ : BufTy).Contents (Elt F) → (⟨S4000000, .f32⟩ : BufTy).Contents (Elt F) → (⟨S4000000, .f32⟩ : BufTy).Contents (Elt F)),
    binary main_v33 main_v33 main_v81 (mulf : (⟨S4000000, .f32⟩ : BufTy).Contents (Elt F) → (⟨S4000000, .f32⟩ : BufTy).Contents (Elt F) → (⟨S4000000, .f32⟩ : BufTy).Contents (Elt F)),
    binary main_v81 main_v78 main_v82 (mulf : (⟨S4000000, .f32⟩ : BufTy).Contents (Elt F) → (⟨S4000000, .f32⟩ : BufTy).Contents (Elt F) → (⟨S4000000, .f32⟩ : BufTy).Contents (Elt F)),
    binary main_v80 main_v82 main_v83 (addf : (⟨S4000000, .f32⟩ : BufTy).Contents (Elt F) → (⟨S4000000, .f32⟩ : BufTy).Contents (Elt F) → (⟨S4000000, .f32⟩ : BufTy).Contents (Elt F)),
    binary main_v32 main_v33 main_v84 (mulf : (⟨S4000000, .f32⟩ : BufTy).Contents (Elt F) → (⟨S4000000, .f32⟩ : BufTy).Contents (Elt F) → (⟨S4000000, .f32⟩ : BufTy).Contents (Elt F)),
    binary main_v73 main_v78 main_v85 (subf : (⟨S4000000, .f32⟩ : BufTy).Contents (Elt F) → (⟨S4000000, .f32⟩ : BufTy).Contents (Elt F) → (⟨S4000000, .f32⟩ : BufTy).Contents (Elt F)),
    binary main_v84 main_v85 main_v86 (mulf : (⟨S4000000, .f32⟩ : BufTy).Contents (Elt F) → (⟨S4000000, .f32⟩ : BufTy).Contents (Elt F) → (⟨S4000000, .f32⟩ : BufTy).Contents (Elt F)),
    binary main_v33 main_v33 main_v87 (mulf : (⟨S4000000, .f32⟩ : BufTy).Contents (Elt F) → (⟨S4000000, .f32⟩ : BufTy).Contents (Elt F) → (⟨S4000000, .f32⟩ : BufTy).Contents (Elt F)),
    binary main_v87 main_v73 main_v88 (mulf : (⟨S4000000, .f32⟩ : BufTy).Contents (Elt F) → (⟨S4000000, .f32⟩ : BufTy).Contents (Elt F) → (⟨S4000000, .f32⟩ : BufTy).Contents (Elt F)),
    binary main_v32 main_v32 main_v89 (mulf : (⟨S4000000, .f32⟩ : BufTy).Contents (Elt F) → (⟨S4000000, .f32⟩ : BufTy).Contents (Elt F) → (⟨S4000000, .f32⟩ : BufTy).Contents (Elt F)),
    binary main_v89 main_v78 main_v90 (mulf : (⟨S4000000, .f32⟩ : BufTy).Contents (Elt F) → (⟨S4000000, .f32⟩ : BufTy).Contents (Elt F) → (⟨S4000000, .f32⟩ : BufTy).Contents (Elt F)),
    binary main_v88 main_v90 main_v91 (addf : (⟨S4000000, .f32⟩ : BufTy).Contents (Elt F) → (⟨S4000000, .f32⟩ : BufTy).Contents (Elt F) → (⟨S4000000, .f32⟩ : BufTy).Contents (Elt F)),
    binary main_v60 main_v83 main_v92 (mulf : (⟨S4000000, .f32⟩ : BufTy).Contents (Elt F) → (⟨S4000000, .f32⟩ : BufTy).Contents (Elt F) → (⟨S4000000, .f32⟩ : BufTy).Contents (Elt F)),
    nullary main_cst_16 (constant S_ .f32 0x40000000#32),
    unary main_cst_16 main_v93 (broadcastInDim S4000000 ![] bcast_S_S4000000 : (⟨S_, .f32⟩ : BufTy).Contents (Elt F) → (⟨S4000000, .f32⟩ : BufTy).Contents (Elt F)),
    binary main_v93 main_v63 main_v94 (mulf : (⟨S4000000, .f32⟩ : BufTy).Contents (Elt F) → (⟨S4000000, .f32⟩ : BufTy).Contents (Elt F) → (⟨S4000000, .f32⟩ : BufTy).Contents (Elt F)),
    binary main_v94 main_v86 main_v95 (mulf : (⟨S4000000, .f32⟩ : BufTy).Contents (Elt F) → (⟨S4000000, .f32⟩ : BufTy).Contents (Elt F) → (⟨S4000000, .f32⟩ : BufTy).Contents (Elt F)),
    binary main_v92 main_v95 main_v96 (addf : (⟨S4000000, .f32⟩ : BufTy).Contents (Elt F) → (⟨S4000000, .f32⟩ : BufTy).Contents (Elt F) → (⟨S4000000, .f32⟩ : BufTy).Contents (Elt F)),
    binary main_v68 main_v91 main_v97 (mulf : (⟨S4000000, .f32⟩ : BufTy).Contents (Elt F) → (⟨S4000000, .f32⟩ : BufTy).Contents (Elt F) → (⟨S4000000, .f32⟩ : BufTy).Contents (Elt F)),
    binary main_v96 main_v97 main_v98 (addf : (⟨S4000000, .f32⟩ : BufTy).Contents (Elt F) → (⟨S4000000, .f32⟩ : BufTy).Contents (Elt F) → (⟨S4000000, .f32⟩ : BufTy).Contents (Elt F)),
    unary main_v16 main_v99 ((extractStridedSlice S4000000x1 ![0, 0] · slices_S4000000x2_S4000000x1_0_0) : (⟨S4000000x2, .f32⟩ : BufTy).Contents (Elt F) → (⟨S4000000x1, .f32⟩ : BufTy).Contents (Elt F)),
    reshape main_v99 main_v100 rfl shapeCasts_S4000000x1_S4000000,
    unary main_v16 main_v101 ((extractStridedSlice S4000000x1 ![0, 1] · slices_S4000000x2_S4000000x1_0_1) : (⟨S4000000x2, .f32⟩ : BufTy).Contents (Elt F) → (⟨S4000000x1, .f32⟩ : BufTy).Contents (Elt F)) ]

/-- Operations 141 … 203 of 203: the window `main_part2`, each call in it replaced by the callee's operations on that call's buffers. -/
abbrev ops_part2 : List (HloOp τ sig (Elt F)) :=
  [ reshape main_v101 main_v102 rfl shapeCasts_S4000000x1_S4000000,
    binary main_v100 main_v102 main_v103 (mulf : (⟨S4000000, .f32⟩ : BufTy).Contents (Elt F) → (⟨S4000000, .f32⟩ : BufTy).Contents (Elt F) → (⟨S4000000, .f32⟩ : BufTy).Contents (Elt F)),
    unary main_v35 main_v104 ((extractStridedSlice S4000000x1 ![0, 0] · slices_S4000000x2_S4000000x1_0_0) : (⟨S4000000x2, .f32⟩ : BufTy).Contents (Elt F) → (⟨S4000000x1, .f32⟩ : BufTy).Contents (Elt F)),
    reshape main_v104 main_v105 rfl shapeCasts_S4000000x1_S4000000,
    binary main_v103 main_v105 main_v106 (mulf : (⟨S4000000, .f32⟩ : BufTy).Contents (Elt F) → (⟨S4000000, .f32⟩ : BufTy).Contents (Elt F) → (⟨S4000000, .f32⟩ : BufTy).Contents (Elt F)),
    unary main_v35 main_v107 ((extractStridedSlice S4000000x1 ![0, 1] · slices_S4000000x2_S4000000x1_0_1) : (⟨S4000000x2, .f32⟩ : BufTy).Contents (Elt F) → (⟨S4000000x1, .f32⟩ : BufTy).Contents (Elt F)),
    reshape main_v107 main_v108 rfl shapeCasts_S4000000x1_S4000000,
    binary main_v106 main_v108 main_v109 (mulf : (⟨S4000000, .f32⟩ : BufTy).Contents (Elt F) → (⟨S4000000, .f32⟩ : BufTy).Contents (Elt F) → (⟨S4000000, .f32⟩ : BufTy).Contents (Elt F)),
    nullary main_cst_17 (constant S_ .f32 0x40000000#32),
    unary main_cst_17 main_v110 (broadcastInDim S4000000 ![] bcast_S_S4000000 : (⟨S_, .f32⟩ : BufTy).Contents (Elt F) → (⟨S4000000, .f32⟩ : BufTy).Contents (Elt F)),
    binary main_v110 main_v109 main_v111 (mulf : (⟨S4000000, .f32⟩ : BufTy).Contents (Elt F) → (⟨S4000000, .f32⟩ : BufTy).Contents (Elt F) → (⟨S4000000, .f32⟩ : BufTy).Contents (Elt F)),
    binary main_v98 main_v111 main_v112 (addf : (⟨S4000000, .f32⟩ : BufTy).Contents (Elt F) → (⟨S4000000, .f32⟩ : BufTy).Contents (Elt F) → (⟨S4000000, .f32⟩ : BufTy).Contents (Elt F)),
    nullary main_cst_18 (constant S_ .f32 0x00000000#32),
    unary main_cst_18 main_call4_v0 (id : (⟨S_, .f32⟩ : BufTy).Contents (Elt F) → (⟨S_, .f32⟩ : BufTy).Contents (Elt F)),
    unary main_call4_v0 main_call4_v1 (broadcastInDim S4000000 ![] bcast_S_S4000000 : (⟨S_, .f32⟩ : BufTy).Contents (Elt F) → (⟨S4000000, .f32⟩ : BufTy).Contents (Elt F)),
    binary main_call4_v1 main_v112 main_v113 (maximumf : (⟨S4000000, .f32⟩ : BufTy).Contents (Elt F) → (⟨S4000000, .f32⟩ : BufTy).Contents (Elt F) → (⟨S4000000, .f32⟩ : BufTy).Contents (Elt F)),
    unary main_v113 main_v114 (Host.sqrt : (⟨S4000000, .f32⟩ : BufTy).Contents (Elt F) → (⟨S4000000, .f32⟩ : BufTy).Contents (Elt F)),
    nullary main_cst_19 (constant S_ .f32 0x40000000#32),
    unary main_cst_19 main_v115 (broadcastInDim S4000000 ![] bcast_S_S4000000 : (⟨S_, .f32⟩ : BufTy).Contents (Elt F) → (⟨S4000000, .f32⟩ : BufTy).Contents (Elt F)),
    binary main_v115 main_v114 main_v116 (mulf : (⟨S4000000, .f32⟩ : BufTy).Contents (Elt F) → (⟨S4000000, .f32⟩ : BufTy).Contents (Elt F) → (⟨S4000000, .f32⟩ : BufTy).Contents (Elt F)),
    binary main_v45 main_v116 main_v117 (subf : (⟨S4000000, .f32⟩ : BufTy).Contents (Elt F) → (⟨S4000000, .f32⟩ : BufTy).Contents (Elt F) → (⟨S4000000, .f32⟩ : BufTy).Contents (Elt F)),
    binary main_v18 main_v37 main_v118 (subf : (⟨S4000000, .f32⟩ : BufTy).Contents (Elt F) → (⟨S4000000, .f32⟩ : BufTy).Contents (Elt F) → (⟨S4000000, .f32⟩ : BufTy).Contents (Elt F)),
    binary main_v118 main_v118 main_v119 (mulf : (⟨S4000000, .f32⟩ : BufTy).Contents (Elt F) → (⟨S4000000, .f32⟩ : BufTy).Contents (Elt F) → (⟨S4000000, .f32⟩ : BufTy).Contents (Elt F)),
    binary main_v117 main_v119 main_v120 (addf : (⟨S4000000, .f32⟩ : BufTy).Contents (Elt F) → (⟨S4000000, .f32⟩ : BufTy).Contents (Elt F) → (⟨S4000000, .f32⟩ : BufTy).Contents (Elt F)),
    nullary main_cst_20 (constant S_ .f32 0x3F800000#32),
    unary main_cst_20 main_v121 (broadcastInDim S4000000 ![] bcast_S_S4000000 : (⟨S_, .f32⟩ : BufTy).Contents (Elt F) → (⟨S4000000, .f32⟩ : BufTy).Contents (Elt F)),
    binary main_v121 main_v120 main_v122 (mulf : (⟨S4000000, .f32⟩ : BufTy).Contents (Elt F) → (⟨S4000000, .f32⟩ : BufTy).Contents (Elt F) → (⟨S4000000, .f32⟩ : BufTy).Contents (Elt F)),
    binary main_v40 main_v122 main_v123 (addf : (⟨S4000000, .f32⟩ : BufTy).Contents (Elt F) → (⟨S4000000, .f32⟩ : BufTy).Contents (Elt F) → (⟨S4000000, .f32⟩ : BufTy).Contents (Elt F)),
    nullary main_cst_21 (constant S_ .f32 0x00000000#32),
    unary main_cst_21 main_call5_v0 (id : (⟨S_, .f32⟩ : BufTy).Contents (Elt F) → (⟨S_, .f32⟩ : BufTy).Contents (Elt F)),
    unary main_call5_v0 main_call5_v1 (broadcastInDim S4000000 ![] bcast_S_S4000000 : (⟨S_, .f32⟩ : BufTy).Contents (Elt F) → (⟨S4000000, .f32⟩ : BufTy).Contents (Elt F)),
    binary main_call5_v1 main_v123 main_v124 (maximumf : (⟨S4000000, .f32⟩ : BufTy).Contents (Elt F) → (⟨S4000000, .f32⟩ : BufTy).Contents (Elt F) → (⟨S4000000, .f32⟩ : BufTy).Contents (Elt F)),
    unary main_v124 main_v125 (Host.sqrt : (⟨S4000000, .f32⟩ : BufTy).Contents (Elt F) → (⟨S4000000, .f32⟩ : BufTy).Contents (Elt F)),
    unary main_v109 main_v126 (Host.log : (⟨S4000000, .f32⟩ : BufTy).Contents (Elt F) → (⟨S4000000, .f32⟩ : BufTy).Contents (Elt F)),
    unary main_v18 main_v127 (Host.log : (⟨S4000000, .f32⟩ : BufTy).Contents (Elt F) → (⟨S4000000, .f32⟩ : BufTy).Contents (Elt F)),
    binary main_v126 main_v127 main_v128 (addf : (⟨S4000000, .f32⟩ : BufTy).Contents (Elt F) → (⟨S4000000, .f32⟩ : BufTy).Contents (Elt F) → (⟨S4000000, .f32⟩ : BufTy).Contents (Elt F)),
    unary main_v37 main_v129 (Host.log : (⟨S4000000, .f32⟩ : BufTy).Contents (Elt F) → (⟨S4000000, .f32⟩ : BufTy).Contents (Elt F)),
    binary main_v128 main_v129 main_v130 (addf : (⟨S4000000, .f32⟩ : BufTy).Contents (Elt F) → (⟨S4000000, .f32⟩ : BufTy).Contents (Elt F) → (⟨S4000000, .f32⟩ : BufTy).Contents (Elt F)),
    nullary main_cst_22 (constant S_ .f32 0x40C00000#32),
    unary main_cst_22 main_v131 (broadcastInDim S4000000 ![] bcast_S_S4000000 : (⟨S_, .f32⟩ : BufTy).Contents (Elt F) → (⟨S4000000, .f32⟩ : BufTy).Contents (Elt F)),
    binary main_v130 main_v131 main_v132 (Host.divf : (⟨S4000000, .f32⟩ : BufTy).Contents (Elt F) → (⟨S4000000, .f32⟩ : BufTy).Contents (Elt F) → (⟨S4000000, .f32⟩ : BufTy).Contents (Elt F)),
    unary main_v132 main_v133 (Host.exp : (⟨S4000000, .f32⟩ : BufTy).Contents (Elt F) → (⟨S4000000, .f32⟩ : BufTy).Contents (Elt F)),
    nullary main_cst_23 (constant S_ .f32 0x40000000#32),
    unary main_cst_23 main_v134 (broadcastInDim S4000000 ![] bcast_S_S4000000 : (⟨S_, .f32⟩ : BufTy).Contents (Elt F) → (⟨S4000000, .f32⟩ : BufTy).Contents (Elt F)),
    binary main_v134 main_v133 main_v135 (mulf : (⟨S4000000, .f32⟩ : BufTy).Contents (Elt F) → (⟨S4000000, .f32⟩ : BufTy).Contents (Elt F) → (⟨S4000000, .f32⟩ : BufTy).Contents (Elt F)),
    binary main_v125 main_v135 main_v136 (Host.divf : (⟨S4000000, .f32⟩ : BufTy).Contents (Elt F) → (⟨S4000000, .f32⟩ : BufTy).Contents (Elt F) → (⟨S4000000, .f32⟩ : BufTy).Contents (Elt F)),
    unary main_v136 main_v137 (Host.log1p : (⟨S4000000, .f32⟩ : BufTy).Contents (Elt F) → (⟨S4000000, .f32⟩ : BufTy).Contents (Elt F)),
    nullary main_cst_24 (constant S_ .f32 0x3F800000#32),
    unary main_cst_24 main_v138 (broadcastInDim S4000000 ![] bcast_S_S4000000 : (⟨S_, .f32⟩ : BufTy).Contents (Elt F) → (⟨S4000000, .f32⟩ : BufTy).Contents (Elt F)),
    binary main_v138 main_v137 main_v139 (addf : (⟨S4000000, .f32⟩ : BufTy).Contents (Elt F) → (⟨S4000000, .f32⟩ : BufTy).Contents (Elt F) → (⟨S4000000, .f32⟩ : BufTy).Contents (Elt F)),
    nullary main_cst_25 (constant S_ .f32 0x3F800000#32),
    unary main_cst_25 main_v140 (broadcastInDim S4000000 ![] bcast_S_S4000000 : (⟨S_, .f32⟩ : BufTy).Contents (Elt F) → (⟨S4000000, .f32⟩ : BufTy).Contents (Elt F)),
    binary main_v140 main_v139 main_v141 (Host.divf : (⟨S4000000, .f32⟩ : BufTy).Contents (Elt F) → (⟨S4000000, .f32⟩ : BufTy).Contents (Elt F) → (⟨S4000000, .f32⟩ : BufTy).Contents (Elt F)),
    nullary main_cst_26 (constant S_ .f32 0x3F800000#32),
    unary main_cst_26 main_v142 (broadcastInDim S4000000 ![] bcast_S_S4000000 : (⟨S_, .f32⟩ : BufTy).Contents (Elt F) → (⟨S4000000, .f32⟩ : BufTy).Contents (Elt F)),
    binary main_v142 main_v141 main_v143 (subf : (⟨S4000000, .f32⟩ : BufTy).Contents (Elt F) → (⟨S4000000, .f32⟩ : BufTy).Contents (Elt F) → (⟨S4000000, .f32⟩ : BufTy).Contents (Elt F)),
    binary main_v143 main_arg2 main_v144 (mulf : (⟨S4000000, .f32⟩ : BufTy).Contents (Elt F) → (⟨S4000000, .f32⟩ : BufTy).Contents (Elt F) → (⟨S4000000, .f32⟩ : BufTy).Contents (Elt F)),
    nullary main_cst_27 (constant S_ .f32 0x00000000#32),
    binary main_v144 main_cst_27 main_v145 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    nullary main_cst_28 (constant S_ .f32 0x4A742400#32),
    binary main_v145 main_cst_28 main_v146 (Host.divf : (⟨S_, .f32⟩ : BufTy).Contents (Elt F) → (⟨S_, .f32⟩ : BufTy).Contents (Elt F) → (⟨S_, .f32⟩ : BufTy).Contents (Elt F)),
    nullary main_cst_29 (constant S_ .f32 0x3F800000#32),
    binary main_cst_29 main_v146 main_v147 (mulf : (⟨S_, .f32⟩ : BufTy).Contents (Elt F) → (⟨S_, .f32⟩ : BufTy).Contents (Elt F) → (⟨S_, .f32⟩ : BufTy).Contents (Elt F)) ]

/-- @main's 203 operations, in order. -/
abbrev ops : List (HloOp τ sig (Elt F)) :=
  ops_part0 ++ (ops_part1 ++ (ops_part2))

set_option maxRecDepth 8192 in
/-- The first window is the sequence of its operations: the two clamps' bodies unfolded at their four calls and
    sequencing reassociated, both sides are one chain of steps. A clamp's typed operation at literal buffers is
    the plain operation: its transports along the buffers' types are the identity. -/
theorem main_part0_eq (c : Dev nD) : main_part0 (F := F) c = seq ops_part0 := by
  simp only [main_part0, fn_clip.body, fn_clip_0.body, seq, bind_assoc, pure_bind]
  rfl

set_option maxRecDepth 8192 in
/-- The second window makes no call. -/
theorem main_part1_eq (c : Dev nD) : main_part1 (F := F) c = seq ops_part1 := rfl

set_option maxRecDepth 8192 in
/-- The third window is the sequence of its operations, the lower clamp unfolded at its two calls. -/
theorem main_part2_eq (c : Dev nD) : main_part2 (F := F) c = seq ops_part2 := by
  simp only [main_part2, fn_clip_1.body, seq, bind_assoc, pure_bind]
  rfl

set_option maxRecDepth 8192 in
/-- @main is the sequence of all its operations: its three windows one after the other. -/
theorem main_eq (c : Dev nD) : main (F := F) c = seq ops := by
  simp only [ops, seq_append, ← main_part0_eq c, ← main_part1_eq c, ← main_part2_eq c]
  rfl

/-- The contents after all the operations are those after the three windows in turn. -/
theorem after_ops (V : Valuation τ sig (Elt F)) :
    after ops V = after ops_part2 (after ops_part1 (after ops_part0 V)) := by
  simp only [ops, after_append]

end Cert.ReferenceIdeal.RefRun

end
-- ==== Proof.RefRun.lean ====
/- The reference program's run, read back: every weakly fair execution of its @main terminates with each buffer at
   the fold of the operations' results over the launch contents; the result is left as that fold at the result
   buffer, and the three argument buffers, which no operation writes, end as they began. -/
import proofs.«161557_j78537771975381_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The signature scopes no buffer and no semaphore: the program launches no kernel. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of window 0 touches TensorCore buffers only. -/
theorem ops_part0_sub : (ops_part0 : List (HloOp τ sig (Elt F))).Forall fun op => op.bufs ⊆ tcRefs τ sig :=
  ⟨nullary_bufs_sub .., nullary_bufs_sub .., unary_bufs_sub .., unary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., binary_bufs_sub .., binary_bufs_sub .., nullary_bufs_sub .., binary_bufs_sub .., binary_bufs_sub ..⟩

set_option maxRecDepth 8192 in
/-- Every operation of window 1 touches TensorCore buffers only. -/
theorem ops_part1_sub : (ops_part1 : List (HloOp τ sig (Elt F))).Forall fun op => op.bufs ⊆ tcRefs τ sig :=
  ⟨nullary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., unary_bufs_sub .., reshape_bufs_sub .., unary_bufs_sub ..⟩

set_option maxRecDepth 8192 in
/-- Every operation of window 2 touches TensorCore buffers only. -/
theorem ops_part2_sub : (ops_part2 : List (HloOp τ sig (Elt F))).Forall fun op => op.bufs ⊆ tcRefs τ sig :=
  ⟨reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., binary_bufs_sub .., nullary_bufs_sub .., unary_bufs_sub .., unary_bufs_sub .., binary_bufs_sub .., unary_bufs_sub .., nullary_bufs_sub .., unary_bufs_sub .., binary_bufs_sub .., binary_bufs_sub .., binary_bufs_sub .., binary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-- The buffers that window 0's operations write. -/
abbrev ops_part0_W : List (Ref sig .tc) := [main_cst, main_cst_0, main_v0, main_v1, main_v2, main_v3, main_v4, main_v5, main_v6, main_cst_1, main_cst_2, main_call0_v0, main_call0_v1, main_call0_v2, main_call0_v3, main_call0_v4, main_v7, main_v8, main_v9, main_cst_3, main_cst_4, main_call1_v0, main_call1_v1, main_call1_v2, main_call1_v3, main_call1_v4, main_v10, main_v11, main_v12, main_v13, main_v14, main_cst_5, main_v15, main_v16, main_cst_6, main_v17, main_v18, main_v19, main_v20, main_v21, main_v22, main_v23, main_v24, main_v25, main_cst_7, main_cst_8, main_call2_v0, main_call2_v1, main_call2_v2, main_call2_v3, main_call2_v4, main_v26, main_v27, main_v28, main_cst_9, main_cst_10, main_call3_v0, main_call3_v1, main_call3_v2, main_call3_v3, main_call3_v4, main_v29, main_v30, main_v31, main_v32, main_v33, main_cst_11, main_v34, main_v35, main_cst_12, main_v36, main_v37, main_v38, main_v39, main_cst_13, main_v40, main_v41, main_cst_14, main_v42, main_v43]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide)⟩

/-- The buffers that window 1's operations write. -/
abbrev ops_part1_W : List (Ref sig .tc) := [main_cst_15, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_cst_16, main_v93, main_v94, main_v95, main_v96, main_v97, main_v98, main_v99, main_v100, main_v101]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide)⟩

/-- The buffers that window 2's operations write. -/
abbrev ops_part2_W : List (Ref sig .tc) := [main_v102, main_v103, main_v104, main_v105, main_v106, main_v107, main_v108, main_v109, main_cst_17, main_v110, main_v111, main_v112, main_cst_18, main_call4_v0, main_call4_v1, main_v113, main_v114, main_cst_19, main_v115, main_v116, main_v117, main_v118, main_v119, main_v120, main_cst_20, main_v121, main_v122, main_v123, main_cst_21, main_call5_v0, main_call5_v1, main_v124, main_v125, main_v126, main_v127, main_v128, main_v129, main_v130, main_cst_22, main_v131, main_v132, main_v133, main_cst_23, main_v134, main_v135, main_v136, main_v137, main_cst_24, main_v138, main_v139, main_cst_25, main_v140, main_v141, main_cst_26, main_v142, main_v143, main_v144, main_cst_27, main_v145, main_cst_28, main_v146, main_cst_29, main_v147]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide), by simp only [nullary_writes, unary_writes, binary_writes, reshape_writes, Finset.singleton_subset_iff, List.mem_toFinset]; exact List.mem_map_of_mem (by decide)⟩

/-- A buffer that no operation writes keeps its contents through all of them. -/
theorem after_ops_keep (V : Valuation τ sig (Elt F)) (r : Ref sig .tc)
    (h0 : r ∉ ops_part0_W) (h1 : r ∉ ops_part1_W) (h2 : r ∉ ops_part2_W) :
    after ops V (Proc.devRef .tc r) = V (Proc.devRef .tc r) := by
  rw [after_ops, after_of_writes_sub ops_part2 _ ops_part2_writes h2, after_of_writes_sub ops_part1 _ ops_part1_writes h1,
    after_of_writes_sub ops_part0 _ ops_part0_writes h0]

set_option maxRecDepth 8192 in
/-- On every device, for any float values, from any memory with zero counters: every weakly fair execution of @main
    terminates with the result buffer at the fold of the operations over the launch contents, and the three
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v147) = StableHlo.after ops (fun b => m (c, b)) (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c main_v147,
      (h c main_arg0).trans (after_ops_keep (launchContents m c) main_arg0 (by decide) (by decide) (by decide)),
      (h c main_arg1).trans (after_ops_keep (launchContents m c) main_arg1 (by decide) (by decide) (by decide)),
      (h c main_arg2).trans (after_ops_keep (launchContents m c) main_arg2 (by decide) (by decide) (by decide))⟩)
    (run_seq scopedRefs_eq scopedSems_eq defs main (fun _ => ops) main_eq (fun _ => ops_sub) m ρ)

end Cert.ReferenceIdeal.RefRun

end
-- ==== Proof.RefStageIdx.lean ====
/-
  The reference's layout operations read at one row. The reference works on arrays with one entry (or a few) per row;
  whatever is not entry-by-entry arithmetic is one of: a block of columns cut out of a row array, the reshape of a
  one-column array to a vector, a scalar or a three-entry table copied down the rows, and the sum of a row's two or
  three entries. Each is read here at row `n` as the operand's entries of that row.
-/
import proofs.«161557_j78537771975381_2_alg».proof.ReferenceIdeal
import proofs.«161557_j78537771975381_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx
open scoped BigOperators

variable [Facts]
open Facts₀ Facts

/-- A one-column array reshaped to a vector reads, at row `n`, the column's entry of that row. -/
theorem reshape_col {α : Type} (y : S4000000x1.Idx → α) (h : S4000000x1.ShapeCasts S4000000) (n : Fin 4000000) :
    shapeCast S4000000 y h (ix1 n) = y (ix2 n (0 : Fin 1)) :=
  shapeCast_apply y h (ix1 n) (ix2 n (0 : Fin 1)) (by
    rw [Shape.rowMajor_val_two, Shape.rowMajor_val_one]
    show n.val * 1 + 0 = n.val
    omega)

/-- Column `o` of a seven-column array, cut out and reshaped to a vector, reads the array at (n, o). -/
theorem col7 {α : Type} (x : S4000000x7.Idx → α) (o : Nat) (h : S4000000x7.Slices ![0, o] S4000000x1)
    (hc : S4000000x1.ShapeCasts S4000000) (n : Fin 4000000) (k : Fin 7) (hk : k.val = o) :
    shapeCast S4000000 (extractStridedSlice S4000000x1 ![0, o] x h) hc (ix1 n) = x (ix2 n k) :=
  (reshape_col _ hc n).trans (slice2_axis1_apply o x h n (0 : Fin 1) k (by rw [hk]; rfl))

/-- Column `o` of a two-column array, cut out and reshaped to a vector, reads the array at (n, o). -/
theorem col2 {α : Type} (x : S4000000x2.Idx → α) (o : Nat) (h : S4000000x2.Slices ![0, o] S4000000x1)
    (hc : S4000000x1.ShapeCasts S4000000) (n : Fin 4000000) (k : Fin 2) (hk : k.val = o) :
    shapeCast S4000000 (extractStridedSlice S4000000x1 ![0, o] x h) hc (ix1 n) = x (ix2 n k) :=
  (reshape_col _ hc n).trans (slice2_axis1_apply o x h n (0 : Fin 1) k (by rw [hk]; rfl))

/-- A block of three columns from column `o` of a seven-column array reads, at (n, j), the array at (n, o + j). -/
theorem cols3 {α : Type} (x : S4000000x7.Idx → α) (o : Nat) (h : S4000000x7.Slices ![0, o] S4000000x3)
    (n : Fin 4000000) (j : Fin 3) (k : Fin 7) (hk : k.val = o + j.val) :
    extractStridedSlice S4000000x3 ![0, o] x h (ix2 n j) = x (ix2 n k) :=
  slice2_axis1_apply o x h n j k hk

/-- A block of two columns from column `o` of a seven-column array reads, at (n, j), the array at (n, o + j). -/
theorem cols2 {α : Type} (x : S4000000x7.Idx → α) (o : Nat) (h : S4000000x7.Slices ![0, o] S4000000x2)
    (n : Fin 4000000) (j : Fin 2) (k : Fin 7) (hk : k.val = o + j.val) :
    extractStridedSlice S4000000x2 ![0, o] x h (ix2 n j) = x (ix2 n k) :=
  slice2_axis1_apply o x h n j k hk

/-- A three-entry table made a one-row array and copied down the rows reads, at (n, k), the table's entry `k`. -/
theorem table_rows {α : Type} (tab : S3.Idx → α) (n : Fin 4000000) (k : Fin 3) :
    broadcastInDim S4000000x3 ![0, 1] bcast_S1x3_S4000000x3_0_1 (broadcastInDim S1x3 ![1] bcast_S3_S1x3_1 tab) (ix2 n k)
      = tab (ix1 k) := by
  refine (broadcastInDim_apply _ _ _ (ix2 n k) (ix2 (0 : Fin 1) k) (fun a => ?_)).trans ?_
  · match a with
    | ⟨0, _⟩ => rfl
    | ⟨1, _⟩ => rfl
  · exact broadcastInDim_apply _ _ _ (ix2 (0 : Fin 1) k) (ix1 k) (fun a => by match a with | ⟨0, _⟩ => rfl)

/-- A scalar literal copied over any shape reads the literal everywhere. -/
theorem splat_apply {T : Shape} (h : S_.BroadcastsInDim T ![]) (w : BitVec 32) (j : T.Idx) :
    broadcastInDim T ![] h (constant (F := Ideal) S_ .f32 w) j = Cert.BoxLoss.lit w :=
  broadcastInDim_scalar_apply h _ j

/-- The sum of a row's three entries, from the initial value zero. -/
theorem rowSum3 (x : FVec Ideal S4000000x3 .f32) (n : Fin 4000000) :
    Host.reduceAdd (F := Ideal) x (constant (F := Ideal) S_ .f32 0x00000000#32) reducesTo_S4000000x3_S4000000_d1 h_S_ (ix1 n)
      = x (ix2 n 0) + x (ix2 n 1) + x (ix2 n 2) := by
  have hr : S4000000x3.Reduces [1] S4000000 := by decide
  have e : ∀ k : Fin 3, hr.lift (ix1 n) k = ix2 n k := fun k => funext fun a => Fin.ext (by
    match a with
    | ⟨0, _⟩ => rfl
    | ⟨1, _⟩ => rfl)
  rw [hostReduceAdd_apply, Ideal.hostReduceAdd_single _ hr]
  show Ideal.ofBits .f32 0x00000000#32 + ∑ k : Fin 3, x (hr.lift (ix1 n) k) = _
  rw [Ideal.ofBits_zero_f32, zero_add, Fin.sum_univ_three, e, e, e]

/-- The sum of a row's two entries, from the initial value zero. -/
theorem rowSum2 (x : FVec Ideal S4000000x2 .f32) (n : Fin 4000000) :
    Host.reduceAdd (F := Ideal) x (constant (F := Ideal) S_ .f32 0x00000000#32) reducesTo_S4000000x2_S4000000_d1 h_S_ (ix1 n)
      = x (ix2 n 0) + x (ix2 n 1) := by
  have hr : S4000000x2.Reduces [1] S4000000 := by decide
  have e : ∀ k : Fin 2, hr.lift (ix1 n) k = ix2 n k := fun k => funext fun a => Fin.ext (by
    match a with
    | ⟨0, _⟩ => rfl
    | ⟨1, _⟩ => rfl)
  rw [hostReduceAdd_apply, Ideal.hostReduceAdd_single _ hr]
  show Ideal.ofBits .f32 0x00000000#32 + ∑ k : Fin 2, x (hr.lift (ix1 n) k) = _
  rw [Ideal.ofBits_zero_f32, zero_add, Fin.sum_univ_two, e, e]

/-- The rows of a vector, as a finite type: one index per row. -/
def rowEquiv : S4000000.Idx ≃ Fin 4000000 where
  toFun i := i 0
  invFun n := ix1 n
  left_inv i := (eq_ix1 i).symm
  right_inv _ := rfl

/-- The sum of all of a vector's entries, from the initial value zero, is the sum over the rows. -/
theorem totalSum (x : FVec Ideal S4000000 .f32) (j : S_.Idx) :
    Host.reduceAdd (F := Ideal) x (constant (F := Ideal) S_ .f32 0x00000000#32) reducesTo_S4000000_S_d0 h_S_ j
      = ∑ n : Fin 4000000, x (ix1 n) := by
  rw [hostReduceAdd_apply, Ideal.hostReduceAdd_total _ (fun b => b.elim0)]
  show Ideal.ofBits .f32 0x00000000#32 + ∑ i : S4000000.Idx, x i = _
  rw [Ideal.ofBits_zero_f32, zero_add]
  exact (Equiv.sum_comp rowEquiv.symm x).symm

end Cert.ReferenceIdeal.RefValue

end
-- ==== Proof.RefStageRow.lean ====
/-
  What the reference computes from ONE input array, row by row: the three centre coordinates (position plus offset
  times size), the two half widths and the half length (sizes clipped, then halved), and the cosine and sine of the
  yaw. Each is the printed sequence of array operations; read at row `n` it is the scalar formula of the
  specification at that row's seven numbers.
-/
import proofs.«161557_j78537771975381_2_alg».proof.Proof.RefStageIdx

noncomputable section

namespace Cert.ReferenceIdeal.RefValue

open Idealize.ShloMosaic Idealize.ShloMosaic.ValueIdx
open Cert.BoxLoss (lit centre halfSize)

variable [Facts]
open Facts₀ Facts

/-- The centres: columns 0..2 plus the offset table (copied down the rows) times columns 3..5. -/
def centres (tab : Fin 3 → BitVec 32) (a : FVec Ideal S4000000x7 .f32) : FVec Ideal S4000000x3 .f32 :=
  have cst : FVec Ideal S3 .f32 := fun i => FloatOps.ofBits .f32 (tab (S3.rowMajor i))
  have v0 : FVec Ideal S4000000x3 .f32 := extractStridedSlice S4000000x3 ![0, 0] a slices_S4000000x7_S4000000x3_0_0
  have v1 : FVec Ideal S1x3 .f32 := broadcastInDim S1x3 ![1] bcast_S3_S1x3_1 cst
  have v2 : FVec Ideal S4000000x3 .f32 := extractStridedSlice S4000000x3 ![0, 3] a slices_S4000000x7_S4000000x3_0_3
  have v3 : FVec Ideal S4000000x3 .f32 := broadcastInDim S4000000x3 ![0, 1] bcast_S1x3_S4000000x3_0_1 v1
  have v4 : FVec Ideal S4000000x3 .f32 := mulf v3 v2
  addf v0 v4

/-- The half widths: columns 3..4 clipped to [1e-7, 1e7] (a maximum with the lower bound, then a minimum with the
    upper bound, each bound copied over the array), times one half. -/
def halfWH (a : FVec Ideal S4000000x7 .f32) : FVec Ideal S4000000x2 .f32 :=
  have v6 : FVec Ideal S4000000x2 .f32 := extractStridedSlice S4000000x2 ![0, 3] a slices_S4000000x7_S4000000x2_0_3
  have cst_1 : FVec Ideal S_ .f32 := constant (F := Ideal) S_ .f32 0x33D6BF95#32
  have cst_2 : FVec Ideal S_ .f32 := constant (F := Ideal) S_ .f32 0x4B189680#32
  have c_v0 : FVec Ideal S_ .f32 := id cst_1
  have c_v1 : FVec Ideal S4000000x2 .f32 := broadcastInDim S4000000x2 ![] bcast_S_S4000000x2 c_v0
  have c_v2 : FVec Ideal S4000000x2 .f32 := maximumf c_v1 v6
  have c_v3 : FVec Ideal S_ .f32 := id cst_2
  have c_v4 : FVec Ideal S4000000x2 .f32 := broadcastInDim S4000000x2 ![] bcast_S_S4000000x2 c_v3
  have v7 : FVec Ideal S4000000x2 .f32 := minimumf c_v4 c_v2
  have cst_5 : FVec Ideal S_ .f32 := constant (F := Ideal) S_ .f32 0x3F000000#32
  have v15 : FVec Ideal S4000000x2 .f32 := broadcastInDim S4000000x2 ![] bcast_S_S4000000x2 cst_5
  mulf v15 v7

/-- The half length: column 5 as a vector, clipped the same way, times one half. -/
def halfL (a : FVec Ideal S4000000x7 .f32) : FVec Ideal S4000000 .f32 :=
  have v8 : FVec Ideal S4000000x1 .f32 := extractStridedSlice S4000000x1 ![0, 5] a slices_S4000000x7_S4000000x1_0_5
  have v9 : FVec Ideal S4000000 .f32 := shapeCast S4000000 v8 shapeCasts_S4000000x1_S4000000
  have cst_3 : FVec Ideal S_ .f32 := constant (F := Ideal) S_ .f32 0x33D6BF95#32
  have cst_4 : FVec Ideal S_ .f32 := constant (F := Ideal) S_ .f32 0x4B189680#32
  have c_v0 : FVec Ideal S_ .f32 := id cst_3
  have c_v1 : FVec Ideal S4000000 .f32 := broadcastInDim S4000000 ![] bcast_S_S4000000 c_v0
  have c_v2 : FVec Ideal S4000000 .f32 := maximumf c_v1 v9
  have c_v3 : FVec Ideal S_ .f32 := id cst_4
  have c_v4 : FVec Ideal S4000000 .f32 := broadcastInDim S4000000 ![] bcast_S_S4000000 c_v3
  have v10 : FVec Ideal S4000000 .f32 := minimumf c_v4 c_v2
  have cst_6 : FVec Ideal S_ .f32 := constant (F := Ideal) S_ .f32 0x3F000000#32
  have v17 : FVec Ideal S4000000 .f32 := broadcastInDim S4000000 ![] bcast_S_S4000000 cst_6
  mulf v17 v10

/-- The yaw: column 6 as a vector. -/
def yaw (a : FVec Ideal S4000000x7 .f32) : FVec Ideal S4000000 .f32 :=
  have v11 : FVec Ideal S4000000x1 .f32 := extractStridedSlice S4000000x1 ![0, 6] a slices_S4000000x7_S4000000x1_0_6
  shapeCast S4000000 v11 shapeCasts_S4000000x1_S4000000

/-- Its cosine and sine. -/
def cosYaw (a : FVec Ideal S4000000x7 .f32) : FVec Ideal S4000000 .f32 := Host.cos (F := Ideal) (yaw a)
def sinYaw (a : FVec Ideal S4000000x7 .f32) : FVec Ideal S4000000 .f32 := Host.sin (F := Ideal) (yaw a)

/-- Centre coordinate `j` of row `n`: the row's entry `j` plus the table's entry `j` times the row's entry `3 + j`. -/
theorem centres_apply (tab : Fin 3 → BitVec 32) (a : FVec Ideal S4000000x7 .f32) (n : Fin 4000000) (j : Fin 3)
    (k k' : Fin 7) (hk : k.val = 0 + j.val) (hk' : k'.val = 3 + j.val) :
    centres tab a (ix2 n j) = centre (a (ix2 n k)) (a (ix2 n k')) (tab j) := by
  show extractStridedSlice S4000000x3 ![0, 0] a slices_S4000000x7_S4000000x3_0_0 (ix2 n j)
      + broadcastInDim S4000000x3 ![0, 1] bcast_S1x3_S4000000x3_0_1 (broadcastInDim S1x3 ![1] bcast_S3_S1x3_1
          (fun i => (FloatOps.ofBits .f32 (tab (S3.rowMajor i)) : Ideal .f32))) (ix2 n j)
        * extractStridedSlice S4000000x3 ![0, 3] a slices_S4000000x7_S4000000x3_0_3 (ix2 n j) = _
  rw [cols3 a 0 _ n j k hk, cols3 a 3 _ n j k' hk', table_rows]
  have e : S3.rowMajor (ix1 j) = j := Fin.ext (Shape.rowMajor_val_one _)
  show a (ix2 n k) + Ideal.ofBits .f32 (tab (S3.rowMajor (ix1 j))) * a (ix2 n k') = _
  rw [e]
  rfl

/-- Half width `j` of row `n`: the clipped, halved entry `3 + j`. -/
theorem halfWH_apply (a : FVec Ideal S4000000x7 .f32) (n : Fin 4000000) (j : Fin 2) (k : Fin 7) (hk : k.val = 3 + j.val) :
    halfWH a (ix2 n j) = halfSize (a (ix2 n k)) := by
  show broadcastInDim S4000000x2 ![] bcast_S_S4000000x2 (constant (F := Ideal) S_ .f32 0x3F000000#32) (ix2 n j)
      * min (broadcastInDim S4000000x2 ![] bcast_S_S4000000x2 (constant (F := Ideal) S_ .f32 0x4B189680#32) (ix2 n j))
          (max (broadcastInDim S4000000x2 ![] bcast_S_S4000000x2 (constant (F := Ideal) S_ .f32 0x33D6BF95#32) (ix2 n j))
            (extractStridedSlice S4000000x2 ![0, 3] a slices_S4000000x7_S4000000x2_0_3 (ix2 n j))) = _
  rw [splat_apply, splat_apply, splat_apply, cols2 a 3 _ n j k hk]
  rfl

/-- The half length of row `n`: the clipped, halved entry 5. -/
theorem halfL_apply (a : FVec Ideal S4000000x7 .f32) (n : Fin 4000000) : halfL a (ix1 n) = halfSize (a (ix2 n 5)) := by
  show broadcastInDim S4000000 ![] bcast_S_S4000000 (constant (F := Ideal) S_ .f32 0x3F000000#32) (ix1 n)
      * min (broadcastInDim S4000000 ![] bcast_S_S4000000 (constant (F := Ideal) S_ .f32 0x4B189680#32) (ix1 n))
          (max (broadcastInDim S4000000 ![] bcast_S_S4000000 (constant (F := Ideal) S_ .f32 0x33D6BF95#32) (ix1 n))
            (shapeCast S4000000 (extractStridedSlice S4000000x1 ![0, 5] a slices_S4000000x7_S4000000x1_0_5)
              shapeCasts_S4000000x1_S4000000 (ix1 n))) = _
  rw [splat_apply, splat_apply, splat_apply, col7 a 5 _ _ n 5 rfl]
  rfl

/-- The yaw of row `n` is its entry 6. -/
theorem yaw_apply (a : FVec Ideal S4000000x7 .f32) (n : Fin 4000000) : yaw a (ix1 n) = a (ix2 n 6) :=
  col7 a 6 _ _ n 6 rfl

theorem cosYaw_apply (a : FVec Ideal S4000000x7 .f32) (n : Fin 4000000) : cosYaw a (ix1 n) = Ideal.cos (a (ix2 n 6)) := by
  show Ideal.cos (yaw a (ix1 n)) = _
  rw [yaw_apply]

theorem sinYaw_apply (a : FVec Ideal S4000000x7 .f32) (n : Fin 4000000) : sinYaw a (ix1 n) = Ideal.sin (a (ix2 n 6)) := by
  show Ideal.sin (yaw a (ix1 n)) = _
  rw [yaw_apply]

end Cert.ReferenceIdeal.RefValue

end
-- ==== Proof.RefStageLoss.lean ====
/-
  The reference's arithmetic on the per-row quantities. From the two arrays of centres, the two arrays of half widths,
  the two vectors of half lengths, the cosines and sines of the two yaws and the weights, the reference computes the
  weighted loss of every row by entry-by-entry arithmetic, the sums of a row's two or three entries, and single columns
  of the half-width arrays. Read at row `n` this is the specification's scalar formula `core` at that row's
  sixteen numbers, times the row's weight.
-/
import proofs.«161557_j78537771975381_2_alg».proof.Proof.RefStageIdx

noncomputable section

namespace Cert.ReferenceIdeal.RefValue

open Idealize.ShloMosaic Idealize.ShloMosaic.ValueIdx
open Cert.BoxLoss (lit centre halfSize covA covB covD)

variable [Facts]
open Facts₀ Facts

/-- The row loss as a function of the centres `xp, xt`, the half widths `wp, wt`, the half lengths `lp, lt` and the
    cosines and sines of the yaws: the specification's `rowLoss` with those sixteen numbers as variables. -/
def core (xp0 xp1 xp2 xt0 xt1 xt2 wp0 wp1 lp wt0 wt1 lt cp sp ct st : EReal) : EReal :=
  let xyz := (xp0 - xt0) * (xp0 - xt0) + (xp1 - xt1) * (xp1 - xt1) + (xp2 - xt2) * (xp2 - xt2)
  let sizes := (wp0 * wp0 + wp1 * wp1) + (wt0 * wt0 + wt1 * wt1)
  let a1 := covA cp sp (wp0 * wp0) (wp1 * wp1)
  let b1 := covB cp sp (wp0 * wp0) (wp1 * wp1)
  let d1 := covD cp sp (wp0 * wp0) (wp1 * wp1)
  let a2 := covA ct st (wt0 * wt0) (wt1 * wt1)
  let b2 := covB ct st (wt0 * wt0) (wt1 * wt1)
  let d2 := covD ct st (wt0 * wt0) (wt1 * wt1)
  let tr := a1 * a2 + lit 0x40000000#32 * b1 * b2 + d1 * d2
  let det := wp0 * wp1 * wt0 * wt1
  let shape := sizes - lit 0x40000000#32 * Ideal.sqrt (max (lit 0x00000000#32) (tr + lit 0x40000000#32 * det))
  let whlr := shape + (lp - lt) * (lp - lt)
  let dist := Ideal.sqrt (max (lit 0x00000000#32) (xyz + lit 0x3F800000#32 * whlr))
  let vol := Ideal.log det + Ideal.log lp + Ideal.log lt
  let scale := lit 0x40000000#32 * Ideal.exp (Ideal.div vol (lit 0x40C00000#32))
  lit 0x3F800000#32 - Ideal.div (lit 0x3F800000#32) (lit 0x3F800000#32 + Ideal.log1p (Ideal.div dist scale))

/-- The specification's row loss is `core` at the row's centres, half sizes and yaw cosines and sines. -/
theorem rowLoss_eq_core (p t : Fin 7 → EReal) :
    Cert.BoxLoss.rowLoss p t
      = core (centre (p 0) (p 3) 0x00000000#32) (centre (p 1) (p 4) 0x00000000#32) (centre (p 2) (p 5) 0x3F000000#32)
          (centre (t 0) (t 3) 0x00000000#32) (centre (t 1) (t 4) 0x00000000#32) (centre (t 2) (t 5) 0x3F000000#32)
          (halfSize (p 3)) (halfSize (p 4)) (halfSize (p 5)) (halfSize (t 3)) (halfSize (t 4)) (halfSize (t 5))
          (Ideal.cos (p 6)) (Ideal.sin (p 6)) (Ideal.cos (t 6)) (Ideal.sin (t 6)) := rfl

/-! ## The entry-by-entry arithmetic

Everything the reference does between the per-row sums and columns and the weighted loss is entry-by-entry on vectors
with one entry per row: `pointLoss` is that sequence of operations over VARIABLE vectors, `pointScalar` the same
sequence on single numbers, and the first at an index is the second at the entries. -/

/-- The reference's entry-by-entry operations (%45, %50, %55–%68, %73, %78–%98, %103–%144) over the vectors they read. -/
def pointLoss (v40 v42 v44 v47 v49 v52 v54 v70 v72 v75 v77 v100 v102 v105 v108 v18 v37 v13 v14 v32 v33 arg2 : FVec Ideal S4000000 .f32) : FVec Ideal S4000000 .f32 :=
  have v45 : FVec Ideal S4000000 .f32 := addf v42 v44
  have v50 : FVec Ideal S4000000 .f32 := mulf v47 v49
  have v55 : FVec Ideal S4000000 .f32 := mulf v52 v54
  have v56 : FVec Ideal S4000000 .f32 := mulf v13 v13
  have v57 : FVec Ideal S4000000 .f32 := mulf v56 v50
  have v58 : FVec Ideal S4000000 .f32 := mulf v14 v14
  have v59 : FVec Ideal S4000000 .f32 := mulf v58 v55
  have v60 : FVec Ideal S4000000 .f32 := addf v57 v59
  have v61 : FVec Ideal S4000000 .f32 := mulf v13 v14
  have v62 : FVec Ideal S4000000 .f32 := subf v50 v55
  have v63 : FVec Ideal S4000000 .f32 := mulf v61 v62
  have v64 : FVec Ideal S4000000 .f32 := mulf v14 v14
  have v65 : FVec Ideal S4000000 .f32 := mulf v64 v50
  have v66 : FVec Ideal S4000000 .f32 := mulf v13 v13
  have v67 : FVec Ideal S4000000 .f32 := mulf v66 v55
  have v68 : FVec Ideal S4000000 .f32 := addf v65 v67
  have v73 : FVec Ideal S4000000 .f32 := mulf v70 v72
  have v78 : FVec Ideal S4000000 .f32 := mulf v75 v77
  have v79 : FVec Ideal S4000000 .f32 := mulf v32 v32
  have v80 : FVec Ideal S4000000 .f32 := mulf v79 v73
  have v81 : FVec Ideal S4000000 .f32 := mulf v33 v33
  have v82 : FVec Ideal S4000000 .f32 := mulf v81 v78
  have v83 : FVec Ideal S4000000 .f32 := addf v80 v82
  have v84 : FVec Ideal S4000000 .f32 := mulf v32 v33
  have v85 : FVec Ideal S4000000 .f32 := subf v73 v78
  have v86 : FVec Ideal S4000000 .f32 := mulf v84 v85
  have v87 : FVec Ideal S4000000 .f32 := mulf v33 v33
  have v88 : FVec Ideal S4000000 .f32 := mulf v87 v73
  have v89 : FVec Ideal S4000000 .f32 := mulf v32 v32
  have v90 : FVec Ideal S4000000 .f32 := mulf v89 v78
  have v91 : FVec Ideal S4000000 .f32 := addf v88 v90
  have v92 : FVec Ideal S4000000 .f32 := mulf v60 v83
  have cst_16 : FVec Ideal S_ .f32 := constant (F := Ideal) S_ .f32 0x40000000#32
  have v93 : FVec Ideal S4000000 .f32 := broadcastInDim S4000000 ![] bcast_S_S4000000 cst_16
  have v94 : FVec Ideal S4000000 .f32 := mulf v93 v63
  have v95 : FVec Ideal S4000000 .f32 := mulf v94 v86
  have v96 : FVec Ideal S4000000 .f32 := addf v92 v95
  have v97 : FVec Ideal S4000000 .f32 := mulf v68 v91
  have v98 : FVec Ideal S4000000 .f32 := addf v96 v97
  have v103 : FVec Ideal S4000000 .f32 := mulf v100 v102
  have v106 : FVec Ideal S4000000 .f32 := mulf v103 v105
  have v109 : FVec Ideal S4000000 .f32 := mulf v106 v108
  have cst_17 : FVec Ideal S_ .f32 := constant (F := Ideal) S_ .f32 0x40000000#32
  have v110 : FVec Ideal S4000000 .f32 := broadcastInDim S4000000 ![] bcast_S_S4000000 cst_17
  have v111 : FVec Ideal S4000000 .f32 := mulf v110 v109
  have v112 : FVec Ideal S4000000 .f32 := addf v98 v111
  have cst_18 : FVec Ideal S_ .f32 := constant (F := Ideal) S_ .f32 0x00000000#32
  have c4_v0 : FVec Ideal S_ .f32 := id cst_18
  have c4_v1 : FVec Ideal S4000000 .f32 := broadcastInDim S4000000 ![] bcast_S_S4000000 c4_v0
  have v113 : FVec Ideal S4000000 .f32 := maximumf c4_v1 v112
  have v114 : FVec Ideal S4000000 .f32 := Host.sqrt (F := Ideal) v113
  have cst_19 : FVec Ideal S_ .f32 := constant (F := Ideal) S_ .f32 0x40000000#32
  have v115 : FVec Ideal S4000000 .f32 := broadcastInDim S4000000 ![] bcast_S_S4000000 cst_19
  have v116 : FVec Ideal S4000000 .f32 := mulf v115 v114
  have v117 : FVec Ideal S4000000 .f32 := subf v45 v116
  have v118 : FVec Ideal S4000000 .f32 := subf v18 v37
  have v119 : FVec Ideal S4000000 .f32 := mulf v118 v118
  have v120 : FVec Ideal S4000000 .f32 := addf v117 v119
  have cst_20 : FVec Ideal S_ .f32 := constant (F := Ideal) S_ .f32 0x3F800000#32
  have v121 : FVec Ideal S4000000 .f32 := broadcastInDim S4000000 ![] bcast_S_S4000000 cst_20
  have v122 : FVec Ideal S4000000 .f32 := mulf v121 v120
  have v123 : FVec Ideal S4000000 .f32 := addf v40 v122
  have cst_21 : FVec Ideal S_ .f32 := constant (F := Ideal) S_ .f32 0x00000000#32
  have c5_v0 : FVec Ideal S_ .f32 := id cst_21
  have c5_v1 : FVec Ideal S4000000 .f32 := broadcastInDim S4000000 ![] bcast_S_S4000000 c5_v0
  have v124 : FVec Ideal S4000000 .f32 := maximumf c5_v1 v123
  have v125 : FVec Ideal S4000000 .f32 := Host.sqrt (F := Ideal) v124
  have v126 : FVec Ideal S4000000 .f32 := Host.log (F := Ideal) v109
  have v127 : FVec Ideal S4000000 .f32 := Host.log (F := Ideal) v18
  have v128 : FVec Ideal S4000000 .f32 := addf v126 v127
  have v129 : FVec Ideal S4000000 .f32 := Host.log (F := Ideal) v37
  have v130 : FVec Ideal S4000000 .f32 := addf v128 v129
  have cst_22 : FVec Ideal S_ .f32 := constant (F := Ideal) S_ .f32 0x40C00000#32
  have v131 : FVec Ideal S4000000 .f32 := broadcastInDim S4000000 ![] bcast_S_S4000000 cst_22
  have v132 : FVec Ideal S4000000 .f32 := Host.divf (F := Ideal) v130 v131
  have v133 : FVec Ideal S4000000 .f32 := Host.exp (F := Ideal) v132
  have cst_23 : FVec Ideal S_ .f32 := constant (F := Ideal) S_ .f32 0x40000000#32
  have v134 : FVec Ideal S4000000 .f32 := broadcastInDim S4000000 ![] bcast_S_S4000000 cst_23
  have v135 : FVec Ideal S4000000 .f32 := mulf v134 v133
  have v136 : FVec Ideal S4000000 .f32 := Host.divf (F := Ideal) v125 v135
  have v137 : FVec Ideal S4000000 .f32 := Host.log1p (F := Ideal) v136
  have cst_24 : FVec Ideal S_ .f32 := constant (F := Ideal) S_ .f32 0x3F800000#32
  have v138 : FVec Ideal S4000000 .f32 := broadcastInDim S4000000 ![] bcast_S_S4000000 cst_24
  have v139 : FVec Ideal S4000000 .f32 := addf v138 v137
  have cst_25 : FVec Ideal S_ .f32 := constant (F := Ideal) S_ .f32 0x3F800000#32
  have v140 : FVec Ideal S4000000 .f32 := broadcastInDim S4000000 ![] bcast_S_S4000000 cst_25
  have v141 : FVec Ideal S4000000 .f32 := Host.divf (F := Ideal) v140 v139
  have cst_26 : FVec Ideal S_ .f32 := constant (F := Ideal) S_ .f32 0x3F800000#32
  have v142 : FVec Ideal S4000000 .f32 := broadcastInDim S4000000 ![] bcast_S_S4000000 cst_26
  have v143 : FVec Ideal S4000000 .f32 := subf v142 v141
  mulf v143 arg2

/-- The same operations on numbers. -/
def pointScalar (v40 v42 v44 v47 v49 v52 v54 v70 v72 v75 v77 v100 v102 v105 v108 v18 v37 v13 v14 v32 v33 arg2 : EReal) : EReal :=
  let v45 : EReal := v42 + v44
  let v50 : EReal := v47 * v49
  let v55 : EReal := v52 * v54
  let v56 : EReal := v13 * v13
  let v57 : EReal := v56 * v50
  let v58 : EReal := v14 * v14
  let v59 : EReal := v58 * v55
  let v60 : EReal := v57 + v59
  let v61 : EReal := v13 * v14
  let v62 : EReal := v50 - v55
  let v63 : EReal := v61 * v62
  let v64 : EReal := v14 * v14
  let v65 : EReal := v64 * v50
  let v66 : EReal := v13 * v13
  let v67 : EReal := v66 * v55
  let v68 : EReal := v65 + v67
  let v73 : EReal := v70 * v72
  let v78 : EReal := v75 * v77
  let v79 : EReal := v32 * v32
  let v80 : EReal := v79 * v73
  let v81 : EReal := v33 * v33
  let v82 : EReal := v81 * v78
  let v83 : EReal := v80 + v82
  let v84 : EReal := v32 * v33
  let v85 : EReal := v73 - v78
  let v86 : EReal := v84 * v85
  let v87 : EReal := v33 * v33
  let v88 : EReal := v87 * v73
  let v89 : EReal := v32 * v32
  let v90 : EReal := v89 * v78
  let v91 : EReal := v88 + v90
  let v92 : EReal := v60 * v83
  let cst_16 : EReal := lit 0x40000000#32
  let v93 : EReal := cst_16
  let v94 : EReal := v93 * v63
  let v95 : EReal := v94 * v86
  let v96 : EReal := v92 + v95
  let v97 : EReal := v68 * v91
  let v98 : EReal := v96 + v97
  let v103 : EReal := v100 * v102
  let v106 : EReal := v103 * v105
  let v109 : EReal := v106 * v108
  let cst_17 : EReal := lit 0x40000000#32
  let v110 : EReal := cst_17
  let v111 : EReal := v110 * v109
  let v112 : EReal := v98 + v111
  let cst_18 : EReal := lit 0x00000000#32
  let c4_v0 : EReal := cst_18
  let c4_v1 : EReal := c4_v0
  let v113 : EReal := max c4_v1 v112
  let v114 : EReal := Ideal.sqrt v113
  let cst_19 : EReal := lit 0x40000000#32
  let v115 : EReal := cst_19
  let v116 : EReal := v115 * v114
  let v117 : EReal := v45 - v116
  let v118 : EReal := v18 - v37
  let v119 : EReal := v118 * v118
  let v120 : EReal := v117 + v119
  let cst_20 : EReal := lit 0x3F800000#32
  let v121 : EReal := cst_20
  let v122 : EReal := v121 * v120
  let v123 : EReal := v40 + v122
  let cst_21 : EReal := lit 0x00000000#32
  let c5_v0 : EReal := cst_21
  let c5_v1 : EReal := c5_v0
  let v124 : EReal := max c5_v1 v123
  let v125 : EReal := Ideal.sqrt v124
  let v126 : EReal := Ideal.log v109
  let v127 : EReal := Ideal.log v18
  let v128 : EReal := v126 + v127
  let v129 : EReal := Ideal.log v37
  let v130 : EReal := v128 + v129
  let cst_22 : EReal := lit 0x40C00000#32
  let v131 : EReal := cst_22
  let v132 : EReal := Ideal.div v130 v131
  let v133 : EReal := Ideal.exp v132
  let cst_23 : EReal := lit 0x40000000#32
  let v134 : EReal := cst_23
  let v135 : EReal := v134 * v133
  let v136 : EReal := Ideal.div v125 v135
  let v137 : EReal := Ideal.log1p v136
  let cst_24 : EReal := lit 0x3F800000#32
  let v138 : EReal := cst_24
  let v139 : EReal := v138 + v137
  let cst_25 : EReal := lit 0x3F800000#32
  let v140 : EReal := cst_25
  let v141 : EReal := Ideal.div v140 v139
  let cst_26 : EReal := lit 0x3F800000#32
  let v142 : EReal := cst_26
  let v143 : EReal := v142 - v141
  v143 * arg2

/-- The host's unary functions at an index, at the extended reals. -/
theorem hostSqrt_apply {s : Shape} (x : FVec Ideal s .f32) (i : s.Idx) : Host.sqrt (F := Ideal) x i = Ideal.sqrt (x i) := rfl
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl
theorem hostLog1p_apply {s : Shape} (x : FVec Ideal s .f32) (i : s.Idx) : Host.log1p (F := Ideal) x i = Ideal.log1p (x i) := rfl

theorem pointLoss_apply (v40 v42 v44 v47 v49 v52 v54 v70 v72 v75 v77 v100 v102 v105 v108 v18 v37 v13 v14 v32 v33 arg2 : FVec Ideal S4000000 .f32) (i : S4000000.Idx) :
    pointLoss v40 v42 v44 v47 v49 v52 v54 v70 v72 v75 v77 v100 v102 v105 v108 v18 v37 v13 v14 v32 v33 arg2 i = pointScalar (v40 i) (v42 i) (v44 i) (v47 i) (v49 i) (v52 i) (v54 i) (v70 i) (v72 i) (v75 i) (v77 i) (v100 i) (v102 i) (v105 i) (v108 i) (v18 i) (v37 i) (v13 i) (v14 i) (v32 i) (v33 i) (arg2 i) := by
  simp only [pointLoss, pointScalar, mulf_apply, addf_apply, subf_apply, maximumf_apply, hostDivf_apply, hostSqrt_apply,
    hostLog_apply, hostExp_apply, hostLog1p_apply, id_eq]
  rw [splat_apply _ 0x3F800000#32, splat_apply _ 0x00000000#32, splat_apply _ 0x40000000#32, splat_apply _ 0x40C00000#32]

/-! ## The sums along a row and the single columns -/

/-- The squared distance of two three-column arrays, row by row (%38–%40). -/
def sqDiffSum (v5 v24 : FVec Ideal S4000000x3 .f32) : FVec Ideal S4000000 .f32 :=
  have v38 : FVec Ideal S4000000x3 .f32 := subf v5 v24
  have v39 : FVec Ideal S4000000x3 .f32 := mulf v38 v38
  have cst_13 : FVec Ideal S_ .f32 := constant (F := Ideal) S_ .f32 0x00000000#32
  Host.reduceAdd (F := Ideal) v39 cst_13 reducesTo_S4000000x3_S4000000_d1 h_S_

/-- The sum of the squares of a two-column array's rows (%41–%42, %43–%44). -/
def sqSum (w : FVec Ideal S4000000x2 .f32) : FVec Ideal S4000000 .f32 :=
  have v41 : FVec Ideal S4000000x2 .f32 := mulf w w
  have cst_14 : FVec Ideal S_ .f32 := constant (F := Ideal) S_ .f32 0x00000000#32
  Host.reduceAdd (F := Ideal) v41 cst_14 reducesTo_S4000000x2_S4000000_d1 h_S_

/-- Column 0, and column 1, of a two-column array as a vector (%46–%47 and the like). -/
def colv0 (w : FVec Ideal S4000000x2 .f32) : FVec Ideal S4000000 .f32 :=
  have v46 : FVec Ideal S4000000x1 .f32 := extractStridedSlice S4000000x1 ![0, 0] w slices_S4000000x2_S4000000x1_0_0
  shapeCast S4000000 v46 shapeCasts_S4000000x1_S4000000
def colv1 (w : FVec Ideal S4000000x2 .f32) : FVec Ideal S4000000 .f32 :=
  have v51 : FVec Ideal S4000000x1 .f32 := extractStridedSlice S4000000x1 ![0, 1] w slices_S4000000x2_S4000000x1_0_1
  shapeCast S4000000 v51 shapeCasts_S4000000x1_S4000000

theorem sqDiffSum_apply (v5 v24 : FVec Ideal S4000000x3 .f32) (n : Fin 4000000) :
    sqDiffSum v5 v24 (ix1 n)
      = (v5 (ix2 n 0) - v24 (ix2 n 0)) * (v5 (ix2 n 0) - v24 (ix2 n 0))
        + (v5 (ix2 n 1) - v24 (ix2 n 1)) * (v5 (ix2 n 1) - v24 (ix2 n 1))
        + (v5 (ix2 n 2) - v24 (ix2 n 2)) * (v5 (ix2 n 2) - v24 (ix2 n 2)) :=
  rowSum3 (mulf (subf v5 v24) (subf v5 v24)) n

theorem sqSum_apply (w : FVec Ideal S4000000x2 .f32) (n : Fin 4000000) :
    sqSum w (ix1 n) = w (ix2 n 0) * w (ix2 n 0) + w (ix2 n 1) * w (ix2 n 1) :=
  rowSum2 (mulf w w) n

theorem colv0_apply (w : FVec Ideal S4000000x2 .f32) (n : Fin 4000000) : colv0 w (ix1 n) = w (ix2 n 0) :=
  col2 w 0 _ _ n 0 rfl
theorem colv1_apply (w : FVec Ideal S4000000x2 .f32) (n : Fin 4000000) : colv1 w (ix1 n) = w (ix2 n 1) :=
  col2 w 1 _ _ n 1 rfl

/-! ## From the per-row quantities to the weighted loss -/

/-- The reference's operations %38–%144: from the centres `v5, v24`, the half widths `v16, v35`, the half lengths
    `v18, v37`, the yaws' cosines and sines and the weights to the weighted loss of every row. -/
def lossOf (v5 v24 : FVec Ideal S4000000x3 .f32) (v16 v35 : FVec Ideal S4000000x2 .f32)
    (v18 v37 v13 v14 v32 v33 arg2 : FVec Ideal S4000000 .f32) : FVec Ideal S4000000 .f32 :=
  pointLoss (sqDiffSum v5 v24) (sqSum v16) (sqSum v35) (colv0 v16) (colv0 v16) (colv1 v16) (colv1 v16)
    (colv0 v35) (colv0 v35) (colv1 v35) (colv1 v35) (colv0 v16) (colv1 v16) (colv0 v35) (colv1 v35)
    v18 v37 v13 v14 v32 v33 arg2

/-- The weighted loss of row `n`. -/
theorem lossOf_apply (v5 v24 : FVec Ideal S4000000x3 .f32) (v16 v35 : FVec Ideal S4000000x2 .f32)
    (v18 v37 v13 v14 v32 v33 arg2 : FVec Ideal S4000000 .f32) (n : Fin 4000000) :
    lossOf v5 v24 v16 v35 v18 v37 v13 v14 v32 v33 arg2 (ix1 n)
      = core (v5 (ix2 n 0)) (v5 (ix2 n 1)) (v5 (ix2 n 2)) (v24 (ix2 n 0)) (v24 (ix2 n 1)) (v24 (ix2 n 2))
          (v16 (ix2 n 0)) (v16 (ix2 n 1)) (v18 (ix1 n)) (v35 (ix2 n 0)) (v35 (ix2 n 1)) (v37 (ix1 n))
          (v13 (ix1 n)) (v14 (ix1 n)) (v32 (ix1 n)) (v33 (ix1 n)) * arg2 (ix1 n) := by
  unfold lossOf
  rw [pointLoss_apply, sqDiffSum_apply, sqSum_apply, sqSum_apply, colv0_apply, colv1_apply, colv0_apply, colv1_apply]
  simp only [pointScalar, core, covA, covB, covD]

end Cert.ReferenceIdeal.RefValue

end
-- ==== Proof.RefChain.lean ====
/-
  The reference's value as one function of its three arguments. `lossRows` is the vector of weighted row losses the
  reference builds (its operations up to the product with the weights); read at row `n` it is the specification's
  weighted loss of that row of the two arrays. `chain` is the reference's result: the sum of that vector from zero,
  divided by 4 000 000 and multiplied by one, which is the specification's `result`.
-/
import proofs.«161557_j78537771975381_2_alg».proof.Proof.RefStageRow
import proofs.«161557_j78537771975381_2_alg».proof.Proof.RefStageLoss

noncomputable section

namespace Cert.ReferenceIdeal.RefValue

open Idealize.ShloMosaic Idealize.ShloMosaic.ValueIdx
open scoped BigOperators

variable [Facts]
open Facts₀ Facts

/-- The weighted row losses: the per-row quantities of the predictions (offset table `lit0`) and of the targets
    (offset table `lit1`), then the arithmetic on them and the product with the weights. -/
def lossRows (a0 a1 : FVec Ideal S4000000x7 .f32) (a2 : FVec Ideal S4000000 .f32) : FVec Ideal S4000000 .f32 :=
  lossOf (centres lit0 a0) (centres lit1 a1) (halfWH a0) (halfWH a1) (halfL a0) (halfL a1)
    (cosYaw a0) (sinYaw a0) (cosYaw a1) (sinYaw a1) a2

/-- Row `n` of `lossRows` is the specification's weighted loss of row `n`. -/
theorem lossRows_apply (a0 a1 : FVec Ideal S4000000x7 .f32) (a2 : FVec Ideal S4000000 .f32) (n : Fin 4000000) :
    lossRows a0 a1 a2 (ix1 n)
      = Cert.BoxLoss.weighted (Cert.BoxLoss.rowOf a0 n) (Cert.BoxLoss.rowOf a1 n) (a2 (ix1 n)) := by
  unfold lossRows
  rw [lossOf_apply,
    centres_apply lit0 a0 n 0 0 3 rfl rfl, centres_apply lit0 a0 n 1 1 4 rfl rfl, centres_apply lit0 a0 n 2 2 5 rfl rfl,
    centres_apply lit1 a1 n 0 0 3 rfl rfl, centres_apply lit1 a1 n 1 1 4 rfl rfl, centres_apply lit1 a1 n 2 2 5 rfl rfl,
    halfWH_apply a0 n 0 3 rfl, halfWH_apply a0 n 1 4 rfl, halfWH_apply a1 n 0 3 rfl, halfWH_apply a1 n 1 4 rfl,
    halfL_apply, halfL_apply, cosYaw_apply, sinYaw_apply, cosYaw_apply, sinYaw_apply]
  unfold Cert.BoxLoss.weighted
  rw [rowLoss_eq_core]
  rfl

/-- The reference's result: the sum of the weighted row losses from zero, over 4 000 000, times one. -/
def chain (a0 a1 : FVec Ideal S4000000x7 .f32) (a2 : FVec Ideal S4000000 .f32) : FVec Ideal S_ .f32 :=
  mulf (constant (F := Ideal) S_ .f32 0x3F800000#32)
    (Host.divf (F := Ideal)
      (Host.reduceAdd (F := Ideal) (lossRows a0 a1 a2) (constant (F := Ideal) S_ .f32 0x00000000#32) reducesTo_S4000000_S_d0 h_S_)
      (constant (F := Ideal) S_ .f32 0x4A742400#32))

/-- The reference's result is the specification's. -/
theorem chain_eq (a0 a1 : FVec Ideal S4000000x7 .f32) (a2 : FVec Ideal S4000000 .f32) :
    chain a0 a1 a2 = Cert.BoxLoss.result a0 a1 a2 := by
  funext j
  show Ideal.ofBits .f32 0x3F800000#32
      * Ideal.div (Host.reduceAdd (F := Ideal) (lossRows a0 a1 a2) (constant (F := Ideal) S_ .f32 0x00000000#32)
          reducesTo_S4000000_S_d0 h_S_ j) (Ideal.ofBits .f32 0x4A742400#32) = _
  rw [totalSum, Finset.sum_congr rfl fun n _ => lossRows_apply a0 a1 a2 n]
  rfl

end Cert.ReferenceIdeal.RefValue

end
-- ==== Proof.RefRead.lean ====
/-
  The reference's result buffer, read off its run: the fold of @main's operations over any contents of the buffers,
  at the result buffer, is the composition `chain` of the three argument buffers' contents — each operation's result
  read where the next operation takes it — and therefore the specification's `result` of the three arguments.
-/
import proofs.«161557_j78537771975381_2_alg».proof.Proof.RefOps
import proofs.«161557_j78537771975381_2_alg».proof.Proof.RefChain

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun

set_option maxRecDepth 8192 in
set_option maxHeartbeats 4000000 in
/-- After all of @main's operations the result buffer holds `chain` of the three arguments' contents: every
    operation writes its own buffer once, so reading the result back through the operations, each buffer at the
    operation that wrote it, composes the operations' functions in program order; that composition is `chain`
    term for term (a reshape between equal element types is the plain `shapeCast`). -/
theorem after_ops_result (V : Valuation τ sig (Elt Ideal)) :
    after (ops (F := Ideal)) V (Proc.devRef .tc main_v147)
      = chain (V (Proc.devRef .tc main_arg0)) (V (Proc.devRef .tc main_arg1)) (V (Proc.devRef .tc main_arg2)) := by
  rw [after_ops]
  after_results_simp
  rfl

/-- The reference's result, from any launch memory: the specification's `result` of the three argument arrays. -/
theorem result_eq (m : (ℓ : Loc nD τ sig) → Buf (Elt Ideal) ℓ) (c : Dev nD) :
    after (ops (F := Ideal)) (fun b => m (c, b)) (Proc.devRef .tc main_v147)
      = Cert.BoxLoss.result (m ((c.tc : Thread nD τ).loc main_arg0)) (m ((c.tc : Thread nD τ).loc main_arg1))
          (m ((c.tc : Thread nD τ).loc main_arg2)) :=
  (after_ops_result (launchContents m c)).trans (chain_eq _ _ _)

end Cert.ReferenceIdeal.RefValue

end
-- ==== Proof.lean ====
/-
  Both programs compute the mean over N = 4 000 000 rows of a box-distance loss times a per-row weight.

  The loss of a row (Proof/Spec.lean) is one expression of the row's seven predicted and seven target numbers on
  the extended reals. The reference evaluates it on whole vectors of N rows and sums; the kernel pads the rows to
  32768 · 128 with rows of ones of weight zero, re-lays them lane-dense, and lets each of two cores accumulate, chunk
  by chunk and sub-tile by sub-tile, the lane-wise column sums of loss times weight, which the host then adds over
  the lanes and the two cores. A padded row contributes loss · 0 = 0 whatever its loss, and addition on the extended
  reals is commutative and associative, so both results are the same mean; no finiteness of the inputs is used.
  The word-level kernel and its idealization differ by no rewrite, and the three programs' frames are the generated
  frame runs (for the reference: its run with the result dropped).
-/
import proofs.«161557_j78537771975381_2_alg».proof.Defs
import proofs.«161557_j78537771975381_2_alg».proof.Proof.Gen.Kernel
import proofs.«161557_j78537771975381_2_alg».proof.Proof.Gen.Kernel.Frame
import proofs.«161557_j78537771975381_2_alg».proof.Proof.Gen.KernelIdeal
import proofs.«161557_j78537771975381_2_alg».proof.Proof.Gen.KernelIdeal.Frame
import proofs.«161557_j78537771975381_2_alg».proof.Proof.Gen.ReferenceIdeal
import proofs.«161557_j78537771975381_2_alg».proof.Proof.Gen.Pre_finite_inputs
import proofs.«161557_j78537771975381_2_alg».proof.Proof.KernelValue
import proofs.«161557_j78537771975381_2_alg».proof.Proof.RefRun
import proofs.«161557_j78537771975381_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments both idealized programs end with the mean weighted loss of those
    arguments in their results. -/
theorem algebraic : Cert.algebraic_KernelIdeal_ReferenceIdeal := by
  intro m ρ m' ρ' _ hagree
  refine ⟨fun c => Cert.BoxLoss.result (m ((c.tc : Thread _ _).loc Cert.KernelIdeal.main_arg0))
      (m ((c.tc : Thread _ _).loc Cert.KernelIdeal.main_arg1)) (m ((c.tc : Thread _ _).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
